-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v58)) (v2 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_v59) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x512 : Shape := ⟨2, ![12288, 512]⟩
abbrev S405504 : Shape := ⟨1, ![405504]⟩
abbrev S512x32 : Shape := ⟨2, ![512, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S12288x512 : S_.BroadcastsInDim S12288x512 (![] : Fin 0 → Fin S12288x512.rank)
  reducesTo_S12288x512_S_d0_1 : S12288x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_arg7 : FVec F S32x16 .f32) (main_arg8 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S32x16 .f32 := Host.absf main_arg7
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S12288x512 .f32) (main_arg1 : IVec S405504 32) (main_arg2 : IVec S405504 32) (main_arg3 : FVec F S512x32 .f32) (main_arg4 : FVec F S32 .f32) (main_arg5 : FVec F S32x16 .f32) (main_arg6 : FVec F S16 .f32) (main_arg7 : FVec F S32x16 .f32) (main_arg8 : FVec F S16 .f32) : IVec S_ 1 :=
  let main_v0 : FVec F S12288x512 .f32 := Host.absf main_arg0
  let main_cst : FVec F S_ .f32 := constant S_ .f32 0x7F800000#32
  let main_v1 : FVec F S12288x512 .f32 := broadcastInDim S12288x512 ![] bcast_S_S12288x512 main_cst
  let main_v2 : IVec S12288x512 1 := cmpf .olt main_v0 main_v1
  let main_c : IVec S_ 1 := constantI S_ 1 1#1
  let main_v3 : IVec S_ 1 := (fun x v => Host.reduce IntOp.andi x v reducesTo_S12288x512_S_d0_1 h_S_) main_v2 main_c
  let main_v4 : FVec F S512x32 .f32 := Host.absf main_arg3
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg5
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg6 main_arg7 main_arg8 main_v13 main_v16
-- ==== Kernel.lean ====
abbrev S12288x512 : Shape := ⟨2, ![12288, 512]⟩
abbrev S405504 : Shape := ⟨1, ![405504]⟩
abbrev S512x32 : Shape := ⟨2, ![512, 32]⟩
abbrev S32 : Shape := ⟨1, ![32]⟩
abbrev S32x16 : Shape := ⟨2, ![32, 16]⟩
abbrev S16 : Shape := ⟨1, ![16]⟩
abbrev S_ : Shape := ⟨0, ![]⟩
abbrev S12288 : Shape := ⟨1, ![12288]⟩
abbrev S405504x1 : Shape := ⟨2, ![405504, 1]⟩
abbrev S12288x1 : Shape := ⟨2, ![12288, 1]⟩
abbrev S12288x32 : Shape := ⟨2, ![12288, 32]⟩
abbrev S2048x512 : Shape := ⟨2, ![2048, 512]⟩
abbrev S2048x1 : Shape := ⟨2, ![2048, 1]⟩
abbrev S2048x32 : Shape := ⟨2, ![2048, 32]⟩
abbrev S405504x32 : Shape := ⟨2, ![405504, 32]⟩
abbrev S1x32 : Shape := ⟨2, ![1, 32]⟩
abbrev S32x32 : Shape := ⟨2, ![32, 32]⟩
abbrev S12288x16 : Shape := ⟨2, ![12288, 16]⟩
abbrev S12288x12288 : Shape := ⟨2, ![12288, 12288]⟩
abbrev S1536x16 : Shape := ⟨2, ![1536, 16]⟩
abbrev S1536x1536 : Shape := ⟨2, ![1536, 1536]⟩

abbrev nBuf : Space → Nat
  | .hbm => 91
  | .vmem => 19
  | .smem => 0
  | _ => 0

abbrev bufTy : (tb : Table) → Fin (tcTables nBuf tb) → BufTy
  | .hbm, ⟨0, _⟩ => ⟨S12288x512, .f32⟩
  | .hbm, ⟨1, _⟩ => ⟨S405504, .i32⟩
  | .hbm, ⟨2, _⟩ => ⟨S405504, .i32⟩
  | .hbm, ⟨3, _⟩ => ⟨S512x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S32x16, .f32⟩
  | .hbm, ⟨8, _⟩ => ⟨S16, .f32⟩
  | .hbm, ⟨9, _⟩ => ⟨S_, .f32⟩
  | .hbm, ⟨10, _⟩ => ⟨S405504, .f32⟩
  | .hbm, ⟨11, _⟩ => ⟨S_, .f32⟩
  | .hbm, ⟨12, _⟩ => ⟨S12288, .f32⟩
  | .hbm, ⟨13, _⟩ => ⟨S405504x1, .i32⟩
  | .hbm, ⟨14, _⟩ => ⟨S12288, .f32⟩
  | .hbm, ⟨15, _⟩ => ⟨S_, .f32⟩
  | .hbm, ⟨16, _⟩ => ⟨S12288, .f32⟩
  | .hbm, ⟨17, _⟩ => ⟨S405504x1, .i32⟩
  | .hbm, ⟨18, _⟩ => ⟨S12288, .f32⟩
  | .hbm, ⟨19, _⟩ => ⟨S_, .f32⟩
  | .hbm, ⟨20, _⟩ => ⟨S12288, .f32⟩
  | .hbm, ⟨21, _⟩ => ⟨S12288, .i1⟩
  | .hbm, ⟨22, _⟩ => ⟨S_, .f32⟩
  | .hbm, ⟨23, _⟩ => ⟨S12288, .f32⟩
  | .hbm, ⟨24, _⟩ => ⟨S12288, .f32⟩
  | .hbm, ⟨25, _⟩ => ⟨S12288, .f32⟩
  | .hbm, ⟨26, _⟩ => ⟨S_, .f32⟩
  | .hbm, ⟨27, _⟩ => ⟨S_, .f32⟩
  | .hbm, ⟨28, _⟩ => ⟨S12288, .f32⟩
  | .hbm, ⟨29, _⟩ => ⟨S12288, .f32⟩
  | .hbm, ⟨30, _⟩ => ⟨S_, .f32⟩
  | .hbm, ⟨31, _⟩ => ⟨S12288, .f32⟩
  | .hbm, ⟨32, _⟩ => ⟨S12288, .i1⟩
  | .hbm, ⟨33, _⟩ => ⟨S_, .f32⟩
  | .hbm, ⟨34, _⟩ => ⟨S12288, .f32⟩
  | .hbm, ⟨35, _⟩ => ⟨S12288, .f32⟩
  | .hbm, ⟨36, _⟩ => ⟨S12288, .f32⟩
  | .hbm, ⟨37, _⟩ => ⟨S_, .f32⟩
  | .hbm, ⟨38, _⟩ => ⟨S_, .f32⟩
  | .hbm, ⟨39, _⟩ => ⟨S12288, .f32⟩
  | .hbm, ⟨40, _⟩ => ⟨S12288, .f32⟩
  | .hbm, ⟨41, _⟩ => ⟨S12288x1, .f32⟩
  | .hbm, ⟨42, _⟩ => ⟨S12288x1, .f32⟩
  | .hbm, ⟨43, _⟩ => ⟨S12288x32, .f32⟩
  | .hbm, ⟨44, _⟩ => ⟨S_, .i32⟩
  | .hbm, ⟨45, _⟩ => ⟨S405504, .i32⟩
  | .hbm, ⟨46, _⟩ => ⟨S405504, .i1⟩
  | .hbm, ⟨47, _⟩ => ⟨S_, .i32⟩
  | .hbm, ⟨48, _⟩ => ⟨S405504, .i32⟩
  | .hbm, ⟨49, _⟩ => ⟨S405504, .i32⟩
  | .hbm, ⟨50, _⟩ => ⟨S405504, .i32⟩
  | .hbm, ⟨51, _⟩ => ⟨S405504x1, .i32⟩
  | .hbm, ⟨52, _⟩ => ⟨S405504x32, .f32⟩
  | .hbm, ⟨53, _⟩ => ⟨S_, .f32⟩
  | .hbm, ⟨54, _⟩ => ⟨S12288x32, .f32⟩
  | .hbm, ⟨55, _⟩ => ⟨S405504x1, .i32⟩
  | .hbm, ⟨56, _⟩ => ⟨S12288x32, .f32⟩
  | .hbm, ⟨57, _⟩ => ⟨S12288x32, .f32⟩
  | .hbm, ⟨58, _⟩ => ⟨S12288x32, .f32⟩
  | .hbm, ⟨59, _⟩ => ⟨S1x32, .f32⟩
  | .hbm, ⟨60, _⟩ => ⟨S12288x32, .f32⟩
  | .hbm, ⟨61, _⟩ => ⟨S12288x32, .f32⟩
  | .hbm, ⟨62, _⟩ => ⟨S_, .f32⟩
  | .hbm, ⟨63, _⟩ => ⟨S12288x32, .f32⟩
  | .hbm, ⟨64, _⟩ => ⟨S12288x32, .f32⟩
  | .hbm, ⟨65, _⟩ => ⟨S12288x1, .f32⟩
  | .hbm, ⟨66, _⟩ => ⟨S12288x32, .f32⟩
  | .hbm, ⟨67, _⟩ => ⟨S12288x32, .f32⟩
  | .hbm, ⟨68, _⟩ => ⟨S_, .i32⟩
  | .hbm, ⟨69, _⟩ => ⟨S405504, .i32⟩
  | .hbm, ⟨70, _⟩ => ⟨S405504, .i1⟩
  | .hbm, ⟨71, _⟩ => ⟨S_, .i32⟩
  | .hbm, ⟨72, _⟩ => ⟨S405504, .i32⟩
  | .hbm, ⟨73, _⟩ => ⟨S405504, .i32⟩
  | .hbm, ⟨74, _⟩ => ⟨S405504, .i32⟩
  | .hbm, ⟨75, _⟩ => ⟨S405504x1, .i32⟩
  | .hbm, ⟨76, _⟩ => ⟨S405504x32, .f32⟩
  | .hbm, ⟨77, _⟩ => ⟨S_, .f32⟩
  | .hbm, ⟨78, _⟩ => ⟨S12288x32, .f32⟩
  | .hbm, ⟨79, _⟩ => ⟨S405504x1, .i32⟩
  | .hbm, ⟨80, _⟩ => ⟨S12288x32, .f32⟩
  | .hbm, ⟨81, _⟩ => ⟨S12288x1, .f32⟩
  | .hbm, ⟨82, _⟩ => ⟨S12288x32, .f32⟩
  | .hbm, ⟨83, _⟩ => ⟨S12288x32, .f32⟩
  | .hbm, ⟨84, _⟩ => ⟨S32x32, .f32⟩
  | .hbm, ⟨85, _⟩ => ⟨S32, .f32⟩
  | .hbm, ⟨86, _⟩ => ⟨S1x32, .f32⟩
  | .hbm, ⟨87, _⟩ => ⟨S12288x32, .f32⟩
  | .hbm, ⟨88, _⟩ => ⟨S12288x16, .f32⟩
  | .hbm, ⟨89, _⟩ => ⟨S12288x16, .f32⟩
  | .hbm, ⟨90, _⟩ => ⟨S12288x12288, .f32⟩
  | .local _ .vmem, ⟨0, _⟩ => ⟨S2048x512, .f32⟩
  | .local _ .vmem, ⟨1, _⟩ => ⟨S2048x512, .f32⟩
  | .local _ .vmem, ⟨2, _⟩ => ⟨S2048x1, .f32⟩
  | .local _ .vmem, ⟨3, _⟩ => ⟨S2048x1, .f32⟩
  | .local _ .vmem, ⟨4, _⟩ => ⟨S512x32, .f32⟩
  | .local _ .vmem, ⟨5, _⟩ => ⟨S2048x32, .f32⟩
  | .local _ .vmem, ⟨6, _⟩ => ⟨S2048x32, .f32⟩
  | .local _ .vmem, ⟨7, _⟩ => ⟨S2048x32, .f32⟩
  | .local _ .vmem, ⟨8, _⟩ => ⟨S2048x32, .f32⟩
  | .local _ .vmem, ⟨9, _⟩ => ⟨S32x32, .f32⟩
  | .local _ .vmem, ⟨10, _⟩ => ⟨S1x32, .f32⟩
  | .local _ .vmem, ⟨11, _⟩ => ⟨S2048x32, .f32⟩
  | .local _ .vmem, ⟨12, _⟩ => ⟨S2048x32, .f32⟩
  | .local _ .vmem, ⟨13, _⟩ => ⟨S1536x16, .f32⟩
  | .local _ .vmem, ⟨14, _⟩ => ⟨S1536x16, .f32⟩
  | .local _ .vmem, ⟨15, _⟩ => ⟨S1536x16, .f32⟩
  | .local _ .vmem, ⟨16, _⟩ => ⟨S1536x16, .f32⟩
  | .local _ .vmem, ⟨17, _⟩ => ⟨S1536x1536, .f32⟩
  | .local _ .vmem, ⟨18, _⟩ => ⟨S1536x1536, .f32⟩
  | _, _ => ⟨S12288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_cst_6 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c : Ref sig .tc := ⟨.hbm, 44, rfl⟩
abbrev main_v22 : Ref sig .tc := ⟨.hbm, 45, rfl⟩
abbrev main_v23 : Ref sig .tc := ⟨.hbm, 46, rfl⟩
abbrev main_c_8 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call2_cst : Ref sig .tc := ⟨.hbm, 62, rfl⟩
abbrev main_call2_v0 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_10 : Ref sig .tc := ⟨.hbm, 68, rfl⟩
abbrev main_v41 : Ref sig .tc := ⟨.hbm, 69, rfl⟩
abbrev main_v42 : Ref sig .tc := ⟨.hbm, 70, rfl⟩
abbrev main_c_11 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_12 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1536x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1536x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1536x1536 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bcast_S_S405504 : S_.BroadcastsInDim S405504 (![] : Fin 0 → Fin S405504.rank)
  bcast_S_S12288 : S_.BroadcastsInDim S12288 (![] : Fin 0 → Fin S12288.rank)
  bcast_S405504_S405504x1_0 : S405504.BroadcastsInDim S405504x1 (![0] : Fin 1 → Fin S405504x1.rank)
  shapeCasts_S12288_S12288x1 : S12288.ShapeCasts S12288x1
  inb_S2048x512_S2048x512_0_0 : ∀ a, (![0, 0] : Fin 2 → Nat) a + S2048x512.size a ≤ S2048x512.size a
  h_S2048x512 : 0 < S2048x512.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S2048x32_S2048x32_0_0 : ∀ a, (![0, 0] : Fin 2 → Nat) a + S2048x32.size a ≤ S2048x32.size a
  h_S2048x32 : 0 < S2048x32.numel
  bcast_S_S12288x32 : S_.BroadcastsInDim S12288x32 (![] : Fin 0 → Fin S12288x32.rank)
  bcast_S12288x1_S12288x32_0_1 : S12288x1.BroadcastsInDim S12288x32 (![0, 1] : Fin 2 → Fin S12288x32.rank)
  bcast_S32_S1x32_1 : S32.BroadcastsInDim S1x32 (![1] : Fin 1 → Fin S1x32.rank)
  bcast_S1x32_S12288x32_0_1 : S1x32.BroadcastsInDim S12288x32 (![0, 1] : Fin 2 → Fin S12288x32.rank)
  bcast_S12288_S12288x1_0 : S12288.BroadcastsInDim S12288x1 (![0] : Fin 1 → Fin S12288x1.rank)
  concatenates_S32x16_S32x16_S32x32_d1 : Shape.Concatenates [S32x16, S32x16] S32x32 1
  concatenates_S16_S16_S32_d0 : Shape.Concatenates [S16, S16] S32 0
  shapeCasts_S32_S1x32 : S32.ShapeCasts S1x32
  shapeCasts_S2048x32_S2048x32 : S2048x32.ShapeCasts S2048x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  slices_S12288x32_S12288x16_0_0 : S12288x32.Slices ![0, 0] S12288x16
  slices_S12288x32_S12288x16_0_16 : S12288x32.Slices ![0, 16] S12288x16
  inb_S1536x16_S1536x16_0_0 : ∀ a, (![0, 0] : Fin 2 → Nat) a + S1536x16.size a ≤ S1536x16.size a
  h_S1536x16 : 0 < S1536x16.numel
  shapeCasts_S1536x16_S1536x16 : S1536x16.ShapeCasts S1536x16
  inb_S1536x1536_S1536x1536_0_0 : ∀ a, (![0, 0] : Fin 2 → Nat) a + S1536x1536.size a ≤ S1536x1536.size a
  h_S1536x1536 : 0 < S1536x1536.numel
  scatter_S12288_S405504x1_S405504_n_0_0_1_wf : ScatterDims.WF S12288 S405504x1 S405504 [] [0] [0] 1
  dot_S2048x512_S512x32_S2048x32_1_0_0_1_n_n_wf : DotDims.WF S2048x512 S512x32 S2048x32 [1] [0] [0] [1] [] []
  gather_S12288x32_S405504x1_S405504x32_1_0_n_n_0_1_132_wf : GatherDims.WF S12288x32 S405504x1 S405504x32 [1] [0] [] [0] [] 1 ![1, 32]
  scatter_S12288x32_S405504x1_S405504x32_1_0_0_1_wf : ScatterDims.WF S12288x32 S405504x1 S405504x32 [1] [0] [0] 1
  dot_S2048x32_S32x32_S2048x32_1_0_0_1_n_n_wf : DotDims.WF S2048x32 S32x32 S2048x32 [1] [0] [0] [1] [] []
  dot_S1536x16_S1536x16_S1536x1536_1_1_0_0_n_n_wf : DotDims.WF S1536x16 S1536x16 S1536x1536 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S12288x512.size a
  hwx0_0 : ∀ i : grid0.Coords, EltTy.bits .f32 = 32 ∨ (Rect.block (s := S12288x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S12288x1.size a
  hwx0_1 : ∀ i : grid0.Coords, EltTy.bits .f32 = 32 ∨ (Rect.block (s := S12288x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S512x32.size a
  hwx0_2 : ∀ i : grid0.Coords, EltTy.bits .f32 = 32 ∨ (Rect.block (s := S512x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S12288x32.size a
  hwx0_3 : ∀ i : grid0.Coords, EltTy.bits .f32 = 32 ∨ (Rect.block (s := S12288x32) S2048x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x32.size a ≤ S12288x32.size a
  hwx1_0 : ∀ i : grid1.Coords, EltTy.bits .f32 = 32 ∨ (Rect.block (s := S12288x32) S2048x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x32.size a ≤ S12288x32.size a
  hwx1_3 : ∀ i : grid1.Coords, EltTy.bits .f32 = 32 ∨ (Rect.block (s := S12288x32) S2048x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1536x16.size a ≤ S12288x16.size a
  hwx2_0 : ∀ i : grid2.Coords, EltTy.bits .f32 = 32 ∨ (Rect.block (s := S12288x16) S1536x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1536x16.size a ≤ S12288x16.size a
  hwx2_1 : ∀ i : grid2.Coords, EltTy.bits .f32 = 32 ∨ (Rect.block (s := S12288x16) S1536x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1536x1536.size a ≤ S12288x12288.size a
  hwx2_2 : ∀ i : grid2.Coords, EltTy.bits .f32 = 32 ∨ (Rect.block (s := S12288x12288) S1536x1536.size (cc2_transform_2 i) (hinb2_2 i)).WholeWords (EltTy.packing .f32)

variable [Facts₀]

def scatter_S12288_S405504x1_S405504_n_0_0_1 : ScatterDims S12288 S405504x1 S405504 where
  updateWindowDims := []
  insertedWindowDims := [0]
  scatterDimsToOperandDims := [0]
  indexVectorDim := 1
  wf := scatter_S12288_S405504x1_S405504_n_0_0_1_wf
def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def gather_S12288x32_S405504x1_S405504x32_1_0_n_n_0_1_132 : GatherDims S12288x32 S405504x1 S405504x32 where
  offsetDims := [1]
  collapsedSliceDims := [0]
  operandBatchingDims := []
  startIndicesBatchingDims := []
  startIndexMap := [0]
  indexVectorDim := 1
  sliceSizes := ![1, 32]
  wf := gather_S12288x32_S405504x1_S405504x32_1_0_n_n_0_1_132_wf
def scatter_S12288x32_S405504x1_S405504x32_1_0_0_1 : ScatterDims S12288x32 S405504x1 S405504x32 where
  updateWindowDims := [1]
  insertedWindowDims := [0]
  scatterDimsToOperandDims := [0]
  indexVectorDim := 1
  wf := scatter_S12288x32_S405504x1_S405504x32_1_0_0_1_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S1536x16_S1536x16_S1536x1536_1_1_0_0_n_n : DotDims S1536x16 S1536x16 S1536x1536 where
  lhsContracting := [1]
  rhsContracting := [1]
  lhsNonContracting := [0]
  rhsNonContracting := [0]
  lhsBatch := []
  rhsBatch := []
  wf := dot_S1536x16_S1536x16_S1536x1536_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S2048x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v53) S2048x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S2048x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S1536x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1536x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1536x1536.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S12288x512 : Shape := ⟨2, ![12288, 512]⟩
abbrev S405504 : Shape := ⟨1, ![405504]⟩
abbrev S512x32 : Shape := ⟨2, ![512, 32]⟩
abbrev S32 : Shape := ⟨1, ![32]⟩
abbrev S32x16 : Shape := ⟨2, ![32, 16]⟩
abbrev S16 : Shape := ⟨1, ![16]⟩
abbrev S_ : Shape := ⟨0, ![]⟩
abbrev S12288 : Shape := ⟨1, ![12288]⟩
abbrev S405504x1 : Shape := ⟨2, ![405504, 1]⟩
abbrev S12288x1 : Shape := ⟨2, ![12288, 1]⟩
abbrev S405504x512 : Shape := ⟨2, ![405504, 512]⟩
abbrev S12288x32 : Shape := ⟨2, ![12288, 32]⟩
abbrev S1x32 : Shape := ⟨2, ![1, 32]⟩
abbrev S405504x32 : Shape := ⟨2, ![405504, 32]⟩
abbrev S12288x16 : Shape := ⟨2, ![12288, 16]⟩
abbrev S1x16 : Shape := ⟨2, ![1, 16]⟩
abbrev S16x12288 : Shape := ⟨2, ![16, 12288]⟩
abbrev S12288x12288 : Shape := ⟨2, ![12288, 12288]⟩

abbrev nBuf : Space → Nat
  | .hbm => 115
  | .vmem => 0
  | .smem => 0
  | _ => 0

abbrev bufTy : (tb : Table) → Fin (tcTables nBuf tb) → BufTy
  | .hbm, ⟨0, _⟩ => ⟨S12288x512, .f32⟩
  | .hbm, ⟨1, _⟩ => ⟨S405504, .i32⟩
  | .hbm, ⟨2, _⟩ => ⟨S405504, .i32⟩
  | .hbm, ⟨3, _⟩ => ⟨S512x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S32x16, .f32⟩
  | .hbm, ⟨8, _⟩ => ⟨S16, .f32⟩
  | .hbm, ⟨9, _⟩ => ⟨S_, .f32⟩
  | .hbm, ⟨10, _⟩ => ⟨S405504, .f32⟩
  | .hbm, ⟨11, _⟩ => ⟨S_, .f32⟩
  | .hbm, ⟨12, _⟩ => ⟨S12288, .f32⟩
  | .hbm, ⟨13, _⟩ => ⟨S405504x1, .i32⟩
  | .hbm, ⟨14, _⟩ => ⟨S12288, .f32⟩
  | .hbm, ⟨15, _⟩ => ⟨S_, .f32⟩
  | .hbm, ⟨16, _⟩ => ⟨S12288, .f32⟩
  | .hbm, ⟨17, _⟩ => ⟨S405504x1, .i32⟩
  | .hbm, ⟨18, _⟩ => ⟨S12288, .f32⟩
  | .hbm, ⟨19, _⟩ => ⟨S_, .f32⟩
  | .hbm, ⟨20, _⟩ => ⟨S12288, .f32⟩
  | .hbm, ⟨21, _⟩ => ⟨S12288, .i1⟩
  | .hbm, ⟨22, _⟩ => ⟨S_, .f32⟩
  | .hbm, ⟨23, _⟩ => ⟨S12288, .f32⟩
  | .hbm, ⟨24, _⟩ => ⟨S12288, .f32⟩
  | .hbm, ⟨25, _⟩ => ⟨S12288, .f32⟩
  | .hbm, ⟨26, _⟩ => ⟨S_, .f32⟩
  | .hbm, ⟨27, _⟩ => ⟨S_, .f32⟩
  | .hbm, ⟨28, _⟩ => ⟨S12288, .f32⟩
  | .hbm, ⟨29, _⟩ => ⟨S12288, .f32⟩
  | .hbm, ⟨30, _⟩ => ⟨S_, .f32⟩
  | .hbm, ⟨31, _⟩ => ⟨S12288, .f32⟩
  | .hbm, ⟨32, _⟩ => ⟨S12288, .i1⟩
  | .hbm, ⟨33, _⟩ => ⟨S_, .f32⟩
  | .hbm, ⟨34, _⟩ => ⟨S12288, .f32⟩
  | .hbm, ⟨35, _⟩ => ⟨S12288, .f32⟩
  | .hbm, ⟨36, _⟩ => ⟨S12288, .f32⟩
  | .hbm, ⟨37, _⟩ => ⟨S_, .f32⟩
  | .hbm, ⟨38, _⟩ => ⟨S_, .f32⟩
  | .hbm, ⟨39, _⟩ => ⟨S12288, .f32⟩
  | .hbm, ⟨40, _⟩ => ⟨S12288, .f32⟩
  | .hbm, ⟨41, _⟩ => ⟨S12288x1, .f32⟩
  | .hbm, ⟨42, _⟩ => ⟨S12288x512, .f32⟩
  | .hbm, ⟨43, _⟩ => ⟨S12288x512, .f32⟩
  | .hbm, ⟨44, _⟩ => ⟨S_, .i32⟩
  | .hbm, ⟨45, _⟩ => ⟨S405504, .i32⟩
  | .hbm, ⟨46, _⟩ => ⟨S405504, .i1⟩
  | .hbm, ⟨47, _⟩ => ⟨S_, .i32⟩
  | .hbm, ⟨48, _⟩ => ⟨S405504, .i32⟩
  | .hbm, ⟨49, _⟩ => ⟨S405504, .i32⟩
  | .hbm, ⟨50, _⟩ => ⟨S405504, .i32⟩
  | .hbm, ⟨51, _⟩ => ⟨S405504x1, .i32⟩
  | .hbm, ⟨52, _⟩ => ⟨S405504x512, .f32⟩
  | .hbm, ⟨53, _⟩ => ⟨S_, .f32⟩
  | .hbm, ⟨54, _⟩ => ⟨S12288x512, .f32⟩
  | .hbm, ⟨55, _⟩ => ⟨S405504x1, .i32⟩
  | .hbm, ⟨56, _⟩ => ⟨S12288x512, .f32⟩
  | .hbm, ⟨57, _⟩ => ⟨S12288x1, .f32⟩
  | .hbm, ⟨58, _⟩ => ⟨S12288x512, .f32⟩
  | .hbm, ⟨59, _⟩ => ⟨S12288x512, .f32⟩
  | .hbm, ⟨60, _⟩ => ⟨S12288x32, .f32⟩
  | .hbm, ⟨61, _⟩ => ⟨S1x32, .f32⟩
  | .hbm, ⟨62, _⟩ => ⟨S12288x32, .f32⟩
  | .hbm, ⟨63, _⟩ => ⟨S12288x32, .f32⟩
  | .hbm, ⟨64, _⟩ => ⟨S_, .f32⟩
  | .hbm, ⟨65, _⟩ => ⟨S12288x32, .f32⟩
  | .hbm, ⟨66, _⟩ => ⟨S12288x32, .f32⟩
  | .hbm, ⟨67, _⟩ => ⟨S12288x1, .f32⟩
  | .hbm, ⟨68, _⟩ => ⟨S12288x32, .f32⟩
  | .hbm, ⟨69, _⟩ => ⟨S12288x32, .f32⟩
  | .hbm, ⟨70, _⟩ => ⟨S_, .i32⟩
  | .hbm, ⟨71, _⟩ => ⟨S405504, .i32⟩
  | .hbm, ⟨72, _⟩ => ⟨S405504, .i1⟩
  | .hbm, ⟨73, _⟩ => ⟨S_, .i32⟩
  | .hbm, ⟨74, _⟩ => ⟨S405504, .i32⟩
  | .hbm, ⟨75, _⟩ => ⟨S405504, .i32⟩
  | .hbm, ⟨76, _⟩ => ⟨S405504, .i32⟩
  | .hbm, ⟨77, _⟩ => ⟨S405504x1, .i32⟩
  | .hbm, ⟨78, _⟩ => ⟨S405504x32, .f32⟩
  | .hbm, ⟨79, _⟩ => ⟨S_, .f32⟩
  | .hbm, ⟨80, _⟩ => ⟨S12288x32, .f32⟩
  | .hbm, ⟨81, _⟩ => ⟨S405504x1, .i32⟩
  | .hbm, ⟨82, _⟩ => ⟨S12288x32, .f32⟩
  | .hbm, ⟨83, _⟩ => ⟨S12288x1, .f32⟩
  | .hbm, ⟨84, _⟩ => ⟨S12288x32, .f32⟩
  | .hbm, ⟨85, _⟩ => ⟨S12288x32, .f32⟩
  | .hbm, ⟨86, _⟩ => ⟨S12288x16, .f32⟩
  | .hbm, ⟨87, _⟩ => ⟨S1x16, .f32⟩
  | .hbm, ⟨88, _⟩ => ⟨S12288x16, .f32⟩
  | .hbm, ⟨89, _⟩ => ⟨S12288x16, .f32⟩
  | .hbm, ⟨90, _⟩ => ⟨S12288x1, .f32⟩
  | .hbm, ⟨91, _⟩ => ⟨S12288x32, .f32⟩
  | .hbm, ⟨92, _⟩ => ⟨S12288x32, .f32⟩
  | .hbm, ⟨93, _⟩ => ⟨S_, .i32⟩
  | .hbm, ⟨94, _⟩ => ⟨S405504, .i32⟩
  | .hbm, ⟨95, _⟩ => ⟨S405504, .i1⟩
  | .hbm, ⟨96, _⟩ => ⟨S_, .i32⟩
  | .hbm, ⟨97, _⟩ => ⟨S405504, .i32⟩
  | .hbm, ⟨98, _⟩ => ⟨S405504, .i32⟩
  | .hbm, ⟨99, _⟩ => ⟨S405504, .i32⟩
  | .hbm, ⟨100, _⟩ => ⟨S405504x1, .i32⟩
  | .hbm, ⟨101, _⟩ => ⟨S405504x32, .f32⟩
  | .hbm, ⟨102, _⟩ => ⟨S_, .f32⟩
  | .hbm, ⟨103, _⟩ => ⟨S12288x32, .f32⟩
  | .hbm, ⟨104, _⟩ => ⟨S405504x1, .i32⟩
  | .hbm, ⟨105, _⟩ => ⟨S12288x32, .f32⟩
  | .hbm, ⟨106, _⟩ => ⟨S12288x1, .f32⟩
  | .hbm, ⟨107, _⟩ => ⟨S12288x32, .f32⟩
  | .hbm, ⟨108, _⟩ => ⟨S12288x32, .f32⟩
  | .hbm, ⟨109, _⟩ => ⟨S12288x16, .f32⟩
  | .hbm, ⟨110, _⟩ => ⟨S1x16, .f32⟩
  | .hbm, ⟨111, _⟩ => ⟨S12288x16, .f32⟩
  | .hbm, ⟨112, _⟩ => ⟨S12288x16, .f32⟩
  | .hbm, ⟨113, _⟩ => ⟨S16x12288, .f32⟩
  | .hbm, ⟨114, _⟩ => ⟨S12288x12288, .f32⟩
  | _, _ => ⟨S12288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_cst_6 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c : Ref sig .tc := ⟨.hbm, 44, rfl⟩
abbrev main_v22 : Ref sig .tc := ⟨.hbm, 45, rfl⟩
abbrev main_v23 : Ref sig .tc := ⟨.hbm, 46, rfl⟩
abbrev main_c_8 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call2_cst : Ref sig .tc := ⟨.hbm, 64, rfl⟩
abbrev main_call2_v0 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_v43 : Ref sig .tc := ⟨.hbm, 71, rfl⟩
abbrev main_v44 : Ref sig .tc := ⟨.hbm, 72, rfl⟩
abbrev main_c_11 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_12 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_c_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩

abbrev nD : Nat := 1
abbrev τ : Topo := Topo.v7x

variable {F : FTy → Type} [FloatOps F]

class Facts₀ : Prop where
  bcast_S_S405504 : S_.BroadcastsInDim S405504 (![] : Fin 0 → Fin S405504.rank)
  bcast_S_S12288 : S_.BroadcastsInDim S12288 (![] : Fin 0 → Fin S12288.rank)
  bcast_S405504_S405504x1_0 : S405504.BroadcastsInDim S405504x1 (![0] : Fin 1 → Fin S405504x1.rank)
  bcast_S12288_S12288x1_0 : S12288.BroadcastsInDim S12288x1 (![0] : Fin 1 → Fin S12288x1.rank)
  bcast_S12288x1_S12288x512_0_1 : S12288x1.BroadcastsInDim S12288x512 (![0, 1] : Fin 2 → Fin S12288x512.rank)
  bcast_S_S12288x512 : S_.BroadcastsInDim S12288x512 (![] : Fin 0 → Fin S12288x512.rank)
  bcast_S32_S1x32_1 : S32.BroadcastsInDim S1x32 (![1] : Fin 1 → Fin S1x32.rank)
  bcast_S1x32_S12288x32_0_1 : S1x32.BroadcastsInDim S12288x32 (![0, 1] : Fin 2 → Fin S12288x32.rank)
  bcast_S_S12288x32 : S_.BroadcastsInDim S12288x32 (![] : Fin 0 → Fin S12288x32.rank)
  bcast_S12288x1_S12288x32_0_1 : S12288x1.BroadcastsInDim S12288x32 (![0, 1] : Fin 2 → Fin S12288x32.rank)
  bcast_S16_S1x16_1 : S16.BroadcastsInDim S1x16 (![1] : Fin 1 → Fin S1x16.rank)
  bcast_S1x16_S12288x16_0_1 : S1x16.BroadcastsInDim S12288x16 (![0, 1] : Fin 2 → Fin S12288x16.rank)
  transposes_S12288x16_S16x12288_1_0 : S12288x16.Transposes [1, 0] S16x12288
  scatter_S12288_S405504x1_S405504_n_0_0_1_wf : ScatterDims.WF S12288 S405504x1 S405504 [] [0] [0] 1
  gather_S12288x512_S405504x1_S405504x512_1_0_n_n_0_1_1512_wf : GatherDims.WF S12288x512 S405504x1 S405504x512 [1] [0] [] [0] [] 1 ![1, 512]
  scatter_S12288x512_S405504x1_S405504x512_1_0_0_1_wf : ScatterDims.WF S12288x512 S405504x1 S405504x512 [1] [0] [0] 1
  dot_S12288x512_S512x32_S12288x32_1_0_0_1_n_n_wf : DotDims.WF S12288x512 S512x32 S12288x32 [1] [0] [0] [1] [] []
  gather_S12288x32_S405504x1_S405504x32_1_0_n_n_0_1_132_wf : GatherDims.WF S12288x32 S405504x1 S405504x32 [1] [0] [] [0] [] 1 ![1, 32]
  scatter_S12288x32_S405504x1_S405504x32_1_0_0_1_wf : ScatterDims.WF S12288x32 S405504x1 S405504x32 [1] [0] [0] 1
  dot_S12288x32_S32x16_S12288x16_1_0_0_1_n_n_wf : DotDims.WF S12288x32 S32x16 S12288x16 [1] [0] [0] [1] [] []
  dot_S12288x16_S16x12288_S12288x12288_1_0_0_1_n_n_wf : DotDims.WF S12288x16 S16x12288 S12288x12288 [1] [0] [0] [1] [] []

variable [Facts₀]

def scatter_S12288_S405504x1_S405504_n_0_0_1 : ScatterDims S12288 S405504x1 S405504 where
  updateWindowDims := []
  insertedWindowDims := [0]
  scatterDimsToOperandDims := [0]
  indexVectorDim := 1
  wf := scatter_S12288_S405504x1_S405504_n_0_0_1_wf
def gather_S12288x512_S405504x1_S405504x512_1_0_n_n_0_1_1512 : GatherDims S12288x512 S405504x1 S405504x512 where
  offsetDims := [1]
  collapsedSliceDims := [0]
  operandBatchingDims := []
  startIndicesBatchingDims := []
  startIndexMap := [0]
  indexVectorDim := 1
  sliceSizes := ![1, 512]
  wf := gather_S12288x512_S405504x1_S405504x512_1_0_n_n_0_1_1512_wf
def scatter_S12288x512_S405504x1_S405504x512_1_0_0_1 : ScatterDims S12288x512 S405504x1 S405504x512 where
  updateWindowDims := [1]
  insertedWindowDims := [0]
  scatterDimsToOperandDims := [0]
  indexVectorDim := 1
  wf := scatter_S12288x512_S405504x1_S405504x512_1_0_0_1_wf
def dot_S12288x512_S512x32_S12288x32_1_0_0_1_n_n : DotDims S12288x512 S512x32 S12288x32 where
  lhsContracting := [1]
  rhsContracting := [0]
  lhsNonContracting := [0]
  rhsNonContracting := [1]
  lhsBatch := []
  rhsBatch := []
  wf := dot_S12288x512_S512x32_S12288x32_1_0_0_1_n_n_wf
def gather_S12288x32_S405504x1_S405504x32_1_0_n_n_0_1_132 : GatherDims S12288x32 S405504x1 S405504x32 where
  offsetDims := [1]
  collapsedSliceDims := [0]
  operandBatchingDims := []
  startIndicesBatchingDims := []
  startIndexMap := [0]
  indexVectorDim := 1
  sliceSizes := ![1, 32]
  wf := gather_S12288x32_S405504x1_S405504x32_1_0_n_n_0_1_132_wf
def scatter_S12288x32_S405504x1_S405504x32_1_0_0_1 : ScatterDims S12288x32 S405504x1 S405504x32 where
  updateWindowDims := [1]
  insertedWindowDims := [0]
  scatterDimsToOperandDims := [0]
  indexVectorDim := 1
  wf := scatter_S12288x32_S405504x1_S405504x32_1_0_0_1_wf
def dot_S12288x32_S32x16_S12288x16_1_0_0_1_n_n : DotDims S12288x32 S32x16 S12288x16 where
  lhsContracting := [1]
  rhsContracting := [0]
  lhsNonContracting := [0]
  rhsNonContracting := [1]
  lhsBatch := []
  rhsBatch := []
  wf := dot_S12288x32_S32x16_S12288x16_1_0_0_1_n_n_wf
def dot_S12288x16_S16x12288_S12288x12288_1_0_0_1_n_n : DotDims S12288x16 S16x12288 S12288x12288 where
  lhsContracting := [1]
  rhsContracting := [0]
  lhsNonContracting := [0]
  rhsNonContracting := [1]
  lhsBatch := []
  rhsBatch := []
  wf := dot_S12288x16_S16x12288_S12288x12288_1_0_0_1_n_n_wf

class Facts : Prop extends Facts₀ where

variable [Facts]
-- ==== Proof.K.Data.lean ====
/-
  The proof data of the three kernel regions, at a parameter `V`: the contents of the core's buffers when a region is entered.

  Region 0 multiplies each row of a 2048-row block of the feature matrix by that row's scale and projects it by the whole
  512×32 weight matrix; region 1 projects a 2048-row block by a whole 32×32 matrix and adds a bias row; region 2 forms the
  1536×1536 block of inner products of two 1536-row blocks of ONE array. In every region each input window's staging buffer
  holds, after the body, the block it held before, and the output window's buffer holds the body's one stored value: the
  payload of the input blocks. No region keeps anything from one grid point to the next.
-/
import proofs.«159144_j70712341561937_2_alg».proof.Proof.Gen.Kernel.Launch
import proofs.«159144_j70712341561937_2_alg».proof.Proof.Gen.Kernel.Skeleton
import proofs.«159144_j70712341561937_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the core's buffer contents when a region is entered
variable (V : (c : Dev nD) → (b : Ref sig .tc) → Buf (Elt F) ((c : Thread nD τ).loc b))

/-! ## Region 0: a row block of the features, scaled row by row, times the weight matrix -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the arrays as found; after the body each input buffer at its block and the output buffer at
    the payload of the three input blocks; the invariant is the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
/-- What point `t` leaves in the output window's buffer: the product of the scaled row block with the weights. -/
theorem after0_3 (c : Dev nD) (t : Fin cfg0.N) :
    (dat0 V c).after 3 t = k0_pay1 (iblk0 V c 0 t) (iblk0 V c 1 t) (iblk0 V c 2 t) := by dsimp only [dat0]

/-! ## Region 1: a row block times a 32×32 matrix, plus a bias row -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

/-! ## Region 2: the block of inner products of two row blocks of one array -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Region 2's two input windows read ONE array: each holds half of it (the two halves of the full share), the output
    window its own array whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = k2_pay1 (iblk2 V c 0 t) (iblk2 V c 1 t) := by dsimp only [dat2]

end Cert.Kernel.Fr

end
-- ==== Proof.K.Reg0.lean ====
import proofs.«159144_j70712341561937_2_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: a 2048-row block of the features, each row scaled by its entry of the scale column, times the whole 512×32 weight matrix

The body loads each input window's staging buffer whole, computes ONE value from them, loads the output window's buffer
(and discards what it read) and stores that value over the whole of it. So after the body every input buffer holds what it
held and the output buffer holds the payload of the inputs' contents, whatever it held before. -/

variable (V : (c : Dev nD) → (b : Ref sig .tc) → Buf (Elt F) ((c : Thread nD τ).loc b))

/-- The rectangles of this body start at the origin of their buffers. -/
theorem hz2_0 : (![0, 0] : Fin 2 → Nat) = fun _ => 0 := funext fun a => by fin_cases a <;> rfl

/-- Input window 0's current staging buffer holds its block at every point, whether the pipeline fetched it there or the
    block index has not moved since it last did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d
/-- Input window 1's current staging buffer holds its block at every point, whether the pipeline fetched it there or the
    block index has not moved since it last did. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d
/-- Input window 2's current staging buffer holds its block at every point, whether the pipeline fetched it there or the
    block index has not moved since it last did. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

set_option maxHeartbeats 1000000 in
/-- The body on whole staging buffers: the inputs' at contents `x`, the output's at anything; it ends with the inputs' as they
    were and the output's at the payload of the inputs. The one store covers the output buffer, so what the buffer reads
    afterwards is the stored value; each load is of a whole buffer, so it reads the buffer's contents. -/
theorem sound_kernel0 (c : Dev nD) (E : Set ℕ) (i : grid0.Coords) (arg1 : Memref sig .tc .vmem S2048x512 .f32) (harg1 : arg1.IsWhole) (arg2 : Memref sig .tc .vmem S2048x1 .f32) (harg2 : arg2.IsWhole) (arg3 : Memref sig .tc .vmem S512x32 .f32) (harg3 : arg3.IsWhole) (arg4 : Memref sig .tc .vmem S2048x32 .f32) (harg4 : arg4.IsWhole)
    (x0 : Vec F S2048x512 .f32) (x1 : Vec F S2048x1 .f32) (x2 : Vec F S512x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0__project_kernel i arg1 harg1 arg2 harg2 arg3 harg3 arg4 harg4) K := by
  simp only [cc0__project_kernel_eq_skeleton]; unfold cc0__project_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (View.cover_of_tiled _ S2048x32.size (by rfl)), View.canon_unit_zero hz2_0]
  simp only [View.readAt_eq_ld, View.ld_unit_zero (S := S2048x512) hz2_0, View.ld_unit_zero (S := S2048x1) hz2_0, View.ld_unit_zero (S := S512x32) hz2_0]

/-! ## The body obligation, at a generic point -/

/-- What the body is called with at point `t`: the invariant, the core's dues, every window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1.lean ====
import proofs.«159144_j70712341561937_2_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: a 2048-row block times the whole 32×32 matrix, plus the bias row

The body loads each input window's staging buffer whole, computes ONE value from them, loads the output window's buffer
(and discards what it read) and stores that value over the whole of it. So after the body every input buffer holds what it
held and the output buffer holds the payload of the inputs' contents, whatever it held before. -/

variable (V : (c : Dev nD) → (b : Ref sig .tc) → Buf (Elt F) ((c : Thread nD τ).loc b))

/-- The rectangles of this body start at the origin of their buffers. -/
theorem hz2_1 : (![0, 0] : Fin 2 → Nat) = fun _ => 0 := funext fun a => by fin_cases a <;> rfl

/-- Input window 0's current staging buffer holds its block at every point, whether the pipeline fetched it there or the
    block index has not moved since it last did. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d
/-- Input window 1's current staging buffer holds its block at every point, whether the pipeline fetched it there or the
    block index has not moved since it last did. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d
/-- Input window 2's current staging buffer holds its block at every point, whether the pipeline fetched it there or the
    block index has not moved since it last did. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

set_option maxHeartbeats 1000000 in
/-- The body on whole staging buffers: the inputs' at contents `x`, the output's at anything; it ends with the inputs' as they
    were and the output's at the payload of the inputs. The one store covers the output buffer, so what the buffer reads
    afterwards is the stored value; each load is of a whole buffer, so it reads the buffer's contents. -/
theorem sound_kernel1 (c : Dev nD) (E : Set ℕ) (i : grid1.Coords) (arg1 : Memref sig .tc .vmem S2048x32 .f32) (harg1 : arg1.IsWhole) (arg2 : Memref sig .tc .vmem S32x32 .f32) (harg2 : arg2.IsWhole) (arg3 : Memref sig .tc .vmem S1x32 .f32) (harg3 : arg3.IsWhole) (arg4 : Memref sig .tc .vmem S2048x32 .f32) (harg4 : arg4.IsWhole)
    (x0 : Vec F S2048x32 .f32) (x1 : Vec F S32x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (View.cover_of_tiled _ S2048x32.size (by rfl)), View.canon_unit_zero hz2_1]
  simp only [View.readAt_eq_ld, View.ld_unit_zero (S := S2048x32) hz2_1, View.ld_unit_zero (S := S32x32) hz2_1, View.ld_unit_zero (S := S1x32) hz2_1]

/-! ## The body obligation, at a generic point -/

/-- What the body is called with at point `t`: the invariant, the core's dues, every window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2.lean ====
import proofs.«159144_j70712341561937_2_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the 1536×1536 block of inner products of a row block with a row block of the same array

The body loads each input window's staging buffer whole, computes ONE value from them, loads the output window's buffer
(and discards what it read) and stores that value over the whole of it. So after the body every input buffer holds what it
held and the output buffer holds the payload of the inputs' contents, whatever it held before. -/

variable (V : (c : Dev nD) → (b : Ref sig .tc) → Buf (Elt F) ((c : Thread nD τ).loc b))

/-- The rectangles of this body start at the origin of their buffers. -/
theorem hz2_2 : (![0, 0] : Fin 2 → Nat) = fun _ => 0 := funext fun a => by fin_cases a <;> rfl

/-- Input window 0's current staging buffer holds its block at every point, whether the pipeline fetched it there or the
    block index has not moved since it last did. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d
/-- Input window 1's current staging buffer holds its block at every point, whether the pipeline fetched it there or the
    block index has not moved since it last did. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_1 (c : Dev nD) (t : Fin cfg2.N) (d) : (dat2 V c).before 1 t d = iblk2 V c 1 t :=
  before2_1_of V (dat2 V c) (A_eq2 V c 1) (after2_1 V c) t d

set_option maxHeartbeats 1000000 in
/-- The body on whole staging buffers: the inputs' at contents `x`, the output's at anything; it ends with the inputs' as they
    were and the output's at the payload of the inputs. The one store covers the output buffer, so what the buffer reads
    afterwards is the stored value; each load is of a whole buffer, so it reads the buffer's contents. -/
theorem sound_kernel2 (c : Dev nD) (E : Set ℕ) (i : grid2.Coords) (arg2 : Memref sig .tc .vmem S1536x16 .f32) (harg2 : arg2.IsWhole) (arg3 : Memref sig .tc .vmem S1536x16 .f32) (harg3 : arg3.IsWhole) (arg4 : Memref sig .tc .vmem S1536x1536 .f32) (harg4 : arg4.IsWhole)
    (x0 : Vec F S1536x16 .f32) (x1 : Vec F S1536x16 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k2_pay1 x0 x1)) -∗ K ⟨⟩))
      ⊢ wp frame (wpE (defs₀ (F := F)) Variants.none c none) E (cc2__zzt_kernel i arg2 harg2 arg3 harg3 arg4 harg4) K := by
  simp only [cc2__zzt_kernel_eq_skeleton]; unfold cc2__zzt_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (View.cover_of_tiled _ S1536x1536.size (by rfl)), View.canon_unit_zero hz2_2]
  simp only [View.readAt_eq_ld, View.ld_unit_zero (S := S1536x16) hz2_2]

/-! ## The body obligation, at a generic point -/

/-- What the body is called with at point `t`: the invariant, the core's dues, every window's current staging buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Run.lean ====
import proofs.«159144_j70712341561937_2_alg».proof.Proof.K.Reg0
import proofs.«159144_j70712341561937_2_alg».proof.Proof.K.Reg1
import proofs.«159144_j70712341561937_2_alg».proof.Proof.K.Reg2
import proofs.«159144_j70712341561937_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Kit
import Idealize.ShloMosaic.Lib.Pipeline.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # The run: the three regions as segments of the host program

Between two items of the host program core `c` holds every unscoped buffer whole. The contents are staged: the launch
memory through the first five stretches of host operations (`Y5`); region 0 replaces the projected-features array by what its
six write-backs leave (`Y6`); three more stretches (`Y9`); region 1 replaces its output array (`Y10`); one stretch (`Y11`);
region 2 replaces the square output array (`Y12`). A region changes its output window's array and nothing else: its input
windows' arrays end as they were entered. -/

variable (m : (ℓ : Loc nD τ sig) → Buf (Elt F) ℓ)

/-- Core `c`'s buffers when region 0 is entered. -/
abbrev Y5 (c : Dev nD) : Valuation τ sig (Elt F) := Gen.V5 m c
abbrev U5 : (c : Dev nD) → (b : Ref sig .tc) → Buf (Elt F) ((c : Thread nD τ).loc b) := fun c b => Y5 m c b
/-- … when region 0 is left: its output array at what the write-backs leave. -/
def Y6 (c : Dev nD) : Valuation τ sig (Elt F) := Function.update (Y5 m c) main_v21 ((dat0 (U5 m) c).arrAt 3 cfg0.N)
/-- … when region 1 is entered. -/
abbrev Y9 (c : Dev nD) : Valuation τ sig (Elt F) :=
  StableHlo.after hostOps1_2 (StableHlo.after hostOps1_1 (StableHlo.after hostOps1 (Y6 m c)))
abbrev U9 : (c : Dev nD) → (b : Ref sig .tc) → Buf (Elt F) ((c : Thread nD τ).loc b) := fun c b => Y9 m c b
/-- … when region 1 is left. -/
def Y10 (c : Dev nD) : Valuation τ sig (Elt F) := Function.update (Y9 m c) main_v57 ((dat1 (U9 m) c).arrAt 3 cfg1.N)
/-- … when region 2 is entered. -/
abbrev Y11 (c : Dev nD) : Valuation τ sig (Elt F) := StableHlo.after hostOps2 (Y10 m c)
abbrev U11 : (c : Dev nD) → (b : Ref sig .tc) → Buf (Elt F) ((c : Thread nD τ).loc b) := fun c b => Y11 m c b
/-- … when region 2 is left: the end of the program. -/
def Y12 (c : Dev nD) : Valuation τ sig (Elt F) := Function.update (Y11 m c) main_v60 ((dat2 (U11 m) c).arrAt 2 cfg2.N)

/-- What the regions leave, in the form the host side's valuations are written over. -/
def outsOf : Gen.Outs (F := F) := fun J r c => if J ≤ 6 then Y6 m c r else if J ≤ 10 then Y10 m c r else Y12 m c r

theorem outs6 (c : Dev nD) : outsOf m 6 main_v21 c = (dat0 (U5 m) c).arrAt 3 cfg0.N := by
  show Y6 m c main_v21 = _; unfold Y6; exact Function.update_self ..
theorem V6_eq (c : Dev nD) : Gen.V6 m (outsOf m) c = Y6 m c := by
  show Function.update (Y5 m c) main_v21 (outsOf m 6 main_v21 c) = Function.update (Y5 m c) main_v21 _
  rw [outs6]
theorem V9_eq (c : Dev nD) : Gen.V9 m (outsOf m) c = Y9 m c := by
  show StableHlo.after hostOps1_2 (StableHlo.after hostOps1_1 (StableHlo.after hostOps1 (Gen.V6 m (outsOf m) c))) = _
  rw [V6_eq]
theorem outs10 (c : Dev nD) : outsOf m 10 main_v57 c = (dat1 (U9 m) c).arrAt 3 cfg1.N := by
  show Y10 m c main_v57 = _; unfold Y10; exact Function.update_self ..
theorem V10_eq (c : Dev nD) : Gen.V10 m (outsOf m) c = Y10 m c := by
  show Function.update (Gen.V9 m (outsOf m) c) main_v57 (outsOf m 10 main_v57 c) = Function.update (Y9 m c) main_v57 _
  rw [outs10, V9_eq]
theorem V11_eq (c : Dev nD) : Gen.V11 m (outsOf m) c = Y11 m c := by
  show StableHlo.after hostOps2 (Gen.V10 m (outsOf m) c) = _
  rw [V10_eq]
theorem outs12 (c : Dev nD) : outsOf m 12 main_v60 c = (dat2 (U11 m) c).arrAt 2 cfg2.N := by
  show Y12 m c main_v60 = _; unfold Y12; exact Function.update_self ..
theorem V12_eq (c : Dev nD) : Gen.V12 m (outsOf m) c = Y12 m c := by
  show Function.update (Gen.V11 m (outsOf m) c) main_v60 (outsOf m 12 main_v60 c) = Function.update (Y11 m c) main_v60 _
  rw [outs12, V11_eq]

/-! ## A region's arrays at its exit -/

/-- Region 0's output array when it is left, and every other buffer as it was entered. -/
theorem Y6_self (c : Dev nD) : Y6 m c main_v21 = (dat0 (U5 m) c).arrAt 3 cfg0.N := by
  unfold Y6; exact Function.update_self ..
theorem Y6_ne (c : Dev nD) (b : Ref sig .tc) (h : b ≠ main_v21) : Y6 m c b = Y5 m c b := by
  unfold Y6; exact Function.update_of_ne (StableHlo.devRef_ne_of_ne h) ..
/-- Region 0's arrays when it is left: the inputs as entered, the output at what the write-backs leave. -/
theorem hF0 (c : Dev nD) : ∀ w : Fin cfg0.W, (dat0 (U5 m) c).arrAt w cfg0.N = Y6 m c (Pipeline.arrRef spec0 w)
  | ⟨0, _⟩ => ((dat0 (U5 m) c).arrAt_in _ rfl cfg0.N).trans ((A_eq0 (U5 m) c _).trans (Y6_ne m c main_arg0 (by decide)).symm)
  | ⟨1, _⟩ => ((dat0 (U5 m) c).arrAt_in _ rfl cfg0.N).trans ((A_eq0 (U5 m) c _).trans (Y6_ne m c main_v19 (by decide)).symm)
  | ⟨2, _⟩ => ((dat0 (U5 m) c).arrAt_in _ rfl cfg0.N).trans ((A_eq0 (U5 m) c _).trans (Y6_ne m c main_arg3 (by decide)).symm)
  | ⟨3, _⟩ => (Y6_self m c).symm
theorem hrest0 (c : Dev nD) : ∀ b, b ∉ Finset.univ.image (Pipeline.arrRef spec0) → Y6 m c b = Y5 m c b :=
  fun b hb => Y6_ne m c b fun e => hb (Finset.mem_image.mpr ⟨3, Finset.mem_univ _, e.symm⟩)

/-- Region 1's output array when it is left, and every other buffer as it was entered. -/
theorem Y10_self (c : Dev nD) : Y10 m c main_v57 = (dat1 (U9 m) c).arrAt 3 cfg1.N := by
  unfold Y10; exact Function.update_self ..
theorem Y10_ne (c : Dev nD) (b : Ref sig .tc) (h : b ≠ main_v57) : Y10 m c b = Y9 m c b := by
  unfold Y10; exact Function.update_of_ne (StableHlo.devRef_ne_of_ne h) ..
/-- Region 1's arrays when it is left: the inputs as entered, the output at what the write-backs leave. -/
theorem hF1 (c : Dev nD) : ∀ w : Fin cfg1.W, (dat1 (U9 m) c).arrAt w cfg1.N = Y10 m c (Pipeline.arrRef spec1 w)
  | ⟨0, _⟩ => ((dat1 (U9 m) c).arrAt_in _ rfl cfg1.N).trans ((A_eq1 (U9 m) c _).trans (Y10_ne m c main_v53 (by decide)).symm)
  | ⟨1, _⟩ => ((dat1 (U9 m) c).arrAt_in _ rfl cfg1.N).trans ((A_eq1 (U9 m) c _).trans (Y10_ne m c main_v54 (by decide)).symm)
  | ⟨2, _⟩ => ((dat1 (U9 m) c).arrAt_in _ rfl cfg1.N).trans ((A_eq1 (U9 m) c _).trans (Y10_ne m c main_v56 (by decide)).symm)
  | ⟨3, _⟩ => (Y10_self m c).symm
theorem hrest1 (c : Dev nD) : ∀ b, b ∉ Finset.univ.image (Pipeline.arrRef spec1) → Y10 m c b = Y9 m c b :=
  fun b hb => Y10_ne m c b fun e => hb (Finset.mem_image.mpr ⟨3, Finset.mem_univ _, e.symm⟩)

/-- Region 2's output array when it is left, and every other buffer as it was entered. -/
theorem Y12_self (c : Dev nD) : Y12 m c main_v60 = (dat2 (U11 m) c).arrAt 2 cfg2.N := by
  unfold Y12; exact Function.update_self ..
theorem Y12_ne (c : Dev nD) (b : Ref sig .tc) (h : b ≠ main_v60) : Y12 m c b = Y11 m c b := by
  unfold Y12; exact Function.update_of_ne (StableHlo.devRef_ne_of_ne h) ..
/-- Region 2's arrays when it is left: the inputs as entered, the output at what the write-backs leave. -/
theorem hF2 (c : Dev nD) : ∀ w : Fin cfg2.W, (dat2 (U11 m) c).arrAt w cfg2.N = Y12 m c (Pipeline.arrRef spec2 w)
  | ⟨0, _⟩ => ((dat2 (U11 m) c).arrAt_in _ rfl cfg2.N).trans ((A_eq2 (U11 m) c _).trans (Y12_ne m c main_v58 (by decide)).symm)
  | ⟨1, _⟩ => ((dat2 (U11 m) c).arrAt_in _ rfl cfg2.N).trans ((A_eq2 (U11 m) c _).trans (Y12_ne m c main_v58 (by decide)).symm)
  | ⟨2, _⟩ => (Y12_self m c).symm
theorem hrest2 (c : Dev nD) : ∀ b, b ∉ Finset.univ.image (Pipeline.arrRef spec2) → Y12 m c b = Y11 m c b :=
  fun b hb => Y12_ne m c b fun e => hb (Finset.mem_image.mpr ⟨2, Finset.mem_univ _, e.symm⟩)

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (U5 m) c
  | ⟨1, _⟩ => fun c => dat1 (U9 m) c
  | ⟨2, _⟩ => fun c => dat2 (U11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and its dues, none. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 over the thread state: entered with every unscoped buffer at `Y5`, left with them at `Y6`. Its arrays are
    distinct buffers: they are split out of the unscoped buffers at entry and put back at their exit contents. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U5 m) c).loose
  hwaits := Pipeline.hwaits_of_owed_zero _ _ _ _ L lv 0 fun _ _ => rfl
  pre c := iprop(StableHlo.held (c : Thread nD τ) (Pipeline.ucRefs τ sig) (Y5 m c) ∗ R c)
  post c := iprop(StableHlo.held (c : Thread nD τ) (Pipeline.ucRefs τ sig) (Y6 m c) ∗ R c)
  X c := iprop(∃ r, prngReg c r)
  Y c := iprop(∃ r, prngReg c r)
  Z c := Pipeline.unscopedRest (Ix := Unit) (Name := ℕ) (U := UR sig nD τ) (Lvl := ℕ) spec0 c (U5 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U5 m c) (fun b => Y6 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `Y9`, left with them at `Y10`. Its arrays are
    distinct buffers: they are split out of the unscoped buffers at entry and put back at their exit contents. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U9 m) c).loose
  hwaits := Pipeline.hwaits_of_owed_zero _ _ _ _ L lv 1 fun _ _ => rfl
  pre c := iprop(StableHlo.held (c : Thread nD τ) (Pipeline.ucRefs τ sig) (Y9 m c) ∗ R c)
  post c := iprop(StableHlo.held (c : Thread nD τ) (Pipeline.ucRefs τ sig) (Y10 m c) ∗ R c)
  X c := iprop(∃ r, prngReg c r)
  Y c := iprop(∃ r, prngReg c r)
  Z c := Pipeline.unscopedRest (Ix := Unit) (Name := ℕ) (U := UR sig nD τ) (Lvl := ℕ) spec1 c (U9 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U9 m c) (fun b => Y10 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## One array behind two windows -/

/-- A conjunct that is the composite of two halves, beside another conjunct: the three in a row. -/
theorem sep_halves {P Pl Pr Q : sProp 𝕄} (h : P ⊣⊢ iprop(Pl ∗ Pr)) : iprop(P ∗ Q) ⊣⊢ iprop(Pl ∗ Pr ∗ Q) := by
  have h1 := h.1
  have h2 := h.2
  refine ⟨?_, ?_⟩
  · iintro ⟨Ha, Hb⟩
    ihave H := h1 $$ Ha
    icases H with ⟨Hl, Hr⟩
    isplitl [Hl]; · iexact Hl
    isplitl [Hr]; · iexact Hr
    iexact Hb
  · iintro ⟨Hl, Hr, Hb⟩
    isplitl [Hl Hr]
    · iapply h2; isplitl [Hl] <;> iassumption
    iexact Hb

/-- Region 2's three windows stand on two buffers. -/
theorem image2 : Finset.univ.image (Pipeline.arrRef spec2) = ({main_v58, main_v60} : Finset (Ref sig .tc)) := by decide

/-- The two buffers behind region 2's windows, each whole at the full share at contents `W`, ARE the region's arrays at
    those contents: the shared buffer split into its two halves, one per input window, the output's buffer whole. -/
theorem arrays2_iff (V : (c : Dev nD) → (b : Ref sig .tc) → Buf (Elt F) ((c : Thread nD τ).loc b)) (c : Dev nD)
    (W : (b : Ref sig .tc) → Buf (Elt F) ((c : Thread nD τ).loc b)) :
    (Pipeline.arrBufs (Ix := Unit) (Name := ℕ) (U := UR sig nD τ) (Lvl := ℕ) spec2 c W : sProp 𝕄)
      ⊣⊢ (dat2 V c).arrays (fun w => W (Pipeline.arrRef spec2 w)) := by
  have hA : ((dat2 V c).arrays (fun w => W (Pipeline.arrRef spec2 w)) : sProp 𝕄)
      = bigSep Finset.univ fun w : Fin cfg2.W => ((((c.tc : Thread nD τ).loc (Pipeline.arrRef spec2 w)) ↦{(dat2 V c).share w} W (Pipeline.arrRef spec2 w)) : sProp 𝕄) := by
    unfold Pipeline.Dat.arrays
    exact bigSep_congr fun w _ => by rw [(arr_whole2 w).set_eq_univ]
  rw [hA]; unfold Pipeline.arrBufs
  rw [image2, bigSep_insert (by decide), bigSep_singleton, bigSep_W2,
    show (dat2 V c).share 0 = fullShare.left from rfl, show (dat2 V c).share 1 = fullShare.right from rfl,
    show (dat2 V c).share 2 = fullShare from rfl]
  exact sep_halves (pointsTo_share (PosShare.mem_left_op_right fullShare))

set_option backward.isDefEq.respectTransparency.types false in
/-- Region 2 over the thread state: entered with every unscoped buffer at `Y11`, left with them at `Y12`. Its two input
    windows read ONE array: at entry that buffer is split into its two halves, one per window, and at exit the halves,
    which still hold the same contents, are put together again; the output array is held whole. -/
def reg2 : RegionSeg (pcfgs (F := F)) Gen.adm (pdats m) () defs₀ 𝒱₀ L lv 2 where
  win := winFacts₀2
  block_pos := block_pos2
  stage_whole := stage_whole2
  K := PEmpty
  osem k := k.elim
  ho := Pipeline.OwnSemFacts.none _
  hbody c := (body_obligation2 (U11 m) c).loose
  hwaits := Pipeline.hwaits_of_owed_zero _ _ _ _ L lv 2 fun _ _ => rfl
  pre c := iprop(StableHlo.held (c : Thread nD τ) (Pipeline.ucRefs τ sig) (Y11 m c) ∗ R c)
  post c := iprop(StableHlo.held (c : Thread nD τ) (Pipeline.ucRefs τ sig) (Y12 m c) ∗ R c)
  X c := iprop(∃ r, prngReg c r)
  Y c := iprop(∃ r, prngReg c r)
  Z c := Pipeline.unscopedRest (Ix := Unit) (Name := ℕ) (U := UR sig nD τ) (Lvl := ℕ) spec2 c (U11 m c)
  hentry c := by
    rw [Pipeline.ownSems0_none]
    have hsplit : (unscopedBufs c (U11 m c) : sProp 𝕄)
        ⊢ iprop((pdats m 2 c).arrays ((pdats m 2 c).arrAt · 0) ∗ Pipeline.unscopedRest spec2 c (U11 m c)) := by
      rw [Pipeline.unscopedBufs_split₀ (Pipeline.pin (pcfgs (F := F)) Gen.adm) 2 winFacts₀2.arr_unscoped c (U11 m c)]
      exact sep_mono (arrays2_iff (U11 m) c (U11 m c)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (U11 m c))
        ⊢ (unscopedBufs c (fun b => Y12 m c b) : sProp 𝕄) := by
      rw [Pipeline.unscopedBufs_split₀ (Pipeline.pin (pcfgs (F := F)) Gen.adm) 2 winFacts₀2.arr_unscoped c (fun b => Y12 m c b)]
      have e : ((pdats m 2 c).arrAt · cfg2.N) = fun w => Y12 m c (Pipeline.arrRef spec2 w) := funext (hF2 m c)
      rw [e]
      refine sep_mono (arrays2_iff (U11 m) c (fun b => Y12 m c b)).2 (Entails.of_eq ?_)
      unfold Pipeline.unscopedRest
      exact bigSep_congr fun b hb => by beta_reduce; rw [hrest2 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch, and the frame -/

/-- The launch element yields the pipelines' cells; no ghost resource beside it. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals a core beside its buffers keeps the generator register and the (empty) dues; the rest is let go. -/
theorem launch_rest (ρ : Dev nD → PrngReg) (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)) : sProp 𝕄) ⊢ R c := by
  iintro ⟨-, HO, -, Hp, -⟩
  isplitl [Hp]; · iexists _; iexact Hp
  iexists ∅; iexact HO

set_option backward.isDefEq.respectTransparency.types false in
/-- THE FRAME: from any memory with zero counters every weakly fair execution of the host program ends, nothing faulting,
    with the nine argument arrays as launched. The host side is the generated conditional frame; given to it here are the
    three regions' records, each entered from the staged contents before it and left at the one after it, with the
    generator register and the core's (empty) dues riding along. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond m emb₁ () 𝒱₀ L lv (fun _ _ => rfl) ρ (outsOf m) (pdats m) 0 (fun _ => iprop(emp))
    (initOf (Pipeline.cells cfgs cellOf_inj) (Pipeline.launchToks cfgs cellOf_inj)) hu₀ (fun _ c => R c)
    (by
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (iprop(emp) : sProp 𝕄)))
          ⊢ (bigSep Finset.univ fun c : Dev nD => R c : sProp 𝕄) := bigSep_mono fun c _ => launch_rest (F := F) ρ c
      iintro ⟨H, -⟩
      imodintro
      iapply hmono
      iexact H)
    (fun c => by iintro ⟨-, HO⟩; iexact HO)
    (reg0 m) (fun c => .rfl) (fun c => by rw [V6_eq] <;> exact .rfl)
    (reg1 m) (fun c => by rw [V9_eq] <;> exact .rfl) (fun c => by rw [V10_eq] <;> exact .rfl)
    (reg2 m) (fun c => by rw [V11_eq] <;> exact .rfl) (fun c => by rw [V12_eq] <;> exact .rfl)

end Cert.Kernel.Fr

end
-- ==== Proof.KI.Data.lean ====
/-
  The proof data of the three kernel regions, at a parameter `V`: the contents of the core's buffers when a region is entered.

  Region 0 multiplies each row of a 2048-row block of the feature matrix by that row's scale and projects it by the whole
  512×32 weight matrix; region 1 projects a 2048-row block by a whole 32×32 matrix and adds a bias row; region 2 forms the
  1536×1536 block of inner products of two 1536-row blocks of ONE array. In every region each input window's staging buffer
  holds, after the body, the block it held before, and the output window's buffer holds the body's one stored value: the
  payload of the input blocks. No region keeps anything from one grid point to the next.
-/
import proofs.«159144_j70712341561937_2_alg».proof.Proof.Gen.KernelIdeal.Launch
import proofs.«159144_j70712341561937_2_alg».proof.Proof.Gen.KernelIdeal.Skeleton
import proofs.«159144_j70712341561937_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the core's buffer contents when a region is entered
variable (V : (c : Dev nD) → (b : Ref sig .tc) → Buf (Elt F) ((c : Thread nD τ).loc b))

/-! ## Region 0: a row block of the features, scaled row by row, times the weight matrix -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the arrays as found; after the body each input buffer at its block and the output buffer at
    the payload of the three input blocks; the invariant is the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
/-- What point `t` leaves in the output window's buffer: the product of the scaled row block with the weights. -/
theorem after0_3 (c : Dev nD) (t : Fin cfg0.N) :
    (dat0 V c).after 3 t = k0_pay1 (iblk0 V c 0 t) (iblk0 V c 1 t) (iblk0 V c 2 t) := by dsimp only [dat0]

/-! ## Region 1: a row block times a 32×32 matrix, plus a bias row -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

/-! ## Region 2: the block of inner products of two row blocks of one array -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Region 2's two input windows read ONE array: each holds half of it (the two halves of the full share), the output
    window its own array whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = k2_pay1 (iblk2 V c 0 t) (iblk2 V c 1 t) := by dsimp only [dat2]

end Cert.KernelIdeal.Fr

end
-- ==== Proof.KI.Reg0.lean ====
import proofs.«159144_j70712341561937_2_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: a 2048-row block of the features, each row scaled by its entry of the scale column, times the whole 512×32 weight matrix

The body loads each input window's staging buffer whole, computes ONE value from them, loads the output window's buffer
(and discards what it read) and stores that value over the whole of it. So after the body every input buffer holds what it
held and the output buffer holds the payload of the inputs' contents, whatever it held before. -/

variable (V : (c : Dev nD) → (b : Ref sig .tc) → Buf (Elt F) ((c : Thread nD τ).loc b))

/-- The rectangles of this body start at the origin of their buffers. -/
theorem hz2_0 : (![0, 0] : Fin 2 → Nat) = fun _ => 0 := funext fun a => by fin_cases a <;> rfl

/-- Input window 0's current staging buffer holds its block at every point, whether the pipeline fetched it there or the
    block index has not moved since it last did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d
/-- Input window 1's current staging buffer holds its block at every point, whether the pipeline fetched it there or the
    block index has not moved since it last did. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d
/-- Input window 2's current staging buffer holds its block at every point, whether the pipeline fetched it there or the
    block index has not moved since it last did. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

set_option maxHeartbeats 1000000 in
/-- The body on whole staging buffers: the inputs' at contents `x`, the output's at anything; it ends with the inputs' as they
    were and the output's at the payload of the inputs. The one store covers the output buffer, so what the buffer reads
    afterwards is the stored value; each load is of a whole buffer, so it reads the buffer's contents. -/
theorem sound_kernel0 (c : Dev nD) (E : Set ℕ) (i : grid0.Coords) (arg1 : Memref sig .tc .vmem S2048x512 .f32) (harg1 : arg1.IsWhole) (arg2 : Memref sig .tc .vmem S2048x1 .f32) (harg2 : arg2.IsWhole) (arg3 : Memref sig .tc .vmem S512x32 .f32) (harg3 : arg3.IsWhole) (arg4 : Memref sig .tc .vmem S2048x32 .f32) (harg4 : arg4.IsWhole)
    (x0 : Vec F S2048x512 .f32) (x1 : Vec F S2048x1 .f32) (x2 : Vec F S512x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0__project_kernel i arg1 harg1 arg2 harg2 arg3 harg3 arg4 harg4) K := by
  simp only [cc0__project_kernel_eq_skeleton]; unfold cc0__project_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (View.cover_of_tiled _ S2048x32.size (by rfl)), View.canon_unit_zero hz2_0]
  simp only [View.readAt_eq_ld, View.ld_unit_zero (S := S2048x512) hz2_0, View.ld_unit_zero (S := S2048x1) hz2_0, View.ld_unit_zero (S := S512x32) hz2_0]

/-! ## The body obligation, at a generic point -/

/-- What the body is called with at point `t`: the invariant, the core's dues, every window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
import proofs.«159144_j70712341561937_2_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: a 2048-row block times the whole 32×32 matrix, plus the bias row

The body loads each input window's staging buffer whole, computes ONE value from them, loads the output window's buffer
(and discards what it read) and stores that value over the whole of it. So after the body every input buffer holds what it
held and the output buffer holds the payload of the inputs' contents, whatever it held before. -/

variable (V : (c : Dev nD) → (b : Ref sig .tc) → Buf (Elt F) ((c : Thread nD τ).loc b))

/-- The rectangles of this body start at the origin of their buffers. -/
theorem hz2_1 : (![0, 0] : Fin 2 → Nat) = fun _ => 0 := funext fun a => by fin_cases a <;> rfl

/-- Input window 0's current staging buffer holds its block at every point, whether the pipeline fetched it there or the
    block index has not moved since it last did. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d
/-- Input window 1's current staging buffer holds its block at every point, whether the pipeline fetched it there or the
    block index has not moved since it last did. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d
/-- Input window 2's current staging buffer holds its block at every point, whether the pipeline fetched it there or the
    block index has not moved since it last did. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

set_option maxHeartbeats 1000000 in
/-- The body on whole staging buffers: the inputs' at contents `x`, the output's at anything; it ends with the inputs' as they
    were and the output's at the payload of the inputs. The one store covers the output buffer, so what the buffer reads
    afterwards is the stored value; each load is of a whole buffer, so it reads the buffer's contents. -/
theorem sound_kernel1 (c : Dev nD) (E : Set ℕ) (i : grid1.Coords) (arg1 : Memref sig .tc .vmem S2048x32 .f32) (harg1 : arg1.IsWhole) (arg2 : Memref sig .tc .vmem S32x32 .f32) (harg2 : arg2.IsWhole) (arg3 : Memref sig .tc .vmem S1x32 .f32) (harg3 : arg3.IsWhole) (arg4 : Memref sig .tc .vmem S2048x32 .f32) (harg4 : arg4.IsWhole)
    (x0 : Vec F S2048x32 .f32) (x1 : Vec F S32x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (View.cover_of_tiled _ S2048x32.size (by rfl)), View.canon_unit_zero hz2_1]
  simp only [View.readAt_eq_ld, View.ld_unit_zero (S := S2048x32) hz2_1, View.ld_unit_zero (S := S32x32) hz2_1, View.ld_unit_zero (S := S1x32) hz2_1]

/-! ## The body obligation, at a generic point -/

/-- What the body is called with at point `t`: the invariant, the core's dues, every window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
import proofs.«159144_j70712341561937_2_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the 1536×1536 block of inner products of a row block with a row block of the same array

The body loads each input window's staging buffer whole, computes ONE value from them, loads the output window's buffer
(and discards what it read) and stores that value over the whole of it. So after the body every input buffer holds what it
held and the output buffer holds the payload of the inputs' contents, whatever it held before. -/

variable (V : (c : Dev nD) → (b : Ref sig .tc) → Buf (Elt F) ((c : Thread nD τ).loc b))

/-- The rectangles of this body start at the origin of their buffers. -/
theorem hz2_2 : (![0, 0] : Fin 2 → Nat) = fun _ => 0 := funext fun a => by fin_cases a <;> rfl

/-- Input window 0's current staging buffer holds its block at every point, whether the pipeline fetched it there or the
    block index has not moved since it last did. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d
/-- Input window 1's current staging buffer holds its block at every point, whether the pipeline fetched it there or the
    block index has not moved since it last did. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_1 (c : Dev nD) (t : Fin cfg2.N) (d) : (dat2 V c).before 1 t d = iblk2 V c 1 t :=
  before2_1_of V (dat2 V c) (A_eq2 V c 1) (after2_1 V c) t d

set_option maxHeartbeats 1000000 in
/-- The body on whole staging buffers: the inputs' at contents `x`, the output's at anything; it ends with the inputs' as they
    were and the output's at the payload of the inputs. The one store covers the output buffer, so what the buffer reads
    afterwards is the stored value; each load is of a whole buffer, so it reads the buffer's contents. -/
theorem sound_kernel2 (c : Dev nD) (E : Set ℕ) (i : grid2.Coords) (arg2 : Memref sig .tc .vmem S1536x16 .f32) (harg2 : arg2.IsWhole) (arg3 : Memref sig .tc .vmem S1536x16 .f32) (harg3 : arg3.IsWhole) (arg4 : Memref sig .tc .vmem S1536x1536 .f32) (harg4 : arg4.IsWhole)
    (x0 : Vec F S1536x16 .f32) (x1 : Vec F S1536x16 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k2_pay1 x0 x1)) -∗ K ⟨⟩))
      ⊢ wp frame (wpE (defs₀ (F := F)) Variants.none c none) E (cc2__zzt_kernel i arg2 harg2 arg3 harg3 arg4 harg4) K := by
  simp only [cc2__zzt_kernel_eq_skeleton]; unfold cc2__zzt_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (View.cover_of_tiled _ S1536x1536.size (by rfl)), View.canon_unit_zero hz2_2]
  simp only [View.readAt_eq_ld, View.ld_unit_zero (S := S1536x16) hz2_2]

/-! ## The body obligation, at a generic point -/

/-- What the body is called with at point `t`: the invariant, the core's dues, every window's current staging buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Run.lean ====
import proofs.«159144_j70712341561937_2_alg».proof.Proof.KI.Reg0
import proofs.«159144_j70712341561937_2_alg».proof.Proof.KI.Reg1
import proofs.«159144_j70712341561937_2_alg».proof.Proof.KI.Reg2
import proofs.«159144_j70712341561937_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Kit
import Idealize.ShloMosaic.Lib.Pipeline.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # The run: the three regions as segments of the host program

Between two items of the host program core `c` holds every unscoped buffer whole. The contents are staged: the launch
memory through the first five stretches of host operations (`Y5`); region 0 replaces the projected-features array by what its
six write-backs leave (`Y6`); three more stretches (`Y9`); region 1 replaces its output array (`Y10`); one stretch (`Y11`);
region 2 replaces the square output array (`Y12`). A region changes its output window's array and nothing else: its input
windows' arrays end as they were entered. -/

variable (m : (ℓ : Loc nD τ sig) → Buf (Elt F) ℓ)

/-- Core `c`'s buffers when region 0 is entered. -/
abbrev Y5 (c : Dev nD) : Valuation τ sig (Elt F) := Gen.V5 m c
abbrev U5 : (c : Dev nD) → (b : Ref sig .tc) → Buf (Elt F) ((c : Thread nD τ).loc b) := fun c b => Y5 m c b
/-- … when region 0 is left: its output array at what the write-backs leave. -/
def Y6 (c : Dev nD) : Valuation τ sig (Elt F) := Function.update (Y5 m c) main_v21 ((dat0 (U5 m) c).arrAt 3 cfg0.N)
/-- … when region 1 is entered. -/
abbrev Y9 (c : Dev nD) : Valuation τ sig (Elt F) :=
  StableHlo.after hostOps1_2 (StableHlo.after hostOps1_1 (StableHlo.after hostOps1 (Y6 m c)))
abbrev U9 : (c : Dev nD) → (b : Ref sig .tc) → Buf (Elt F) ((c : Thread nD τ).loc b) := fun c b => Y9 m c b
/-- … when region 1 is left. -/
def Y10 (c : Dev nD) : Valuation τ sig (Elt F) := Function.update (Y9 m c) main_v57 ((dat1 (U9 m) c).arrAt 3 cfg1.N)
/-- … when region 2 is entered. -/
abbrev Y11 (c : Dev nD) : Valuation τ sig (Elt F) := StableHlo.after hostOps2 (Y10 m c)
abbrev U11 : (c : Dev nD) → (b : Ref sig .tc) → Buf (Elt F) ((c : Thread nD τ).loc b) := fun c b => Y11 m c b
/-- … when region 2 is left: the end of the program. -/
def Y12 (c : Dev nD) : Valuation τ sig (Elt F) := Function.update (Y11 m c) main_v60 ((dat2 (U11 m) c).arrAt 2 cfg2.N)

/-- What the regions leave, in the form the host side's valuations are written over. -/
def outsOf : Gen.Outs (F := F) := fun J r c => if J ≤ 6 then Y6 m c r else if J ≤ 10 then Y10 m c r else Y12 m c r

theorem outs6 (c : Dev nD) : outsOf m 6 main_v21 c = (dat0 (U5 m) c).arrAt 3 cfg0.N := by
  show Y6 m c main_v21 = _; unfold Y6; exact Function.update_self ..
theorem V6_eq (c : Dev nD) : Gen.V6 m (outsOf m) c = Y6 m c := by
  show Function.update (Y5 m c) main_v21 (outsOf m 6 main_v21 c) = Function.update (Y5 m c) main_v21 _
  rw [outs6]
theorem V9_eq (c : Dev nD) : Gen.V9 m (outsOf m) c = Y9 m c := by
  show StableHlo.after hostOps1_2 (StableHlo.after hostOps1_1 (StableHlo.after hostOps1 (Gen.V6 m (outsOf m) c))) = _
  rw [V6_eq]
theorem outs10 (c : Dev nD) : outsOf m 10 main_v57 c = (dat1 (U9 m) c).arrAt 3 cfg1.N := by
  show Y10 m c main_v57 = _; unfold Y10; exact Function.update_self ..
theorem V10_eq (c : Dev nD) : Gen.V10 m (outsOf m) c = Y10 m c := by
  show Function.update (Gen.V9 m (outsOf m) c) main_v57 (outsOf m 10 main_v57 c) = Function.update (Y9 m c) main_v57 _
  rw [outs10, V9_eq]
theorem V11_eq (c : Dev nD) : Gen.V11 m (outsOf m) c = Y11 m c := by
  show StableHlo.after hostOps2 (Gen.V10 m (outsOf m) c) = _
  rw [V10_eq]
theorem outs12 (c : Dev nD) : outsOf m 12 main_v60 c = (dat2 (U11 m) c).arrAt 2 cfg2.N := by
  show Y12 m c main_v60 = _; unfold Y12; exact Function.update_self ..
theorem V12_eq (c : Dev nD) : Gen.V12 m (outsOf m) c = Y12 m c := by
  show Function.update (Gen.V11 m (outsOf m) c) main_v60 (outsOf m 12 main_v60 c) = Function.update (Y11 m c) main_v60 _
  rw [outs12, V11_eq]

/-! ## A region's arrays at its exit -/

/-- Region 0's output array when it is left, and every other buffer as it was entered. -/
theorem Y6_self (c : Dev nD) : Y6 m c main_v21 = (dat0 (U5 m) c).arrAt 3 cfg0.N := by
  unfold Y6; exact Function.update_self ..
theorem Y6_ne (c : Dev nD) (b : Ref sig .tc) (h : b ≠ main_v21) : Y6 m c b = Y5 m c b := by
  unfold Y6; exact Function.update_of_ne (StableHlo.devRef_ne_of_ne h) ..
/-- Region 0's arrays when it is left: the inputs as entered, the output at what the write-backs leave. -/
theorem hF0 (c : Dev nD) : ∀ w : Fin cfg0.W, (dat0 (U5 m) c).arrAt w cfg0.N = Y6 m c (Pipeline.arrRef spec0 w)
  | ⟨0, _⟩ => ((dat0 (U5 m) c).arrAt_in _ rfl cfg0.N).trans ((A_eq0 (U5 m) c _).trans (Y6_ne m c main_arg0 (by decide)).symm)
  | ⟨1, _⟩ => ((dat0 (U5 m) c).arrAt_in _ rfl cfg0.N).trans ((A_eq0 (U5 m) c _).trans (Y6_ne m c main_v19 (by decide)).symm)
  | ⟨2, _⟩ => ((dat0 (U5 m) c).arrAt_in _ rfl cfg0.N).trans ((A_eq0 (U5 m) c _).trans (Y6_ne m c main_arg3 (by decide)).symm)
  | ⟨3, _⟩ => (Y6_self m c).symm
theorem hrest0 (c : Dev nD) : ∀ b, b ∉ Finset.univ.image (Pipeline.arrRef spec0) → Y6 m c b = Y5 m c b :=
  fun b hb => Y6_ne m c b fun e => hb (Finset.mem_image.mpr ⟨3, Finset.mem_univ _, e.symm⟩)

/-- Region 1's output array when it is left, and every other buffer as it was entered. -/
theorem Y10_self (c : Dev nD) : Y10 m c main_v57 = (dat1 (U9 m) c).arrAt 3 cfg1.N := by
  unfold Y10; exact Function.update_self ..
theorem Y10_ne (c : Dev nD) (b : Ref sig .tc) (h : b ≠ main_v57) : Y10 m c b = Y9 m c b := by
  unfold Y10; exact Function.update_of_ne (StableHlo.devRef_ne_of_ne h) ..
/-- Region 1's arrays when it is left: the inputs as entered, the output at what the write-backs leave. -/
theorem hF1 (c : Dev nD) : ∀ w : Fin cfg1.W, (dat1 (U9 m) c).arrAt w cfg1.N = Y10 m c (Pipeline.arrRef spec1 w)
  | ⟨0, _⟩ => ((dat1 (U9 m) c).arrAt_in _ rfl cfg1.N).trans ((A_eq1 (U9 m) c _).trans (Y10_ne m c main_v53 (by decide)).symm)
  | ⟨1, _⟩ => ((dat1 (U9 m) c).arrAt_in _ rfl cfg1.N).trans ((A_eq1 (U9 m) c _).trans (Y10_ne m c main_v54 (by decide)).symm)
  | ⟨2, _⟩ => ((dat1 (U9 m) c).arrAt_in _ rfl cfg1.N).trans ((A_eq1 (U9 m) c _).trans (Y10_ne m c main_v56 (by decide)).symm)
  | ⟨3, _⟩ => (Y10_self m c).symm
theorem hrest1 (c : Dev nD) : ∀ b, b ∉ Finset.univ.image (Pipeline.arrRef spec1) → Y10 m c b = Y9 m c b :=
  fun b hb => Y10_ne m c b fun e => hb (Finset.mem_image.mpr ⟨3, Finset.mem_univ _, e.symm⟩)

/-- Region 2's output array when it is left, and every other buffer as it was entered. -/
theorem Y12_self (c : Dev nD) : Y12 m c main_v60 = (dat2 (U11 m) c).arrAt 2 cfg2.N := by
  unfold Y12; exact Function.update_self ..
theorem Y12_ne (c : Dev nD) (b : Ref sig .tc) (h : b ≠ main_v60) : Y12 m c b = Y11 m c b := by
  unfold Y12; exact Function.update_of_ne (StableHlo.devRef_ne_of_ne h) ..
/-- Region 2's arrays when it is left: the inputs as entered, the output at what the write-backs leave. -/
theorem hF2 (c : Dev nD) : ∀ w : Fin cfg2.W, (dat2 (U11 m) c).arrAt w cfg2.N = Y12 m c (Pipeline.arrRef spec2 w)
  | ⟨0, _⟩ => ((dat2 (U11 m) c).arrAt_in _ rfl cfg2.N).trans ((A_eq2 (U11 m) c _).trans (Y12_ne m c main_v58 (by decide)).symm)
  | ⟨1, _⟩ => ((dat2 (U11 m) c).arrAt_in _ rfl cfg2.N).trans ((A_eq2 (U11 m) c _).trans (Y12_ne m c main_v58 (by decide)).symm)
  | ⟨2, _⟩ => (Y12_self m c).symm
theorem hrest2 (c : Dev nD) : ∀ b, b ∉ Finset.univ.image (Pipeline.arrRef spec2) → Y12 m c b = Y11 m c b :=
  fun b hb => Y12_ne m c b fun e => hb (Finset.mem_image.mpr ⟨2, Finset.mem_univ _, e.symm⟩)

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (U5 m) c
  | ⟨1, _⟩ => fun c => dat1 (U9 m) c
  | ⟨2, _⟩ => fun c => dat2 (U11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and its dues, none. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 over the thread state: entered with every unscoped buffer at `Y5`, left with them at `Y6`. Its arrays are
    distinct buffers: they are split out of the unscoped buffers at entry and put back at their exit contents. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U5 m) c).loose
  hwaits := Pipeline.hwaits_of_owed_zero _ _ _ _ L lv 0 fun _ _ => rfl
  pre c := iprop(StableHlo.held (c : Thread nD τ) (Pipeline.ucRefs τ sig) (Y5 m c) ∗ R c)
  post c := iprop(StableHlo.held (c : Thread nD τ) (Pipeline.ucRefs τ sig) (Y6 m c) ∗ R c)
  X c := iprop(∃ r, prngReg c r)
  Y c := iprop(∃ r, prngReg c r)
  Z c := Pipeline.unscopedRest (Ix := Unit) (Name := ℕ) (U := UR sig nD τ) (Lvl := ℕ) spec0 c (U5 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U5 m c) (fun b => Y6 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `Y9`, left with them at `Y10`. Its arrays are
    distinct buffers: they are split out of the unscoped buffers at entry and put back at their exit contents. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U9 m) c).loose
  hwaits := Pipeline.hwaits_of_owed_zero _ _ _ _ L lv 1 fun _ _ => rfl
  pre c := iprop(StableHlo.held (c : Thread nD τ) (Pipeline.ucRefs τ sig) (Y9 m c) ∗ R c)
  post c := iprop(StableHlo.held (c : Thread nD τ) (Pipeline.ucRefs τ sig) (Y10 m c) ∗ R c)
  X c := iprop(∃ r, prngReg c r)
  Y c := iprop(∃ r, prngReg c r)
  Z c := Pipeline.unscopedRest (Ix := Unit) (Name := ℕ) (U := UR sig nD τ) (Lvl := ℕ) spec1 c (U9 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U9 m c) (fun b => Y10 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## One array behind two windows -/

/-- A conjunct that is the composite of two halves, beside another conjunct: the three in a row. -/
theorem sep_halves {P Pl Pr Q : sProp 𝕄} (h : P ⊣⊢ iprop(Pl ∗ Pr)) : iprop(P ∗ Q) ⊣⊢ iprop(Pl ∗ Pr ∗ Q) := by
  have h1 := h.1
  have h2 := h.2
  refine ⟨?_, ?_⟩
  · iintro ⟨Ha, Hb⟩
    ihave H := h1 $$ Ha
    icases H with ⟨Hl, Hr⟩
    isplitl [Hl]; · iexact Hl
    isplitl [Hr]; · iexact Hr
    iexact Hb
  · iintro ⟨Hl, Hr, Hb⟩
    isplitl [Hl Hr]
    · iapply h2; isplitl [Hl] <;> iassumption
    iexact Hb

/-- Region 2's three windows stand on two buffers. -/
theorem image2 : Finset.univ.image (Pipeline.arrRef spec2) = ({main_v58, main_v60} : Finset (Ref sig .tc)) := by decide

/-- The two buffers behind region 2's windows, each whole at the full share at contents `W`, ARE the region's arrays at
    those contents: the shared buffer split into its two halves, one per input window, the output's buffer whole. -/
theorem arrays2_iff (V : (c : Dev nD) → (b : Ref sig .tc) → Buf (Elt F) ((c : Thread nD τ).loc b)) (c : Dev nD)
    (W : (b : Ref sig .tc) → Buf (Elt F) ((c : Thread nD τ).loc b)) :
    (Pipeline.arrBufs (Ix := Unit) (Name := ℕ) (U := UR sig nD τ) (Lvl := ℕ) spec2 c W : sProp 𝕄)
      ⊣⊢ (dat2 V c).arrays (fun w => W (Pipeline.arrRef spec2 w)) := by
  have hA : ((dat2 V c).arrays (fun w => W (Pipeline.arrRef spec2 w)) : sProp 𝕄)
      = bigSep Finset.univ fun w : Fin cfg2.W => ((((c.tc : Thread nD τ).loc (Pipeline.arrRef spec2 w)) ↦{(dat2 V c).share w} W (Pipeline.arrRef spec2 w)) : sProp 𝕄) := by
    unfold Pipeline.Dat.arrays
    exact bigSep_congr fun w _ => by rw [(arr_whole2 w).set_eq_univ]
  rw [hA]; unfold Pipeline.arrBufs
  rw [image2, bigSep_insert (by decide), bigSep_singleton, bigSep_W2,
    show (dat2 V c).share 0 = fullShare.left from rfl, show (dat2 V c).share 1 = fullShare.right from rfl,
    show (dat2 V c).share 2 = fullShare from rfl]
  exact sep_halves (pointsTo_share (PosShare.mem_left_op_right fullShare))

set_option backward.isDefEq.respectTransparency.types false in
/-- Region 2 over the thread state: entered with every unscoped buffer at `Y11`, left with them at `Y12`. Its two input
    windows read ONE array: at entry that buffer is split into its two halves, one per window, and at exit the halves,
    which still hold the same contents, are put together again; the output array is held whole. -/
def reg2 : RegionSeg (pcfgs (F := F)) Gen.adm (pdats m) () defs₀ 𝒱₀ L lv 2 where
  win := winFacts₀2
  block_pos := block_pos2
  stage_whole := stage_whole2
  K := PEmpty
  osem k := k.elim
  ho := Pipeline.OwnSemFacts.none _
  hbody c := (body_obligation2 (U11 m) c).loose
  hwaits := Pipeline.hwaits_of_owed_zero _ _ _ _ L lv 2 fun _ _ => rfl
  pre c := iprop(StableHlo.held (c : Thread nD τ) (Pipeline.ucRefs τ sig) (Y11 m c) ∗ R c)
  post c := iprop(StableHlo.held (c : Thread nD τ) (Pipeline.ucRefs τ sig) (Y12 m c) ∗ R c)
  X c := iprop(∃ r, prngReg c r)
  Y c := iprop(∃ r, prngReg c r)
  Z c := Pipeline.unscopedRest (Ix := Unit) (Name := ℕ) (U := UR sig nD τ) (Lvl := ℕ) spec2 c (U11 m c)
  hentry c := by
    rw [Pipeline.ownSems0_none]
    have hsplit : (unscopedBufs c (U11 m c) : sProp 𝕄)
        ⊢ iprop((pdats m 2 c).arrays ((pdats m 2 c).arrAt · 0) ∗ Pipeline.unscopedRest spec2 c (U11 m c)) := by
      rw [Pipeline.unscopedBufs_split₀ (Pipeline.pin (pcfgs (F := F)) Gen.adm) 2 winFacts₀2.arr_unscoped c (U11 m c)]
      exact sep_mono (arrays2_iff (U11 m) c (U11 m c)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (U11 m c))
        ⊢ (unscopedBufs c (fun b => Y12 m c b) : sProp 𝕄) := by
      rw [Pipeline.unscopedBufs_split₀ (Pipeline.pin (pcfgs (F := F)) Gen.adm) 2 winFacts₀2.arr_unscoped c (fun b => Y12 m c b)]
      have e : ((pdats m 2 c).arrAt · cfg2.N) = fun w => Y12 m c (Pipeline.arrRef spec2 w) := funext (hF2 m c)
      rw [e]
      refine sep_mono (arrays2_iff (U11 m) c (fun b => Y12 m c b)).2 (Entails.of_eq ?_)
      unfold Pipeline.unscopedRest
      exact bigSep_congr fun b hb => by beta_reduce; rw [hrest2 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch, and the frame -/

/-- The launch element yields the pipelines' cells; no ghost resource beside it. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals a core beside its buffers keeps the generator register and the (empty) dues; the rest is let go. -/
theorem launch_rest (ρ : Dev nD → PrngReg) (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)) : sProp 𝕄) ⊢ R c := by
  iintro ⟨-, HO, -, Hp, -⟩
  isplitl [Hp]; · iexists _; iexact Hp
  iexists ∅; iexact HO

set_option backward.isDefEq.respectTransparency.types false in
/-- THE FRAME: from any memory with zero counters every weakly fair execution of the host program ends, nothing faulting,
    with the nine argument arrays as launched. The host side is the generated conditional frame; given to it here are the
    three regions' records, each entered from the staged contents before it and left at the one after it, with the
    generator register and the core's (empty) dues riding along. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond m emb₁ () 𝒱₀ L lv (fun _ _ => rfl) ρ (outsOf m) (pdats m) 0 (fun _ => iprop(emp))
    (initOf (Pipeline.cells cfgs cellOf_inj) (Pipeline.launchToks cfgs cellOf_inj)) hu₀ (fun _ c => R c)
    (by
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (iprop(emp) : sProp 𝕄)))
          ⊢ (bigSep Finset.univ fun c : Dev nD => R c : sProp 𝕄) := bigSep_mono fun c _ => launch_rest (F := F) ρ c
      iintro ⟨H, -⟩
      imodintro
      iapply hmono
      iexact H)
    (fun c => by iintro ⟨-, HO⟩; iexact HO)
    (reg0 m) (fun c => .rfl) (fun c => by rw [V6_eq] <;> exact .rfl)
    (reg1 m) (fun c => by rw [V9_eq] <;> exact .rfl) (fun c => by rw [V10_eq] <;> exact .rfl)
    (reg2 m) (fun c => by rw [V11_eq] <;> exact .rfl) (fun c => by rw [V12_eq] <;> exact .rfl)

/-! ## The run with every buffer named at the end -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the host program ends, nothing faulting, and
    in the final memory every unscoped buffer of core `c` holds the last staged contents `Y12 m c`: the launch theorem for a
    list of segments, over the generated host segments and the three regions' records; the last thread state is read
    against the final state buffer by buffer. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = Y12 m c b) := by
  refine Pipeline.θ_run_regions_kit_dev (pcfgs (F := F)) Gen.adm (pdats m) () cellOf_inj emb₁ defs₀ 𝒱₀ L lv m ρ main
    (Gen.segs m (outsOf m) 𝒱₀ L lv (fun _ c => R c) () (pdats m) (reg0 m) (reg1 m) (reg2 m))
    (fun c Q => by
      rewrite [main_chain c, Seg.run_eq_chain]
      exact .rfl)
    (fun c => by simp only [Gen.segs, Seg.pipes_host, Seg.pipes_region, Seg.pipes_nil]; decide)
    (0 : Dev nD → CellTallies nD τ sig Unit) (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (Gen.V0 m c) ∗ R c))
    (Tₙ := fun c => iprop(StableHlo.held (c : Thread nD τ) (Pipeline.ucRefs τ sig) (Y12 m c) ∗ ∃ r, prngReg c r))
    (hch := fun c => ⟨.rfl, .rfl, .rfl, .rfl, .rfl, .rfl,
      (show (iprop(StableHlo.held (c : Thread nD τ) (Pipeline.ucRefs τ sig) (Y6 m c) ∗ R c) : sProp 𝕄) ⊢ iprop(StableHlo.held (c : Thread nD τ) (Pipeline.ucRefs τ sig) (Gen.V6 m (outsOf m) c) ∗ R c) from by rw [V6_eq] <;> exact .rfl), .rfl, .rfl,
      (show (iprop(StableHlo.held (c : Thread nD τ) (Pipeline.ucRefs τ sig) (Gen.V9 m (outsOf m) c) ∗ R c) : sProp 𝕄) ⊢ iprop(StableHlo.held (c : Thread nD τ) (Pipeline.ucRefs τ sig) (Y9 m c) ∗ R c) from by rw [V9_eq] <;> exact .rfl),
      (show (iprop(StableHlo.held (c : Thread nD τ) (Pipeline.ucRefs τ sig) (Y10 m c) ∗ R c) : sProp 𝕄) ⊢ iprop(StableHlo.held (c : Thread nD τ) (Pipeline.ucRefs τ sig) (Gen.V10 m (outsOf m) c) ∗ R c) from by rw [V10_eq] <;> exact .rfl),
      (show (iprop(StableHlo.held (c : Thread nD τ) (Pipeline.ucRefs τ sig) (Gen.V11 m (outsOf m) c) ∗ R c) : sProp 𝕄) ⊢ iprop(StableHlo.held (c : Thread nD τ) (Pipeline.ucRefs τ sig) (Y11 m c) ∗ R c) from by rw [V11_eq] <;> exact .rfl),
      (show (iprop(StableHlo.held (c : Thread nD τ) (Pipeline.ucRefs τ sig) (Y12 m c) ∗ R c) : sProp 𝕄)
          ⊢ iprop((StableHlo.held (c : Thread nD τ) (Pipeline.ucRefs τ sig) (Y12 m c) ∗ ∃ r, prngReg c r) ∗ ∃ W, owes (c : Thread nD τ) (0 : CellTallies nD τ sig Unit) W) from ?_)⟩)
    (hinit := ?_) (QY := fun c s => ∀ b ∈ Pipeline.ucRefs τ sig, s.mem (((c : Thread nD τ)).1, b) = Y12 m c b)
    (hfin := fun c s' => ?_) (hQ := fun _ h => h)
  · -- the last region leaves the buffers, the generator register and the core owing nothing
    iintro ⟨Hh, Hp, HO⟩
    isplitl [Hh Hp]
    · isplitl [Hh]; · iexact Hh
      iexact Hp
    iexact HO
  · -- the launch: the unscoped buffers are held at the launch contents; the register and the dues ride along
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every held buffer read against the final state
    iintro ⟨⟨Hh, -⟩, HSI⟩
    unfold StableHlo.held
    imodintro
    iapply (pointsTo_read_all (Pipeline.ucRefs τ sig) (fun b => (((c : Thread nD τ)).1, b)) (Y12 m c) s')
    isplitl [Hh] <;> iassumption

/-- The run with the three results and the nine arguments named: each result buffer ends at the last valuation's contents
    (written over the regions' outputs `outsOf m`), each argument as launched. -/
theorem run_results (ρ : Dev nD → PrngReg) : θ_run defs (onTc (τ := τ) (main (F := F))) ⟨m, fun _ => 0, ρ⟩ (fun r => ∀ c : Dev nD,
      r.2.mem ((c.tc : Thread nD τ).loc main_v60) = Gen.V12 m (outsOf m) c main_v60
      ∧ r.2.mem ((c.tc : Thread nD τ).loc main_v58) = Gen.V12 m (outsOf m) c main_v58
      ∧ r.2.mem ((c.tc : Thread nD τ).loc main_v59) = Gen.V12 m (outsOf m) c main_v59
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
    have hc := h c
    rw [← V12_eq] at hc
    exact ⟨hc _ (mem_uc main_v60 (by decide)), hc _ (mem_uc main_v58 (by decide)), hc _ (mem_uc main_v59 (by decide)),
      (hc _ (mem_uc main_arg0 (by decide))).trans (Gen.V12_main_arg0 m (outsOf m) c),
      (hc _ (mem_uc main_arg1 (by decide))).trans (Gen.V12_main_arg1 m (outsOf m) c),
      (hc _ (mem_uc main_arg2 (by decide))).trans (Gen.V12_main_arg2 m (outsOf m) c),
      (hc _ (mem_uc main_arg3 (by decide))).trans (Gen.V12_main_arg3 m (outsOf m) c),
      (hc _ (mem_uc main_arg4 (by decide))).trans (Gen.V12_main_arg4 m (outsOf m) c),
      (hc _ (mem_uc main_arg5 (by decide))).trans (Gen.V12_main_arg5 m (outsOf m) c),
      (hc _ (mem_uc main_arg6 (by decide))).trans (Gen.V12_main_arg6 m (outsOf m) c),
      (hc _ (mem_uc main_arg7 (by decide))).trans (Gen.V12_main_arg7 m (outsOf m) c),
      (hc _ (mem_uc main_arg8 (by decide))).trans (Gen.V12_main_arg8 m (outsOf m) c)⟩) (run_all m ρ)

end Cert.KernelIdeal.Fr

end
-- ==== Proof.RefShape.lean ====
/-
  The reference program's stages read at an index, at the ideal instance (floats are extended reals, every operation
  exact).  The program is a three-layer graph auto-encoder:

    aggregate(Y) = (segment sum over the edges of the source rows of Y, scaled by the source norm) scaled by the target norm
    h1     = max (aggregate(feat) · W1 + b1) 0
    mu     = aggregate(h1) · W2 + b2
    logvar = aggregate(h1) · W3 + b3
    adj    = mu · transpose(mu)

  Each lemma below reads one stage at a row and a column in terms of the stage before it: a matrix product is the sum
  over the contracted axis, a bias row is read at the column, a per-node norm is read at the row (through the two
  broadcasts that spread it over the columns), the transpose swaps the two coordinates.  The second and third layers
  aggregate the same table with the same edges, so they share one aggregate.
-/
import proofs.«159144_j70712341561937_2_alg».proof.Proof.RefRead
import Idealize.ShloMosaic.Lib.ValueIdx
import Idealize.ShloMosaic.PureOps.Ideal
import Idealize.ShloMosaic.PureOps.Ideal.Laws

noncomputable section

open scoped BigOperators

namespace Cert.ReferenceIdeal.Shape

open Cert.ReferenceIdeal Cert.ReferenceIdeal.Gen Cert.ReferenceIdeal.Read
open Idealize.ShloMosaic Idealize.ShloMosaic.ValueIdx

/-! ## The index maps of the stages, at a row and a column -/

/-- First product, left operand: row "r" of the scaled aggregate, entry "k". -/
theorem lidx_v35 (r : Fin 12288) (j : Fin 32) (k : Fin 512) : lidx_main_v35 (ix2 r j) k = ix2 r k :=
  funext fun a => Fin.ext (by match a with | ⟨0, _⟩ => rfl | ⟨1, _⟩ => rfl)

/-- First product, right operand: entry "(k, j)" of the weight matrix. -/
theorem ridx_v35 (r : Fin 12288) (j : Fin 32) (k : Fin 512) : ridx_main_v35 (ix2 r j) k = ix2 k j :=
  funext fun a => Fin.ext (by match a with | ⟨0, _⟩ => rfl | ⟨1, _⟩ => rfl)

/-- The first bias, spread over the rows, read at "(r, j)": its entry "j". -/
theorem idx_v37 (r : Fin 12288) (j : Fin 32) : idx_main_v36 (idx_main_v37 (ix2 r j)) = ix1 j :=
  funext fun a => Fin.ext (by match a with | ⟨0, _⟩ => rfl)

/-- The target norm, spread over the 512 columns, read at "(r, k)": its entry "r". -/
theorem idx_v33 (r : Fin 12288) (k : Fin 512) : idx_main_v32 (idx_main_v33 (ix2 r k)) = ix1 r :=
  funext fun a => Fin.ext (by match a with | ⟨0, _⟩ => rfl)

/-- The source norm, spread over the 512 columns, read at "(r, k)": its entry "r". -/
theorem idx_v20 (r : Fin 12288) (k : Fin 512) : idx_main_v19 (idx_main_v20 (ix2 r k)) = ix1 r :=
  funext fun a => Fin.ext (by match a with | ⟨0, _⟩ => rfl)

/-- The source norm, spread over the 32 columns, read at "(r, k)": its entry "r". -/
theorem idx_v41 (r : Fin 12288) (k : Fin 32) : idx_main_v40 (idx_main_v41 (ix2 r k)) = ix1 r :=
  funext fun a => Fin.ext (by match a with | ⟨0, _⟩ => rfl)

/-- The target norm, spread over the 32 columns, read at "(r, k)": its entry "r". -/
theorem idx_v54 (r : Fin 12288) (k : Fin 32) : idx_main_v53 (idx_main_v54 (ix2 r k)) = ix1 r :=
  funext fun a => Fin.ext (by match a with | ⟨0, _⟩ => rfl)

/-- Second product, left operand. -/
theorem lidx_v56 (r : Fin 12288) (j : Fin 16) (k : Fin 32) : lidx_main_v56 (ix2 r j) k = ix2 r k :=
  funext fun a => Fin.ext (by match a with | ⟨0, _⟩ => rfl | ⟨1, _⟩ => rfl)

/-- Second product, right operand. -/
theorem ridx_v56 (r : Fin 12288) (j : Fin 16) (k : Fin 32) : ridx_main_v56 (ix2 r j) k = ix2 k j :=
  funext fun a => Fin.ext (by match a with | ⟨0, _⟩ => rfl | ⟨1, _⟩ => rfl)

/-- The second bias, spread over the rows, read at "(r, j)": its entry "j". -/
theorem idx_v58 (r : Fin 12288) (j : Fin 16) : idx_main_v57 (idx_main_v58 (ix2 r j)) = ix1 j :=
  funext fun a => Fin.ext (by match a with | ⟨0, _⟩ => rfl)

/-- Third product, left operand. -/
theorem lidx_v76 (r : Fin 12288) (j : Fin 16) (k : Fin 32) : lidx_main_v76 (ix2 r j) k = ix2 r k :=
  funext fun a => Fin.ext (by match a with | ⟨0, _⟩ => rfl | ⟨1, _⟩ => rfl)

/-- Third product, right operand. -/
theorem ridx_v76 (r : Fin 12288) (j : Fin 16) (k : Fin 32) : ridx_main_v76 (ix2 r j) k = ix2 k j :=
  funext fun a => Fin.ext (by match a with | ⟨0, _⟩ => rfl | ⟨1, _⟩ => rfl)

/-- The third bias, spread over the rows, read at "(r, j)": its entry "j". -/
theorem idx_v78 (r : Fin 12288) (j : Fin 16) : idx_main_v77 (idx_main_v78 (ix2 r j)) = ix1 j :=
  funext fun a => Fin.ext (by match a with | ⟨0, _⟩ => rfl)

/-- Last product, left operand: row "p" of "mu", entry "k". -/
theorem lidx_v81 (p q : Fin 12288) (k : Fin 16) : lidx_main_v81 (ix2 p q) k = ix2 p k :=
  funext fun a => Fin.ext (by match a with | ⟨0, _⟩ => rfl | ⟨1, _⟩ => rfl)

/-- Last product, right operand, through the transpose: row "q" of "mu", entry "k". -/
theorem ridx_v81 (p q : Fin 12288) (k : Fin 16) : idx_main_v80 (ridx_main_v81 (ix2 p q) k) = ix2 q k :=
  funext fun a => Fin.ext (by match a with | ⟨0, _⟩ => rfl | ⟨1, _⟩ => rfl)

/-! ## The stages -/

variable (x0 : (⟨S12288x512, .f32⟩ : BufTy).Contents (Elt Ideal))
  (x1 x2 : (⟨S405504, .i32⟩ : BufTy).Contents (Elt Ideal))
  (x3 : (⟨S512x32, .f32⟩ : BufTy).Contents (Elt Ideal)) (x4 : (⟨S32, .f32⟩ : BufTy).Contents (Elt Ideal))
  (x5 : (⟨S32x16, .f32⟩ : BufTy).Contents (Elt Ideal)) (x6 : (⟨S16, .f32⟩ : BufTy).Contents (Elt Ideal))
  (x7 : (⟨S32x16, .f32⟩ : BufTy).Contents (Elt Ideal)) (x8 : (⟨S16, .f32⟩ : BufTy).Contents (Elt Ideal))

/-- THE SCALED FEATURES at "(r, k)": the feature times the source norm of row "r". -/
theorem ref_feat_scaled_apply (r : Fin 12288) (k : Fin 512) :
    val_main_v21 (F := Ideal) x0 x1 (ix2 r k) = x0 (ix2 r k) * val_main_v12 (F := Ideal) x1 (ix1 r) := by
  rw [val_main_v21_apply, val_main_v20_apply, val_main_v19_apply, idx_v20]
  rfl

/-- THE FIRST AGGREGATE is the segment sum of the scaled features: the gather of the source rows, added into zeros. -/
theorem ref_agg1_def :
    val_main_v31 (F := Ideal) x0 x1 x2
      = Host.scatterAdd (F := Ideal) (φ := .f32) scatter_S12288x512_S405504x1_S405504x512_1_0_0_1
          (broadcastInDim S12288x512 ![] bcast_S_S12288x512 (constant (F := Ideal) S_ .f32 0x00000000#32))
          (val_main_v30 (F := Ideal) x2)
          (Host.gather gather_S12288x512_S405504x1_S405504x512_1_0_n_n_0_1_1512 (val_main_v21 (F := Ideal) x0 x1)
            (val_main_v27 (F := Ideal) x1)) := rfl

/-- THE FIRST AGGREGATE SCALED at "(r, k)": the segment sum times the target norm of row "r". -/
theorem ref_scaled_apply (r : Fin 12288) (k : Fin 512) :
    val_main_v34 (F := Ideal) x0 x1 x2 (ix2 r k)
      = val_main_v31 (F := Ideal) x0 x1 x2 (ix2 r k) * val_main_v18 (F := Ideal) x2 (ix1 r) := by
  rw [val_main_v34_apply, val_main_v33_apply, val_main_v32_apply, idx_v33]
  rfl

/-- THE FIRST LAYER at "(r, j)": the larger of zero and row "r" of the scaled aggregate times column "j" of the first
    weight matrix, plus the first bias at "j". -/
theorem ref_h1_apply (r : Fin 12288) (j : Fin 32) :
    val_main_v39 (F := Ideal) x0 x1 x2 x3 x4 (ix2 r j)
      = max ((∑ k : Fin 512, val_main_v34 (F := Ideal) x0 x1 x2 (ix2 r k) * x3 (ix2 k j)) + x4 (ix1 j)) 0 := by
  rw [val_main_v39_apply, val_main_v38_apply, val_main_v35_apply, val_main_v37_apply, val_main_v36_apply,
    val_main_call2_v0_apply, val_main_call2_cst_apply, idx_v37]
  simp only [lidx_v35, ridx_v35, Ideal.maximumf_def, Ideal.addf_def, Ideal.ofBits_def, Ideal.ofBits_zero_f32]

/-- THE SCALED FIRST LAYER at "(r, k)": the first layer times the source norm of row "r". -/
theorem ref_h1_scaled_apply (r : Fin 12288) (k : Fin 32) :
    val_main_v42 (F := Ideal) x0 x1 x2 x3 x4 (ix2 r k)
      = val_main_v39 (F := Ideal) x0 x1 x2 x3 x4 (ix2 r k) * val_main_v12 (F := Ideal) x1 (ix1 r) := by
  rw [val_main_v42_apply, val_main_v41_apply, val_main_v40_apply, idx_v41]
  rfl

/-- THE SECOND AGGREGATE is the segment sum of the scaled first layer, over the same edges as the first. -/
theorem ref_agg2_def :
    val_main_v52 (F := Ideal) x0 x1 x2 x3 x4
      = Host.scatterAdd (F := Ideal) (φ := .f32) scatter_S12288x32_S405504x1_S405504x32_1_0_0_1
          (broadcastInDim S12288x32 ![] bcast_S_S12288x32 (constant (F := Ideal) S_ .f32 0x00000000#32))
          (val_main_v30 (F := Ideal) x2)
          (Host.gather gather_S12288x32_S405504x1_S405504x32_1_0_n_n_0_1_132 (val_main_v42 (F := Ideal) x0 x1 x2 x3 x4)
            (val_main_v27 (F := Ideal) x1)) := rfl

/-- THE SECOND AGGREGATE SCALED at "(r, k)": the segment sum times the target norm of row "r". -/
theorem ref_scaled2_apply (r : Fin 12288) (k : Fin 32) :
    val_main_v55 (F := Ideal) x0 x1 x2 x3 x4 (ix2 r k)
      = val_main_v52 (F := Ideal) x0 x1 x2 x3 x4 (ix2 r k) * val_main_v18 (F := Ideal) x2 (ix1 r) := by
  rw [val_main_v55_apply, val_main_v54_apply, val_main_v53_apply, idx_v54]
  rfl

/-- THE MEAN at "(r, j)": row "r" of the scaled second aggregate times column "j" of the second weight matrix, plus
    the second bias at "j". -/
theorem ref_mu_apply (r : Fin 12288) (j : Fin 16) :
    val_main_v59 (F := Ideal) x0 x1 x2 x3 x4 x5 x6 (ix2 r j)
      = (∑ k : Fin 32, val_main_v55 (F := Ideal) x0 x1 x2 x3 x4 (ix2 r k) * x5 (ix2 k j)) + x6 (ix1 j) := by
  rw [val_main_v59_apply, val_main_v56_apply, val_main_v58_apply, val_main_v57_apply, idx_v58]
  simp only [lidx_v56, ridx_v56, Ideal.addf_def]

/-- THE LOG-VARIANCE at "(r, j)": row "r" of the scaled third aggregate times column "j" of the third weight matrix,
    plus the third bias at "j". -/
theorem ref_logvar_apply (r : Fin 12288) (j : Fin 16) :
    val_main_v79 (F := Ideal) x0 x1 x2 x3 x4 x7 x8 (ix2 r j)
      = (∑ k : Fin 32, val_main_v75 (F := Ideal) x0 x1 x2 x3 x4 (ix2 r k) * x7 (ix2 k j)) + x8 (ix1 j) := by
  rw [val_main_v79_apply, val_main_v76_apply, val_main_v78_apply, val_main_v77_apply, idx_v78]
  simp only [lidx_v76, ridx_v76, Ideal.addf_def]

/-- THE THIRD AGGREGATE IS THE SECOND: the same operations on the same operands. -/
theorem ref_agg_same :
    val_main_v75 (F := Ideal) x0 x1 x2 x3 x4 = val_main_v55 (F := Ideal) x0 x1 x2 x3 x4 := rfl

/-- THE ADJACENCY at "(p, q)": row "p" of the mean times row "q" of the mean. -/
theorem ref_adj_apply_ix2 (p q : Fin 12288) :
    val_main_v81 (F := Ideal) x0 x1 x2 x3 x4 x5 x6 (ix2 p q)
      = ∑ k : Fin 16, val_main_v59 (F := Ideal) x0 x1 x2 x3 x4 x5 x6 (ix2 p k)
          * val_main_v59 (F := Ideal) x0 x1 x2 x3 x4 x5 x6 (ix2 q k) := by
  rw [val_main_v81_apply]
  refine Finset.sum_congr rfl fun k _ => ?_
  rw [val_main_v80_apply, lidx_v81, ridx_v81]

/-- The adjacency at any index "i": rows "i 0" and "i 1" of the mean. -/
theorem ref_adj_apply (i : S12288x12288.Idx) :
    val_main_v81 (F := Ideal) x0 x1 x2 x3 x4 x5 x6 i
      = ∑ k : Fin 16, val_main_v59 (F := Ideal) x0 x1 x2 x3 x4 x5 x6 (ix2 (i 0) k)
          * val_main_v59 (F := Ideal) x0 x1 x2 x3 x4 x5 x6 (ix2 (i 1) k) :=
  (congrArg (val_main_v81 (F := Ideal) x0 x1 x2 x3 x4 x5 x6) (eq_ix2 i)).trans
    (ref_adj_apply_ix2 x0 x1 x2 x3 x4 x5 x6 (i 0) (i 1))

end Cert.ReferenceIdeal.Shape

end
-- ==== Proof.LibSegment.lean ====
/-
  General lemmas for a graph layer with a per-node scale, at the ideal instance (floats are extended reals, every
  operation exact).  A row gather and a vector gather read at an index (the start index read signed and clamped); the
  row scatter's landing rule (the start index read signed, not clamped, dropped outside); a nonnegative real factor
  moves inside a finite sum of extended reals; and with these, the layer theorem: scaling the gathered rows before
  the scatter-add and the sums after it by the per-node scale is the same as scaling every edge's row by the product
  of the scales of its two ends.  Last, the scale itself: an inverse square root selected where the degree is
  positive, zero elsewhere, is a nonnegative real.
-/
import Idealize.ShloMosaic.Lib.ValueIdx
import Idealize.ShloMosaic.Lib.Pipeline.Value
import Idealize.ShloMosaic.PureOps.Ideal
import Idealize.ShloMosaic.PureOps.Ideal.Laws
import Mathlib.Data.EReal.Operations

noncomputable section

open scoped BigOperators

namespace Cert.LibSegment

open Idealize.ShloMosaic Idealize.ShloMosaic.ValueIdx

/-! ## The three dimension-number records -/

/-- Row gather: operand `[N, C]`, start indices `[E, 1]`, result `[E, C]`; result row `e` is the operand's row at the
    start index `idx[e, 0]`.  The conditions `wf` are decided on a program's literal shapes. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Vector gather: operand `[N]`, start indices `[E, 1]`, result `[E]`; result element `e` is the operand's element at
    the start index `idx[e, 0]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, C]`, scatter indices `[E, 1]`, updates `[E, C]`; update row `e` goes to the operand's row
    `idx[e, 0]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## The gathers read at an index -/

section Gather
variable {α : Type}

/-- THE ROW GATHER READ AT `(e, c)`: the operand at row `idx[e, 0]` (read signed, clamped into `[0, N − 1]`) and
    column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 ⟨min (idx (ix2 e 0)).toInt.toNat (N - 1), by omega⟩ c) := by
  unfold Host.gather
  congr 1
  funext a
  refine Fin.ext ?_
  show (rowGather N E C wf).start (ix2 e c) idx a + (rowGather N E C wf).batchCoord (ix2 e c) a
      + (rowGather N E C wf).offCoord (ix2 e c) a = _
  rw [GatherDims.batchCoord_eq_zero _ _ _ List.not_mem_nil]
  match a with
  | ⟨0, _⟩ =>
    -- the row axis: collapsed, so no offset; the start index, clamped
    rw [GatherDims.offCoord_eq_zero _ _ _
      (fun h => ((GatherDims.mem_sKept _ _).mp h).1 (List.mem_singleton.mpr rfl))]
    simp only [Nat.add_zero]
    unfold GatherDims.start
    rw [dif_pos (show (⟨0, Nat.zero_lt_two⟩ : Fin 2) ∈ (rowGather N E C wf).startIndexMap from
      List.mem_singleton.mpr rfl)]
    have hsi : (rowGather N E C wf).siIdx (ix2 e c)
        ⟨List.idxOf (⟨0, Nat.zero_lt_two⟩ : Fin 2) (rowGather N E C wf).startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the column axis: not in the start index map, so start 0; the offset is the result's column
    unfold GatherDims.start
    rw [dif_neg (by simp)]
    unfold GatherDims.offCoord
    have hk : (⟨1, Nat.one_lt_two⟩ : Fin 2) ∈ (rowGather N E C wf).sKept := by
      rw [GatherDims.mem_sKept]; simp
    rw [dif_pos hk, Nat.add_zero, Nat.zero_add]
    rfl

/-- THE VECTOR GATHER READ AT `e`: the operand at `idx[e, 0]`, read signed and clamped into `[0, N − 1]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGather N E wf).start (ix1 e) idx 0 + (vecGather N E wf).batchCoord (ix1 e) 0
      + (vecGather N E wf).offCoord (ix1 e) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Where an update row lands -/

section Scatter

/-- The row scatter's start on the row axis for update index `(e, c)`: the scatter index `idx[e, 0]`, read signed. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).start (ix2 e c) idx ⟨0, Nat.zero_lt_two⟩ = (idx (ix2 e 0)).toInt := by
  unfold ScatterDims.start
  rw [dif_pos (show (⟨0, Nat.zero_lt_two⟩ : Fin 2) ∈ (rowScatter N E C wf).scatterDimsToOperandDims from
    List.mem_singleton.mpr rfl)]
  have hsi : (rowScatter N E C wf).siIdx (ix2 e c)
      ⟨List.idxOf (⟨0, Nat.zero_lt_two⟩ : Fin 2) (rowScatter N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … its window coordinate on the row axis is `0` (the axis is an inserted one) … -/
theorem rowScatter_window0 {N E C : Nat}
    (wf : ScatterDims.WF ⟨2, ![N, C]⟩ ⟨2, ![E, 1]⟩ ⟨2, ![E, C]⟩ [1] [0] [0] 1) (e : Fin E) (c : Fin C) :
    (rowScatter N E C wf).window (ix2 e c) ⟨0, Nat.zero_lt_two⟩ = 0 := by
  unfold ScatterDims.window
  rw [dif_neg (by simp [ScatterDims.sKept, Shape.kept])]

/-- … its start on the column axis is `0` (the scatter index does not name that axis) … -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).start (ix2 e c) idx ⟨1, Nat.one_lt_two⟩ = 0 := by
  unfold ScatterDims.start
  rw [dif_neg (by simp)]

/-- … and its window coordinate on the column axis is the update's column. -/
theorem rowScatter_window1 {N E C : Nat}
    (wf : ScatterDims.WF ⟨2, ![N, C]⟩ ⟨2, ![E, 1]⟩ ⟨2, ![E, C]⟩ [1] [0] [0] 1) (e : Fin E) (c : Fin C) :
    (rowScatter N E C wf).window (ix2 e c) ⟨1, Nat.one_lt_two⟩ = c.val := by
  unfold ScatterDims.window
  have hk : (⟨1, Nat.one_lt_two⟩ : Fin 2) ∈ (rowScatter N E C wf).sKept := by
    simp [ScatterDims.sKept, Shape.kept]
  rw [dif_pos hk]
  rfl

/-- WHERE AN UPDATE LANDS: update element `(e, c)` of the row scatter lands on operand element `(v, c')` exactly when
    the scatter index `idx[e, 0]`, read signed and not clamped, is `v` and the columns agree. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (c c' : Fin C) (v : Fin N) :
    (rowScatter N E C wf).resultIdx? (ix2 e c) idx = some (ix2 v c')
      ↔ (idx (ix2 e 0)).toInt = (v.val : Int) ∧ c = c' := by
  have hs0 := rowScatter_start0 wf idx e c
  have hw0 := rowScatter_window0 wf e c
  have hs1 := rowScatter_start1 wf idx e c
  have hw1 := rowScatter_window1 wf e c
  unfold ScatterDims.resultIdx?
  constructor
  · intro h
    split at h
    · rename_i hin
      have hf := Option.some.inj h
      have h0 := congrArg (fun f => (f ⟨0, Nat.zero_lt_two⟩).val) hf
      have h1 := congrArg (fun f => (f ⟨1, Nat.one_lt_two⟩).val) hf
      have hin0 := (hin ⟨0, Nat.zero_lt_two⟩).1
      simp only [hs0, hw0, hs1, hw1] at h0 h1 hin0
      change ((idx (ix2 e 0)).toInt + ((0 : Nat) : Int)).toNat = v.val at h0
      change (0 + (c.val : Int)).toNat = c'.val at h1
      refine ⟨by omega, Fin.ext (by omega)⟩
    · exact absurd h (by simp)
  · rintro ⟨hv, rfl⟩
    have hin : ∀ a : Fin 2, 0 ≤ (rowScatter N E C wf).start (ix2 e c) idx a + (rowScatter N E C wf).window (ix2 e c) a ∧
        (rowScatter N E C wf).start (ix2 e c) idx a + (rowScatter N E C wf).window (ix2 e c) a
          < ((⟨2, ![N, C]⟩ : Shape).size a : Nat) := by
      intro a
      match a with
      | ⟨0, _⟩ =>
        rw [hs0, hw0, hv]
        have := v.isLt
        change 0 ≤ (v.val : Int) + ((0 : Nat) : Int) ∧ (v.val : Int) + ((0 : Nat) : Int) < (N : Int)
        omega
      | ⟨1, _⟩ =>
        rw [hs1, hw1]
        have := c.isLt
        change 0 ≤ (0 : Int) + (c.val : Int) ∧ (0 : Int) + (c.val : Int) < (C : Int)
        omega
    rw [dif_pos hin]
    congr 1
    funext a
    refine Fin.ext ?_
    match a with
    | ⟨0, _⟩ =>
      change ((rowScatter N E C wf).start (ix2 e c) idx ⟨0, Nat.zero_lt_two⟩
        + ((rowScatter N E C wf).window (ix2 e c) ⟨0, Nat.zero_lt_two⟩ : Nat)).toNat = v.val
      rw [hs0, hw0, hv]; omega
    | ⟨1, _⟩ =>
      change ((rowScatter N E C wf).start (ix2 e c) idx ⟨1, Nat.one_lt_two⟩
        + ((rowScatter N E C wf).window (ix2 e c) ⟨1, Nat.one_lt_two⟩ : Nat)).toNat = c.val
      rw [hs1, hw1]; omega

end Scatter

/-! ## A nonnegative real factor and a finite sum of extended reals -/

section Sum

/-- A NONNEGATIVE REAL FACTOR MOVES INSIDE A FINITE SUM of extended reals: `r · Σ f = Σ r · f` for `0 ≤ r` real. No
    term need be finite: multiplication by a nonnegative finite factor distributes over every sum of two extended
    reals. -/
theorem mul_sum_of_nonneg {ι : Type*} (r : ℝ) (hr : 0 ≤ r) (s : Finset ι) (f : ι → EReal) :
    (r : EReal) * ∑ j ∈ s, f j = ∑ j ∈ s, (r : EReal) * f j := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

end Sum

/-! ## Two broadcasts read at an index -/

section Broadcast
variable {α : Type}

/-- A vector `[n]` broadcast to a column `[n, 1]`, read at `(a, 0)`: the vector's element `a`. -/
theorem colBroadcast_apply {n : Nat}
    (h : (⟨1, ![n]⟩ : Shape).BroadcastsInDim ⟨2, ![n, 1]⟩ (![0] : Fin 1 → Fin 2))
    (x : (⟨1, ![n]⟩ : Shape).Idx → α) (a : Fin n) (z : Fin 1) :
    broadcastInDim ⟨2, ![n, 1]⟩ ![0] h x (ix2 a z) = x (ix1 a) := by
  refine broadcastInDim_apply _ h x _ _ ?_
  intro b
  obtain rfl : b = 0 := Subsingleton.elim _ _
  show a.val = if n = 1 then 0 else a.val
  have := a.isLt
  split <;> omega

/-- A column `[n, 1]` broadcast along rows to `[n, m]`, read at `(a, b)`: the column's element `(a, 0)`. -/
theorem rowBroadcast_apply {n m : Nat}
    (h : (⟨2, ![n, 1]⟩ : Shape).BroadcastsInDim ⟨2, ![n, m]⟩ (![0, 1] : Fin 2 → Fin 2))
    (x : (⟨2, ![n, 1]⟩ : Shape).Idx → α) (a : Fin n) (b : Fin m) :
    broadcastInDim ⟨2, ![n, m]⟩ ![0, 1] h x (ix2 a b) = x (ix2 a 0) := by
  refine broadcastInDim_apply _ h x _ _ ?_
  intro d
  match d with
  | ⟨0, _⟩ =>
    show a.val = if n = 1 then 0 else a.val
    have := a.isLt
    split <;> omega
  | ⟨1, _⟩ => rfl

/-- The two together: a vector `[n]` broadcast to `[n, m]` through a column, read at `(a, b)`, is its element `a`. -/
theorem vecBroadcast_apply {n m : Nat}
    (h1 : (⟨1, ![n]⟩ : Shape).BroadcastsInDim ⟨2, ![n, 1]⟩ (![0] : Fin 1 → Fin 2))
    (h2 : (⟨2, ![n, 1]⟩ : Shape).BroadcastsInDim ⟨2, ![n, m]⟩ (![0, 1] : Fin 2 → Fin 2))
    (x : (⟨1, ![n]⟩ : Shape).Idx → α) (a : Fin n) (b : Fin m) :
    broadcastInDim ⟨2, ![n, m]⟩ ![0, 1] h2 (broadcastInDim ⟨2, ![n, 1]⟩ ![0] h1 x) (ix2 a b) = x (ix1 a) := by
  rw [rowBroadcast_apply, colBroadcast_apply]

end Broadcast

/-! ## Normalizing an index -/

section Normalize

/-- NORMALIZING AN INDEX, `x < 0 ? x + n : x` with the comparison signed, leaves a nonnegative one alone. -/
theorem normalize_of_nonneg {s : Shape} (x zeros n : IVec s 32) (hz : ∀ i, zeros i = 0#32) (i : s.Idx)
    (h : 0 ≤ (x i).toInt) : select (cmpi .slt x zeros) (addi x n) x i = x i := by
  show Scalar.select (IntOp.cmpi .slt (x i) (zeros i)) (addi x n i) (x i) = x i
  have hc : IntOp.cmpi .slt (x i) (zeros i) = 0#1 := by
    have hlt : (x i).slt 0#32 = false := by
      rw [BitVec.slt, decide_eq_false_iff_not, BitVec.toInt_zero]; exact not_lt.mpr h
    rw [hz]; unfold IntOp.cmpi; simp only [hlt]; rfl
  rw [hc, select_zero]

/-- The same with the zero and the addend the broadcast integer scalars `0` and `k`, as a program writes
    `v < 0 ? v + k : v` over an index vector: a nonnegative index is left alone, whatever `k` is. -/
theorem normalize_const_of_nonneg {E : Nat} (v : IVec ⟨1, ![E]⟩ 32) (k : BitVec 32)
    (h0 : (⟨0, ![]⟩ : Shape).BroadcastsInDim ⟨1, ![E]⟩ (![] : Fin 0 → Fin 1))
    (e : (⟨1, ![E]⟩ : Shape).Idx) (h : 0 ≤ (v e).toInt) :
    select (cmpi .slt v (broadcastInDim ⟨1, ![E]⟩ ![] h0 (constantI ⟨0, ![]⟩ 32 0#32)))
      (addi v (broadcastInDim ⟨1, ![E]⟩ ![] h0 (constantI ⟨0, ![]⟩ 32 k))) v e = v e :=
  normalize_of_nonneg v _ _ (fun _ => rfl) e h

end Normalize

/-! ## The layer: a per-node scale before and after the scatter-add, or per edge -/

section Layer

/-- THE LAYER THEOREM.  `H : [N, C]` node features, `D : [N]` a per-node scale that is everywhere a nonnegative real,
    `src'`, `dst`, `dst'` : `[E]` edge ends, `dst'` agreeing with `dst` wherever `dst` is nonnegative.  Scaling the rows
    of `H` by `D`, gathering the source rows, scatter-adding them at `dst` onto `Z` and scaling the result's rows by
    `D` again, is scatter-adding, onto the scaled `Z`, the gathered rows of `H` each scaled by the product of `D` at the
    edge's two ends (both read through the clamping gather, the second at `dst'`).  For an update that lands on row
    `v` the scatter index is `v` itself, `0 ≤ v < N`, so `dst'` is `dst` there and the clamp leaves it alone: the second
    factor is `D v`, the common nonnegative real factor, which moves inside the sum. -/
theorem layer_eq {N E C : Nat} (hN : 0 < N)
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H Z : (⟨2, ![N, C]⟩ : Shape).Idx → EReal) (D : (⟨1, ![N]⟩ : Shape).Idx → EReal)
    (hD : ∀ i, ∃ r : ℝ, 0 ≤ r ∧ D i = (r : EReal))
    (src' dst dst' : IVec ⟨1, ![E]⟩ 32)
    (hdst : ∀ e, 0 ≤ (dst e).toInt → dst' e = dst e)
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (hi hi' : (⟨1, ![E]⟩ : Shape).BroadcastsInDim ⟨2, ![E, 1]⟩ (![0] : Fin 1 → Fin 2))
    (he2 : (⟨2, ![E, 1]⟩ : Shape).BroadcastsInDim ⟨2, ![E, C]⟩ (![0, 1] : Fin 2 → Fin 2)) :
    mulf (F := Ideal) (φ := .f32)
        (broadcastInDim ⟨2, ![N, C]⟩ ![0, 1] h2 (broadcastInDim ⟨2, ![N, 1]⟩ ![0] h1 D))
        (Host.scatterAdd (F := Ideal) (φ := .f32) (rowScatter N E C wfs) Z
          (broadcastInDim ⟨2, ![E, 1]⟩ ![0] hi dst)
          (Host.gather (rowGather N E C wfg)
            (mulf (F := Ideal) (φ := .f32) H
              (broadcastInDim ⟨2, ![N, C]⟩ ![0, 1] h2 (broadcastInDim ⟨2, ![N, 1]⟩ ![0] h1 D)))
            (broadcastInDim ⟨2, ![E, 1]⟩ ![0] hi src')))
      = Host.scatterAdd (F := Ideal) (φ := .f32) (rowScatter N E C wfs)
          (mulf (F := Ideal) (φ := .f32)
            (broadcastInDim ⟨2, ![N, C]⟩ ![0, 1] h2 (broadcastInDim ⟨2, ![N, 1]⟩ ![0] h1 D)) Z)
          (broadcastInDim ⟨2, ![E, 1]⟩ ![0] hi dst)
          (mulf (F := Ideal) (φ := .f32)
            (Host.gather (rowGather N E C wfg) H (broadcastInDim ⟨2, ![E, 1]⟩ ![0] hi src'))
            (broadcastInDim ⟨2, ![E, C]⟩ ![0, 1] he2 (broadcastInDim ⟨2, ![E, 1]⟩ ![0] hi'
              (mulf (F := Ideal) (φ := .f32)
                (Host.gather (vecGather N E wfv) D (broadcastInDim ⟨2, ![E, 1]⟩ ![0] hi src'))
                (Host.gather (vecGather N E wfv) D (broadcastInDim ⟨2, ![E, 1]⟩ ![0] hi dst')))))) := by
  funext i
  obtain ⟨v, c, rfl⟩ : ∃ (v : Fin N) (c : Fin C), i = ix2 v c := ⟨i 0, i 1, eq_ix2 i⟩
  obtain ⟨r, hr, hDv⟩ := hD (ix1 v)
  simp only [mulf_apply, Host.scatterAdd, Ideal.hostScatterAdd_def, Ideal.hostScatterAdd]
  rw [vecBroadcast_apply h1 h2 D v c, hDv, EReal.left_distrib_of_nonneg_of_ne_top (EReal.coe_nonneg.mpr hr) (EReal.coe_ne_top r),
    mul_sum_of_nonneg r hr]
  congr 1
  refine Finset.sum_congr rfl ?_
  intro j hj
  obtain ⟨e, c', rfl⟩ : ∃ (e : Fin E) (c' : Fin C), j = ix2 e c' := ⟨j 0, j 1, eq_ix2 j⟩
  obtain ⟨hl, rfl⟩ := (rowScatter_lands wfs _ e c' c v).mp (Finset.mem_filter.mp hj).2
  -- the update lands on row `v`: the scatter index is `v`, so `dst'` is `dst` here and the clamp leaves it alone
  rw [colBroadcast_apply hi dst e 0] at hl
  have hd' : dst' (ix1 e) = dst (ix1 e) := hdst _ (by rw [hl]; exact Int.natCast_nonneg _)
  have hb : broadcastInDim ⟨2, ![E, 1]⟩ ![0] hi dst' (ix2 e 0) = dst (ix1 e) :=
    (colBroadcast_apply hi dst' e 0).trans hd'
  have hg' : ∀ h, (⟨min (broadcastInDim ⟨2, ![E, 1]⟩ ![0] hi dst' (ix2 e 0)).toInt.toNat (N - 1), h⟩ : Fin N) = v :=
    fun h => Fin.ext (by
      show min (broadcastInDim ⟨2, ![E, 1]⟩ ![0] hi dst' (ix2 e 0)).toInt.toNat (N - 1) = v.val
      rw [hb, hl]; have := v.isLt; omega)
  rw [rowGather_apply hN wfg _ _ e c', rowGather_apply hN wfg H _ e c', vecBroadcast_apply hi' he2 _ e c',
    mulf_apply, mulf_apply, vecGather_apply hN wfv D _ e, vecGather_apply hN wfv D _ e,
    vecBroadcast_apply h1 h2 D _ c', hg', hDv]
  -- `r · (h · d) = h · (d · r)`
  rw [mul_left_comm, mul_comm (r : EReal)]

/-- The layer theorem with the scaled features narrowed to `bf16` before the gather and the gathered rows widened
    back to `f32` after it: on extended reals both format changes are the identity, so this is `layer_eq`. -/
theorem layer_eq_conv {N E C : Nat} (hN : 0 < N)
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H Z : (⟨2, ![N, C]⟩ : Shape).Idx → EReal) (D : (⟨1, ![N]⟩ : Shape).Idx → EReal)
    (hD : ∀ i, ∃ r : ℝ, 0 ≤ r ∧ D i = (r : EReal))
    (src' dst dst' : IVec ⟨1, ![E]⟩ 32)
    (hdst : ∀ e, 0 ≤ (dst e).toInt → dst' e = dst e)
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (hi hi' : (⟨1, ![E]⟩ : Shape).BroadcastsInDim ⟨2, ![E, 1]⟩ (![0] : Fin 1 → Fin 2))
    (he2 : (⟨2, ![E, 1]⟩ : Shape).BroadcastsInDim ⟨2, ![E, C]⟩ (![0, 1] : Fin 2 → Fin 2))
    (hlt : FTy.bf16.bits < FTy.f32.bits) (hlt' : FTy.bf16.bits < FTy.f32.bits) :
    mulf (F := Ideal) (φ := .f32)
        (broadcastInDim ⟨2, ![N, C]⟩ ![0, 1] h2 (broadcastInDim ⟨2, ![N, 1]⟩ ![0] h1 D))
        (Host.scatterAdd (F := Ideal) (φ := .f32) (rowScatter N E C wfs) Z
          (broadcastInDim ⟨2, ![E, 1]⟩ ![0] hi dst)
          (extf (F := Ideal) .f32
            (Host.gather (rowGather N E C wfg)
              (truncf (F := Ideal) .bf16
                (mulf (F := Ideal) (φ := .f32) H
                  (broadcastInDim ⟨2, ![N, C]⟩ ![0, 1] h2 (broadcastInDim ⟨2, ![N, 1]⟩ ![0] h1 D))) hlt)
              (broadcastInDim ⟨2, ![E, 1]⟩ ![0] hi src')) hlt'))
      = Host.scatterAdd (F := Ideal) (φ := .f32) (rowScatter N E C wfs)
          (mulf (F := Ideal) (φ := .f32)
            (broadcastInDim ⟨2, ![N, C]⟩ ![0, 1] h2 (broadcastInDim ⟨2, ![N, 1]⟩ ![0] h1 D)) Z)
          (broadcastInDim ⟨2, ![E, 1]⟩ ![0] hi dst)
          (mulf (F := Ideal) (φ := .f32)
            (Host.gather (rowGather N E C wfg) H (broadcastInDim ⟨2, ![E, 1]⟩ ![0] hi src'))
            (broadcastInDim ⟨2, ![E, C]⟩ ![0, 1] he2 (broadcastInDim ⟨2, ![E, 1]⟩ ![0] hi'
              (mulf (F := Ideal) (φ := .f32)
                (Host.gather (vecGather N E wfv) D (broadcastInDim ⟨2, ![E, 1]⟩ ![0] hi src'))
                (Host.gather (vecGather N E wfv) D (broadcastInDim ⟨2, ![E, 1]⟩ ![0] hi dst')))))) :=
  layer_eq hN wfg wfv wfs H Z D hD src' dst dst' hdst h1 h2 hi hi' he2

/-- A product with an array of zeros is that array: `x · 0 = 0` for every extended real `x`, the infinities included. -/
theorem mulf_zeros {s : Shape} {φ : FTy} (A Z : s.Idx → EReal) (hZ : ∀ i, Z i = 0) :
    mulf (F := Ideal) (φ := φ) A Z = Z := by
  funext i
  rw [mulf_apply, hZ i, mul_zero]

/-- The layer theorem (with the format changes around the gather) over an operand of zeros: the same operand on both
    sides. -/
theorem layer_eq_conv_zero {N E C : Nat} (hN : 0 < N)
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H Z : (⟨2, ![N, C]⟩ : Shape).Idx → EReal) (hZ : ∀ i, Z i = 0) (D : (⟨1, ![N]⟩ : Shape).Idx → EReal)
    (hD : ∀ i, ∃ r : ℝ, 0 ≤ r ∧ D i = (r : EReal))
    (src' dst dst' : IVec ⟨1, ![E]⟩ 32)
    (hdst : ∀ e, 0 ≤ (dst e).toInt → dst' e = dst e)
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (hi hi' : (⟨1, ![E]⟩ : Shape).BroadcastsInDim ⟨2, ![E, 1]⟩ (![0] : Fin 1 → Fin 2))
    (he2 : (⟨2, ![E, 1]⟩ : Shape).BroadcastsInDim ⟨2, ![E, C]⟩ (![0, 1] : Fin 2 → Fin 2))
    (hlt : FTy.bf16.bits < FTy.f32.bits) (hlt' : FTy.bf16.bits < FTy.f32.bits) :
    mulf (F := Ideal) (φ := .f32)
        (broadcastInDim ⟨2, ![N, C]⟩ ![0, 1] h2 (broadcastInDim ⟨2, ![N, 1]⟩ ![0] h1 D))
        (Host.scatterAdd (F := Ideal) (φ := .f32) (rowScatter N E C wfs) Z
          (broadcastInDim ⟨2, ![E, 1]⟩ ![0] hi dst)
          (extf (F := Ideal) .f32
            (Host.gather (rowGather N E C wfg)
              (truncf (F := Ideal) .bf16
                (mulf (F := Ideal) (φ := .f32) H
                  (broadcastInDim ⟨2, ![N, C]⟩ ![0, 1] h2 (broadcastInDim ⟨2, ![N, 1]⟩ ![0] h1 D))) hlt)
              (broadcastInDim ⟨2, ![E, 1]⟩ ![0] hi src')) hlt'))
      = Host.scatterAdd (F := Ideal) (φ := .f32) (rowScatter N E C wfs) Z
          (broadcastInDim ⟨2, ![E, 1]⟩ ![0] hi dst)
          (mulf (F := Ideal) (φ := .f32)
            (Host.gather (rowGather N E C wfg) H (broadcastInDim ⟨2, ![E, 1]⟩ ![0] hi src'))
            (broadcastInDim ⟨2, ![E, C]⟩ ![0, 1] he2 (broadcastInDim ⟨2, ![E, 1]⟩ ![0] hi'
              (mulf (F := Ideal) (φ := .f32)
                (Host.gather (vecGather N E wfv) D (broadcastInDim ⟨2, ![E, 1]⟩ ![0] hi src'))
                (Host.gather (vecGather N E wfv) D (broadcastInDim ⟨2, ![E, 1]⟩ ![0] hi dst')))))) := by
  rw [layer_eq_conv hN wfg wfv wfs H Z D hD src' dst dst' hdst h1 h2 hi hi' he2 hlt hlt', mulf_zeros _ Z hZ]

end Layer

/-! ## The scale: an inverse square root where the degree is positive, zero elsewhere -/

section Scale

/-- The inverse square root of a positive extended real is a nonnegative real (`0` at `⊤`, `(√x)⁻¹` at a real `x`). -/
theorem rsqrt_nonneg_of_pos (d : EReal) (hd : 0 < d) : ∃ r : ℝ, 0 ≤ r ∧ Ideal.rsqrt d = (r : EReal) := by
  induction d using EReal.rec with
  | bot => exact absurd hd (not_lt_bot)
  | top => exact ⟨0, le_refl 0, by rw [Ideal.rsqrt_top]; rfl⟩
  | coe x =>
    have hx : 0 < x := EReal.coe_pos.mp hd
    refine ⟨(Real.sqrt x)⁻¹, inv_nonneg.mpr (Real.sqrt_nonneg x), ?_⟩
    rw [Ideal.rsqrt_coe, if_neg (not_lt.mpr hx.le), if_neg (ne_of_gt hx)]

/-- ONE ELEMENT OF THE SCALE: the inverse square root of `d` selected where `d > 0`, a zero elsewhere, is a nonnegative
    real — for every extended real `d`, the infinities and the negative reals included. -/
theorem dinv_nonneg (d z0 z : EReal) (hz0 : z0 = 0) (hz : z = 0) :
    ∃ r : ℝ, 0 ≤ r ∧ Scalar.select (Scalar.cmpf (F := Ideal) (φ := .f32) .ogt d z0) (Ideal.rsqrt d) z = (r : EReal) := by
  subst hz0 hz
  by_cases hd : (0 : EReal) < d
  · obtain ⟨r, hr, he⟩ := rsqrt_nonneg_of_pos d hd
    refine ⟨r, hr, ?_⟩
    have hc : Scalar.cmpf (F := Ideal) (φ := .f32) .ogt d 0 = 1#1 := by
      rw [Ideal.scalar_cmpf_def]; unfold Ideal.cmp; simp [hd]
    rw [hc, select_one, he]
  · refine ⟨0, le_refl 0, ?_⟩
    have hc : Scalar.cmpf (F := Ideal) (φ := .f32) .ogt d 0 = 0#1 := by
      rw [Ideal.scalar_cmpf_def]; unfold Ideal.cmp; simp [hd]
    rw [hc, select_zero]; rfl

/-- THE SCALE IS A NONNEGATIVE REAL EVERYWHERE: `select (deg > 0) (rsqrt deg) 0` over any shape. -/
theorem dinv_nonneg_vec {s : Shape} (deg zeros zeros' : s.Idx → EReal)
    (hz : ∀ i, zeros i = 0) (hz' : ∀ i, zeros' i = 0) (i : s.Idx) :
    ∃ r : ℝ, 0 ≤ r ∧ select (cmpf (F := Ideal) (φ := .f32) .ogt deg zeros)
      (Host.rsqrt (F := Ideal) (φ := .f32) deg) zeros' i = (r : EReal) :=
  dinv_nonneg (deg i) (zeros i) (zeros' i) (hz i) (hz' i)

/-- The `f32` zero scalar broadcast to any shape reads `0` everywhere. -/
theorem zeros_apply {t : Shape} (h : (⟨0, ![]⟩ : Shape).BroadcastsInDim t (![] : Fin 0 → Fin t.rank)) (i : t.Idx) :
    broadcastInDim t ![] h (constant (F := Ideal) ⟨0, ![]⟩ .f32 0x00000000#32) i = (0 : EReal) :=
  Ideal.ofBits_zero_f32

/-- The scale with its two zero arrays the broadcast `f32` zero scalar, as a program writes
    `where(deg > 0, rsqrt(deg), 0)`. -/
theorem dinv_nonneg_zeros {s : Shape} (deg : s.Idx → EReal)
    (h h' : (⟨0, ![]⟩ : Shape).BroadcastsInDim s (![] : Fin 0 → Fin s.rank)) (i : s.Idx) :
    ∃ r : ℝ, 0 ≤ r ∧ select
      (cmpf (F := Ideal) (φ := .f32) .ogt deg (broadcastInDim s ![] h (constant (F := Ideal) ⟨0, ![]⟩ .f32 0x00000000#32)))
      (Host.rsqrt (F := Ideal) (φ := .f32) deg)
      (broadcastInDim s ![] h' (constant (F := Ideal) ⟨0, ![]⟩ .f32 0x00000000#32)) i = (r : EReal) :=
  dinv_nonneg_vec deg _ _ (zeros_apply h) (zeros_apply h') i

/-- The same with the second zero scalar passed through an identity conversion before its broadcast. -/
theorem dinv_nonneg_where {s : Shape} (deg : s.Idx → EReal)
    (h h' : (⟨0, ![]⟩ : Shape).BroadcastsInDim s (![] : Fin 0 → Fin s.rank)) (i : s.Idx) :
    ∃ r : ℝ, 0 ≤ r ∧ select
      (cmpf (F := Ideal) (φ := .f32) .ogt deg (broadcastInDim s ![] h (constant (F := Ideal) ⟨0, ![]⟩ .f32 0x00000000#32)))
      (Host.rsqrt (F := Ideal) (φ := .f32) deg)
      (broadcastInDim s ![] h' (id (constant (F := Ideal) ⟨0, ![]⟩ .f32 0x00000000#32))) i = (r : EReal) :=
  dinv_nonneg_zeros deg h h' i

end Scale

end Cert.LibSegment

end
-- ==== Proof.LawSegment.lean ====
/-
  Projecting the rows of a node table by a weight matrix commutes with the segment sum of a graph layer, at the ideal
  instance (floats are extended reals, every operation exact).

  A graph layer gathers one row of a node table per edge (the edge's source row: the start index read signed and
  clamped into the table) and adds the gathered rows into the rows of a table of zeros (an edge's row goes to its
  target row: the scatter index read signed, not clamped, an edge whose target is outside the table dropped).  Which
  row an edge reads depends on the source column alone, and which edges land on a given row depends on the target
  column alone: neither depends on the width of the table.  So the layer applied to the table "X times W" is, row by
  row, the layer applied to "X", times "W" — provided every entry of "X" and of "W" is a real number, since
  multiplication distributes over a sum of extended reals only away from the infinities.  A per-row real factor
  applied after the segment sum moves through the same way.
-/
import proofs.«159144_j70712341561937_2_alg».proof.ReferenceIdeal
import proofs.«159144_j70712341561937_2_alg».proof.Proof.LibSegment
import Idealize.ShloMosaic.Lib.ValueIdx
import Idealize.ShloMosaic.PureOps.Ideal
import Idealize.ShloMosaic.PureOps.Ideal.Laws
import Mathlib.Data.EReal.Operations

noncomputable section

open scoped BigOperators

namespace Cert.Bridge

open Idealize.ShloMosaic Idealize.ShloMosaic.ValueIdx Cert.LibSegment

/-! ## Sums of reals inside the extended reals -/

/-- The inclusion of the reals into the extended reals takes a finite sum to the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW OVER THE REALS.  "L" a finite set of edges, "x e k" the entry "k" of the row edge "e" reads, "y k" a column
    of the weight matrix, "d" the row's factor: summing the projected rows over the edges and scaling is projecting the
    scaled sum of the rows.  Exchange the two sums, then factor "y k" and "d" out of the sum over the edges. -/
theorem real_project_sum {ι κ : Type*} [Fintype κ] (L : Finset ι) (x : ι → κ → ℝ) (y : κ → ℝ) (d : ℝ) :
    (∑ e ∈ L, ∑ k, x e k * y k) * d = ∑ k, ((∑ e ∈ L, x e k) * d) * y k := by
  rw [Finset.sum_comm, Finset.sum_mul]
  refine Finset.sum_congr rfl fun k _ => ?_
  rw [← Finset.sum_mul]
  ring

/-- The same law for real numbers sitting inside the extended reals: every product and every sum here is the image of
    the real one, so the equation is the image of the real equation. -/
theorem ereal_project_sum {ι κ : Type*} [Fintype κ] (L : Finset ι) (x : ι → κ → ℝ) (y : κ → ℝ) (d : ℝ) :
    (∑ e ∈ L, ∑ k, (x e k : EReal) * (y k : EReal)) * (d : EReal)
      = ∑ k, ((∑ e ∈ L, (x e k : EReal)) * (d : EReal)) * (y k : EReal) := by
  simp only [← EReal.coe_mul, ← coe_sum]
  rw [real_project_sum]

/-! ## The segment sum read at an index -/

/-- The edges that land on row "v": those whose scatter index, read as a signed integer, is "v". -/
def landing {E w : Nat} (idx : IVec ⟨2, ![E, 1]⟩ w) (v : Nat) : Finset (Fin E) :=
  Finset.univ.filter fun e => (idx (ix2 e 0)).toInt = (v : Int)

/-- The row an edge reads: its start index, read as a signed integer and clamped into "[0, N − 1]". -/
def sourceRow {N E w : Nat} (hN : 0 < N) (idx : IVec ⟨2, ![E, 1]⟩ w) (e : Fin E) : Fin N :=
  ⟨min (idx (ix2 e 0)).toInt.toNat (N - 1), by omega⟩

/-- THE ROW SCATTER-ADD READ AT "(v, c)": the operand's entry plus the sum, over the edges that land on row "v", of
    their update rows' entry "c".  An update entry "(e, c')" lands on "(v, c)" exactly when edge "e" lands on row "v"
    and "c' = c", so the update entries that land on "(v, c)" are in bijection with the edges that land on row "v". -/
theorem rowScatterAdd_apply {N E C w : Nat}
    (wf : ScatterDims.WF ⟨2, ![N, C]⟩ ⟨2, ![E, 1]⟩ ⟨2, ![E, C]⟩ [1] [0] [0] 1)
    (Z : (⟨2, ![N, C]⟩ : Shape).Idx → EReal) (idx : IVec ⟨2, ![E, 1]⟩ w)
    (upd : (⟨2, ![E, C]⟩ : Shape).Idx → EReal) (v : Fin N) (c : Fin C) :
    Host.scatterAdd (F := Ideal) (φ := .f32) (rowScatter N E C wf) Z idx upd (ix2 v c)
      = Z (ix2 v c) + ∑ e ∈ landing idx v.val, upd (ix2 e c) := by
  simp only [Host.scatterAdd, Ideal.hostScatterAdd_def, Ideal.hostScatterAdd]
  congr 1
  unfold landing
  refine Finset.sum_nbij' (fun j => (j 0 : Fin E)) (fun e => ix2 e c) ?_ ?_ ?_ ?_ ?_
  · intro j hj
    obtain ⟨e, c', rfl⟩ : ∃ (e : Fin E) (c' : Fin C), j = ix2 e c' := ⟨j 0, j 1, eq_ix2 j⟩
    have h := (rowScatter_lands wf idx e c' c v).mp (Finset.mem_filter.mp hj).2
    exact Finset.mem_filter.mpr ⟨Finset.mem_univ _, h.1⟩
  · intro e he
    exact Finset.mem_filter.mpr ⟨Finset.mem_univ _,
      (rowScatter_lands wf idx e c c v).mpr ⟨(Finset.mem_filter.mp he).2, rfl⟩⟩
  · intro j hj
    obtain ⟨e, c', rfl⟩ : ∃ (e : Fin E) (c' : Fin C), j = ix2 e c' := ⟨j 0, j 1, eq_ix2 j⟩
    obtain ⟨_, rfl⟩ := (rowScatter_lands wf idx e c' c v).mp (Finset.mem_filter.mp hj).2
    rfl
  · intro e _
    rfl
  · intro j hj
    obtain ⟨e, c', rfl⟩ : ∃ (e : Fin E) (c' : Fin C), j = ix2 e c' := ⟨j 0, j 1, eq_ix2 j⟩
    obtain ⟨_, rfl⟩ := (rowScatter_lands wf idx e c' c v).mp (Finset.mem_filter.mp hj).2
    rfl

/-- THE SEGMENT SUM READ AT "(v, c)": gathering each edge's source row of "H" and adding the gathered rows into the
    rows of "Z" gives, at "(v, c)", the entry of "Z" plus the sum over the edges landing on row "v" of "H" at the
    edge's source row and column "c". -/
theorem segmentSum_apply {N E C w w' : Nat} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (H Z : (⟨2, ![N, C]⟩ : Shape).Idx → EReal) (scol : IVec ⟨2, ![E, 1]⟩ w) (dcol : IVec ⟨2, ![E, 1]⟩ w')
    (v : Fin N) (c : Fin C) :
    Host.scatterAdd (F := Ideal) (φ := .f32) (rowScatter N E C wfs) Z dcol
        (Host.gather (rowGather N E C wfg) H scol) (ix2 v c)
      = Z (ix2 v c) + ∑ e ∈ landing dcol v.val, H (ix2 (sourceRow hN scol e) c) := by
  rw [rowScatterAdd_apply]
  congr 1
  refine Finset.sum_congr rfl fun e _ => ?_
  rw [rowGather_apply hN wfg H scol e c]
  rfl

/-! ## The law on a graph layer -/

/-- PROJECT, THEN AGGREGATE = AGGREGATE, THEN PROJECT, over any sizes.  "X : [N, K]" and "W : [K, C]" everywhere
    real, "P = X · W" entry by entry, "ZK", "ZC" tables of zeros, "d" a real factor per row, the source and target
    columns arbitrary.  The segment sum of the rows of "P", scaled by "d", is at "(r, j)" the sum over "k" of the
    scaled segment sum of the rows of "X" at "(r, k)" times "W (k, j)": both sides range over the same edges (those
    landing on row "r") and read the same source rows, and between them stands the law over the reals. -/
theorem project_then_aggregate_rows {N E K C w w' : Nat} (hN : 0 < N)
    (wfgK : GatherDims.WF ⟨2, ![N, K]⟩ ⟨2, ![E, 1]⟩ ⟨2, ![E, K]⟩ [1] [0] [] [0] [] 1 ![1, K])
    (wfsK : ScatterDims.WF ⟨2, ![N, K]⟩ ⟨2, ![E, 1]⟩ ⟨2, ![E, K]⟩ [1] [0] [0] 1)
    (wfgC : GatherDims.WF ⟨2, ![N, C]⟩ ⟨2, ![E, 1]⟩ ⟨2, ![E, C]⟩ [1] [0] [] [0] [] 1 ![1, C])
    (wfsC : ScatterDims.WF ⟨2, ![N, C]⟩ ⟨2, ![E, 1]⟩ ⟨2, ![E, C]⟩ [1] [0] [0] 1)
    (X ZK : (⟨2, ![N, K]⟩ : Shape).Idx → EReal) (W : (⟨2, ![K, C]⟩ : Shape).Idx → EReal)
    (P ZC : (⟨2, ![N, C]⟩ : Shape).Idx → EReal)
    (hZK : ∀ i, ZK i = 0) (hZC : ∀ i, ZC i = 0) (d : Fin N → ℝ)
    (scol : IVec ⟨2, ![E, 1]⟩ w) (dcol : IVec ⟨2, ![E, 1]⟩ w')
    (hX : ∀ i, ∃ x : ℝ, X i = x) (hW : ∀ i, ∃ y : ℝ, W i = y)
    (hP : ∀ (r : Fin N) (j : Fin C), P (ix2 r j) = ∑ k : Fin K, X (ix2 r k) * W (ix2 k j))
    (r : Fin N) (j : Fin C) :
    Host.scatterAdd (F := Ideal) (φ := .f32) (rowScatter N E C wfsC) ZC dcol
        (Host.gather (rowGather N E C wfgC) P scol) (ix2 r j) * (d r : EReal)
      = ∑ k : Fin K, (Host.scatterAdd (F := Ideal) (φ := .f32) (rowScatter N E K wfsK) ZK dcol
          (Host.gather (rowGather N E K wfgK) X scol) (ix2 r k) * (d r : EReal)) * W (ix2 k j) := by
  choose x hx using hX
  choose y hy using hW
  rw [segmentSum_apply hN wfgC wfsC P ZC scol dcol r j, hZC, zero_add]
  simp only [segmentSum_apply hN wfgK wfsK X ZK scol dcol r, hZK, zero_add, hP, hx, hy]
  exact ereal_project_sum (landing dcol r.val) (fun e k => x (ix2 (sourceRow hN scol e) k))
    (fun k => y (ix2 k j)) (d r)

/-! ## The law on this program's two widths -/

section Program

variable [Cert.ReferenceIdeal.Facts₀]

open Cert.ReferenceIdeal Cert.ReferenceIdeal.Facts₀

/-- THE LAW ON THE PROGRAM'S OWN RECORDS: 12288 nodes, 405504 edges, a table of width 512 projected to width 32.  The
    program's gather and scatter records at the two widths are the row gather and the row scatter above, and its
    accumulators are the broadcast zero scalar. -/
theorem project_then_aggregate
    (X : S12288x512.Idx → EReal) (W : S512x32.Idx → EReal) (P : S12288x32.Idx → EReal) (d : Fin 12288 → ℝ)
    (scol dcol : (⟨S405504x1, .i32⟩ : BufTy).Contents (Elt Ideal))
    (hX : ∀ i, ∃ x : ℝ, X i = x) (hW : ∀ i, ∃ w : ℝ, W i = w)
    (hP : ∀ (r : Fin 12288) (j : Fin 32), P (ix2 r j) = ∑ k : Fin 512, X (ix2 r k) * W (ix2 k j))
    (r : Fin 12288) (j : Fin 32) :
    Host.scatterAdd (F := Ideal) (φ := .f32) scatter_S12288x32_S405504x1_S405504x32_1_0_0_1
        (broadcastInDim S12288x32 ![] bcast_S_S12288x32 (constant (F := Ideal) S_ .f32 0x00000000#32)) dcol
        (Host.gather gather_S12288x32_S405504x1_S405504x32_1_0_n_n_0_1_132 P scol) (ix2 r j) * (d r : EReal)
      = ∑ k : Fin 512, (Host.scatterAdd (F := Ideal) (φ := .f32) scatter_S12288x512_S405504x1_S405504x512_1_0_0_1
          (broadcastInDim S12288x512 ![] bcast_S_S12288x512 (constant (F := Ideal) S_ .f32 0x00000000#32)) dcol
          (Host.gather gather_S12288x512_S405504x1_S405504x512_1_0_n_n_0_1_1512 X scol) (ix2 r k) * (d r : EReal))
          * W (ix2 k j) :=
  project_then_aggregate_rows (N := 12288) (E := 405504) (K := 512) (C := 32) (by decide)
    gather_S12288x512_S405504x1_S405504x512_1_0_n_n_0_1_1512_wf scatter_S12288x512_S405504x1_S405504x512_1_0_0_1_wf
    gather_S12288x32_S405504x1_S405504x32_1_0_n_n_0_1_132_wf scatter_S12288x32_S405504x1_S405504x32_1_0_0_1_wf
    X _ W P _ (zeros_apply _) (zeros_apply _) d scol dcol hX hW hP r j

end Program

end Cert.Bridge

end
-- ==== Proof.Join.lean ====
/-
  The joins between the reference program's stages and any program that computes the same graph auto-encoder with
  the first projection moved in front of the first aggregation.  At the ideal instance (floats are extended reals,
  every operation exact).

  The reference aggregates the scaled features and then projects them by the first weight matrix; the other
  arrangement projects first and aggregates the projected rows.  The two agree by the law "project, then aggregate =
  aggregate, then project", which needs every entry it distributes over to be a real number: the features and the
  weights are real by hypothesis, and the degree norms are real whatever the edge lists are — a norm is either zero
  or the inverse square root of a number that is at least one.  The later stages (the second aggregation, the merged
  second and third projections, the product of the mean with its transpose) are the same operations in both
  arrangements, so each join below only matches a description of a stage, entry by entry, with the reference's.
-/
import proofs.«159144_j70712341561937_2_alg».proof.Proof.RefShape
import proofs.«159144_j70712341561937_2_alg».proof.Proof.LawSegment

noncomputable section

open scoped BigOperators

namespace Cert.Bridge

open Cert.ReferenceIdeal Cert.ReferenceIdeal.Gen Cert.ReferenceIdeal.Read Cert.ReferenceIdeal.Shape
open Idealize.ShloMosaic Idealize.ShloMosaic.ValueIdx Cert.LibSegment

/-! ## The degree norms are real numbers -/

/-- The single-precision word of one is the number one. -/
theorem ofBits_one_f32 : Ideal.ofBits .f32 0x3F800000#32 = 1 := by
  simp [Ideal.ofBits, Ideal.ieee, -EReal.coe_mul]; norm_num

/-- ONE ENTRY OF A NORM: the inverse square root of the larger of "d" and one, selected by any flag against zero, is a
    real number — for every extended real "d".  The larger of "d" and one is positive, so its inverse square root is a
    nonnegative real (zero at the top element); the other branch is zero. -/
theorem norm_entry_real (c : BitVec 1) (d one z : EReal) (h1 : one = 1) (hz : z = 0) :
    ∃ v : ℝ, Scalar.select c (Ideal.rsqrt (max d one)) z = (v : EReal) := by
  subst h1 hz
  rcases BitVec.eq_zero_or_eq_one c with h | h
  · subst h
    exact ⟨0, by rw [select_zero]; rfl⟩
  · subst h
    obtain ⟨v, _, hv⟩ := rsqrt_nonneg_of_pos (max d 1) (lt_of_lt_of_le zero_lt_one (le_max_right d 1))
    exact ⟨v, by rw [select_one, hv]⟩

variable (x0 : (⟨S12288x512, .f32⟩ : BufTy).Contents (Elt Ideal))
  (x1 x2 : (⟨S405504, .i32⟩ : BufTy).Contents (Elt Ideal))
  (x3 : (⟨S512x32, .f32⟩ : BufTy).Contents (Elt Ideal)) (x4 : (⟨S32, .f32⟩ : BufTy).Contents (Elt Ideal))
  (x5 : (⟨S32x16, .f32⟩ : BufTy).Contents (Elt Ideal)) (x6 : (⟨S16, .f32⟩ : BufTy).Contents (Elt Ideal))
  (x7 : (⟨S32x16, .f32⟩ : BufTy).Contents (Elt Ideal)) (x8 : (⟨S16, .f32⟩ : BufTy).Contents (Elt Ideal))

/-- The source norm at any node is a real number, whatever the source list is. -/
theorem ns_real_at (i : S12288.Idx) : ∃ v : ℝ, val_main_v12 (F := Ideal) x1 i = (v : EReal) := by
  have h1 : val_main_v9 (F := Ideal) i = 1 := by
    rw [val_main_v9_apply, val_main_cst_3_apply, Ideal.ofBits_def, ofBits_one_f32]
  have hz : val_main_call0_v1 (F := Ideal) i = 0 := by
    rw [val_main_call0_v1_apply, val_main_call0_v0_apply, val_main_cst_4_apply, Ideal.ofBits_def,
      Ideal.ofBits_zero_f32]
  rw [val_main_v12_apply, val_main_v11_apply, val_main_v10_apply, Ideal.hostUnary_rsqrt_def, Ideal.maximumf_def]
  exact norm_entry_real _ _ _ _ h1 hz

/-- The target norm at any node is a real number, whatever the target list is. -/
theorem nd_real_at (i : S12288.Idx) : ∃ v : ℝ, val_main_v18 (F := Ideal) x2 i = (v : EReal) := by
  have h1 : val_main_v15 (F := Ideal) i = 1 := by
    rw [val_main_v15_apply, val_main_cst_6_apply, Ideal.ofBits_def, ofBits_one_f32]
  have hz : val_main_call1_v1 (F := Ideal) i = 0 := by
    rw [val_main_call1_v1_apply, val_main_call1_v0_apply, val_main_cst_7_apply, Ideal.ofBits_def,
      Ideal.ofBits_zero_f32]
  rw [val_main_v18_apply, val_main_v17_apply, val_main_v16_apply, Ideal.hostUnary_rsqrt_def, Ideal.maximumf_def]
  exact norm_entry_real _ _ _ _ h1 hz

/-- THE SOURCE NORMS ARE REALS: one real per node. -/
theorem ns_real : ∃ s : Fin 12288 → ℝ, ∀ r, val_main_v12 (F := Ideal) x1 (ix1 r) = (s r : EReal) :=
  ⟨fun r => (ns_real_at x1 (ix1 r)).choose, fun r => (ns_real_at x1 (ix1 r)).choose_spec⟩

/-- THE TARGET NORMS ARE REALS: one real per node. -/
theorem nd_real : ∃ d : Fin 12288 → ℝ, ∀ r, val_main_v18 (F := Ideal) x2 (ix1 r) = (d r : EReal) :=
  ⟨fun r => (nd_real_at x2 (ix1 r)).choose, fun r => (nd_real_at x2 (ix1 r)).choose_spec⟩

/-! ## The first layer -/

/-- The scaled features are real wherever the features are. -/
theorem feat_scaled_real (hx0 : ∀ i, ∃ v : ℝ, x0 i = (v : EReal)) (i : S12288x512.Idx) :
    ∃ v : ℝ, val_main_v21 (F := Ideal) x0 x1 i = (v : EReal) := by
  obtain ⟨r, k, rfl⟩ : ∃ (r : Fin 12288) (k : Fin 512), i = ix2 r k := ⟨i 0, i 1, eq_ix2 i⟩
  obtain ⟨v, hv⟩ := hx0 (ix2 r k)
  obtain ⟨s, hs⟩ := ns_real_at x1 (ix1 r)
  exact ⟨v * s, by rw [ref_feat_scaled_apply, hv, hs, EReal.coe_mul]⟩

/-- THE FIRST LAYER, PROJECTED FIRST.  "P1" any table whose entry "(r, j)" is row "r" of the scaled features times
    column "j" of the first weight matrix.  Aggregating the rows of "P1" over the edges, scaling by the target norm,
    adding the bias and taking the larger of the result and zero gives the reference's first layer: between the two
    stands the law, with the scaled features and the weights real and the target norm a real factor per row. -/
theorem join_h1 (hx0 : ∀ i, ∃ v : ℝ, x0 i = (v : EReal)) (hx3 : ∀ i, ∃ v : ℝ, x3 i = (v : EReal))
    (P1 : S12288x32.Idx → EReal)
    (hP1 : ∀ (r : Fin 12288) (j : Fin 32), P1 (ix2 r j)
      = ∑ k : Fin 512, (x0 (ix2 r k) * val_main_v12 (F := Ideal) x1 (ix1 r)) * x3 (ix2 k j))
    (r : Fin 12288) (j : Fin 32) :
    max ((Host.scatterAdd (F := Ideal) (φ := .f32) scatter_S12288x32_S405504x1_S405504x32_1_0_0_1
            (broadcastInDim S12288x32 ![] bcast_S_S12288x32 (constant (F := Ideal) S_ .f32 0x00000000#32))
            (val_main_v30 (F := Ideal) x2)
            (Host.gather gather_S12288x32_S405504x1_S405504x32_1_0_n_n_0_1_132 P1 (val_main_v27 (F := Ideal) x1))
            (ix2 r j) * val_main_v18 (F := Ideal) x2 (ix1 r)) + x4 (ix1 j)) 0
      = val_main_v39 (F := Ideal) x0 x1 x2 x3 x4 (ix2 r j) := by
  obtain ⟨d, hd⟩ := nd_real x2
  have hP : ∀ (r : Fin 12288) (j : Fin 32), P1 (ix2 r j)
      = ∑ k : Fin 512, val_main_v21 (F := Ideal) x0 x1 (ix2 r k) * x3 (ix2 k j) := by
    intro r j
    simp only [ref_feat_scaled_apply]
    exact hP1 r j
  rw [ref_h1_apply]
  simp only [ref_scaled_apply, ref_agg1_def, hd]
  rw [project_then_aggregate (val_main_v21 (F := Ideal) x0 x1) x3 P1 d _ _ (feat_scaled_real x0 x1 hx0) hx3 hP r j]

/-! ## The decoder -/

/-- THE ADJACENCY.  "MU" any table that is the reference's mean entry by entry, "ADJ" any table whose entry "(p, q)"
    is row "p" of "MU" times row "q" of "MU": "ADJ" is the reference's adjacency. -/
theorem join_adj (MU : S12288x16.Idx → EReal)
    (hMU : ∀ (r : Fin 12288) (j : Fin 16), MU (ix2 r j) = val_main_v59 (F := Ideal) x0 x1 x2 x3 x4 x5 x6 (ix2 r j))
    (ADJ : S12288x12288.Idx → EReal)
    (hADJ : ∀ p q : Fin 12288, ADJ (ix2 p q) = ∑ k : Fin 16, MU (ix2 p k) * MU (ix2 q k)) :
    ADJ = val_main_v81 (F := Ideal) x0 x1 x2 x3 x4 x5 x6 := by
  funext i
  obtain ⟨p, q, rfl⟩ : ∃ (p q : Fin 12288), i = ix2 p q := ⟨i 0, i 1, eq_ix2 i⟩
  rw [hADJ, ref_adj_apply_ix2]
  simp only [hMU]

/-! ## The merged second and third projections -/

/-- Column "j" of the left half of a table of width 32. -/
abbrev colLo (j : Fin 16) : Fin 32 := ⟨j.val, by omega⟩

/-- Column "j" of the right half of a table of width 32. -/
abbrev colHi (j : Fin 16) : Fin 32 := ⟨16 + j.val, by omega⟩

/-- THE MEAN AND THE LOG-VARIANCE FROM ONE PRODUCT.  "AGG" the scaled second aggregate entry by entry, "W23" a weight
    matrix whose left half is the second weight matrix and whose right half is the third, "B23" a bias row made the
    same way, "O" the product of "AGG" with "W23" plus "B23": the left half of "O" is the reference's mean and the
    right half its log-variance (the reference's third aggregate is its second). -/
theorem join_mu_logvar (AGG : S12288x32.Idx → EReal) (W23 : (⟨2, ![32, 32]⟩ : Shape).Idx → EReal)
    (B23 : S1x32.Idx → EReal) (O : S12288x32.Idx → EReal)
    (hAGG : ∀ (r : Fin 12288) (k : Fin 32), AGG (ix2 r k) = val_main_v55 (F := Ideal) x0 x1 x2 x3 x4 (ix2 r k))
    (hW : ∀ (k : Fin 32) (j : Fin 16), W23 (ix2 k (colLo j)) = x5 (ix2 k j) ∧ W23 (ix2 k (colHi j)) = x7 (ix2 k j))
    (hB : ∀ j : Fin 16, B23 (ix2 (0 : Fin 1) (colLo j)) = x6 (ix1 j) ∧ B23 (ix2 (0 : Fin 1) (colHi j)) = x8 (ix1 j))
    (hO : ∀ (r : Fin 12288) (j : Fin 32), O (ix2 r j)
      = (∑ k : Fin 32, AGG (ix2 r k) * W23 (ix2 k j)) + B23 (ix2 (0 : Fin 1) j))
    (r : Fin 12288) (j : Fin 16) :
    O (ix2 r (colLo j)) = val_main_v59 (F := Ideal) x0 x1 x2 x3 x4 x5 x6 (ix2 r j)
      ∧ O (ix2 r (colHi j)) = val_main_v79 (F := Ideal) x0 x1 x2 x3 x4 x7 x8 (ix2 r j) := by
  constructor
  · rw [hO, ref_mu_apply, (hB j).1]
    simp only [hAGG, (hW _ j).1]
  · rw [hO, ref_logvar_apply, ref_agg_same, (hB j).2]
    simp only [hAGG, (hW _ j).2]

/-! ## The second aggregation -/

/-- THE SECOND AGGREGATE, SCALED.  "H" the reference's first layer, "NSB" and "NDB" the two norms spread over the 32
    columns: scaling "H" by the source norm, aggregating over the edges and scaling by the target norm is the
    reference's scaled second aggregate — the same operations on the same operands. -/
theorem join_agg2 (H : S12288x32.Idx → EReal) (hH : H = val_main_v39 (F := Ideal) x0 x1 x2 x3 x4)
    (NSB NDB : S12288x32.Idx → EReal)
    (hNS : ∀ (r : Fin 12288) (k : Fin 32), NSB (ix2 r k) = val_main_v12 (F := Ideal) x1 (ix1 r))
    (hND : ∀ (r : Fin 12288) (k : Fin 32), NDB (ix2 r k) = val_main_v18 (F := Ideal) x2 (ix1 r))
    (r : Fin 12288) (k : Fin 32) :
    Host.scatterAdd (F := Ideal) (φ := .f32) scatter_S12288x32_S405504x1_S405504x32_1_0_0_1
        (broadcastInDim S12288x32 ![] bcast_S_S12288x32 (constant (F := Ideal) S_ .f32 0x00000000#32))
        (val_main_v30 (F := Ideal) x2)
        (Host.gather gather_S12288x32_S405504x1_S405504x32_1_0_n_n_0_1_132 (mulf (F := Ideal) (φ := .f32) H NSB)
          (val_main_v27 (F := Ideal) x1)) (ix2 r k) * NDB (ix2 r k)
      = val_main_v55 (F := Ideal) x0 x1 x2 x3 x4 (ix2 r k) := by
  subst hH
  have hm : mulf (F := Ideal) (φ := .f32) (val_main_v39 (F := Ideal) x0 x1 x2 x3 x4) NSB
      = val_main_v42 (F := Ideal) x0 x1 x2 x3 x4 := by
    funext i
    obtain ⟨r, k, rfl⟩ : ∃ (r : Fin 12288) (k : Fin 32), i = ix2 r k := ⟨i 0, i 1, eq_ix2 i⟩
    rw [mulf_apply, ref_h1_scaled_apply, hNS]
  rw [hm, hND, ref_scaled2_apply, ref_agg2_def]

end Cert.Bridge

end
-- ==== Proof.Chain.lean ====
/-
  The whole chain of joins, over plain tables.  At the ideal instance (floats are extended reals, every operation
  exact).

  Any program that computes
    P1  = (features scaled by the source norm) times the first weight matrix,
    H   = the larger of zero and (the aggregate of P1 scaled by the target norm, plus the first bias),
    X   = the aggregate of (H scaled by the source norm), scaled by the target norm,
    O   = X times (the second and third weight matrices side by side) plus (the two biases end to end),
    MU  = the left half of O,   LV = the right half of O,
    ADJ = MU times the transpose of MU,
  each described entry by entry, computes the reference's adjacency, mean and log-variance: the first step is the
  law "project, then aggregate = aggregate, then project" (the features and the first weights being real), the
  others are the same operations as the reference's.
-/
import proofs.«159144_j70712341561937_2_alg».proof.Proof.Join

noncomputable section

open scoped BigOperators

namespace Cert.Bridge

open Cert.ReferenceIdeal Cert.ReferenceIdeal.Gen Cert.ReferenceIdeal.Read Cert.ReferenceIdeal.Shape
open Idealize.ShloMosaic Idealize.ShloMosaic.ValueIdx Cert.LibSegment

variable (x0 : (⟨S12288x512, .f32⟩ : BufTy).Contents (Elt Ideal))
  (x1 x2 : (⟨S405504, .i32⟩ : BufTy).Contents (Elt Ideal))
  (x3 : (⟨S512x32, .f32⟩ : BufTy).Contents (Elt Ideal)) (x4 : (⟨S32, .f32⟩ : BufTy).Contents (Elt Ideal))
  (x5 : (⟨S32x16, .f32⟩ : BufTy).Contents (Elt Ideal)) (x6 : (⟨S16, .f32⟩ : BufTy).Contents (Elt Ideal))
  (x7 : (⟨S32x16, .f32⟩ : BufTy).Contents (Elt Ideal)) (x8 : (⟨S16, .f32⟩ : BufTy).Contents (Elt Ideal))

/-- The aggregate of a table of width 32 over the edges, as the reference writes it: each edge's source row of "Y",
    added into zeros at the edge's target row. -/
def agg32 (Y : S12288x32.Idx → EReal) : S12288x32.Idx → EReal :=
  Host.scatterAdd (F := Ideal) (φ := .f32) scatter_S12288x32_S405504x1_S405504x32_1_0_0_1
    (broadcastInDim S12288x32 ![] bcast_S_S12288x32 (constant (F := Ideal) S_ .f32 0x00000000#32))
    (val_main_v30 (F := Ideal) x2)
    (Host.gather gather_S12288x32_S405504x1_S405504x32_1_0_n_n_0_1_132 Y (val_main_v27 (F := Ideal) x1))

theorem agg32_def (Y : S12288x32.Idx → EReal) :
    agg32 x1 x2 Y
      = Host.scatterAdd (F := Ideal) (φ := .f32) scatter_S12288x32_S405504x1_S405504x32_1_0_0_1
          (broadcastInDim S12288x32 ![] bcast_S_S12288x32 (constant (F := Ideal) S_ .f32 0x00000000#32))
          (val_main_v30 (F := Ideal) x2)
          (Host.gather gather_S12288x32_S405504x1_S405504x32_1_0_n_n_0_1_132 Y (val_main_v27 (F := Ideal) x1)) := rfl

/-- THE CHAIN.  From the seven entry-by-entry descriptions to the reference's three results. -/
theorem chain (hx0 : ∀ i, ∃ v : ℝ, x0 i = (v : EReal)) (hx3 : ∀ i, ∃ v : ℝ, x3 i = (v : EReal))
    (P1 H X NSB NDB : S12288x32.Idx → EReal)
    (hP1 : ∀ (r : Fin 12288) (j : Fin 32), P1 (ix2 r j)
      = ∑ k : Fin 512, (x0 (ix2 r k) * val_main_v12 (F := Ideal) x1 (ix1 r)) * x3 (ix2 k j))
    (hH : ∀ (r : Fin 12288) (j : Fin 32), H (ix2 r j)
      = max ((agg32 x1 x2 P1 (ix2 r j) * val_main_v18 (F := Ideal) x2 (ix1 r)) + x4 (ix1 j)) 0)
    (hNS : ∀ (r : Fin 12288) (k : Fin 32), NSB (ix2 r k) = val_main_v12 (F := Ideal) x1 (ix1 r))
    (hND : ∀ (r : Fin 12288) (k : Fin 32), NDB (ix2 r k) = val_main_v18 (F := Ideal) x2 (ix1 r))
    (hX : ∀ (r : Fin 12288) (k : Fin 32), X (ix2 r k)
      = agg32 x1 x2 (mulf (F := Ideal) (φ := .f32) H NSB) (ix2 r k) * NDB (ix2 r k))
    (W23 : (⟨2, ![32, 32]⟩ : Shape).Idx → EReal) (B23 : S1x32.Idx → EReal) (O : S12288x32.Idx → EReal)
    (hW : ∀ (k : Fin 32) (j : Fin 16), W23 (ix2 k (colLo j)) = x5 (ix2 k j) ∧ W23 (ix2 k (colHi j)) = x7 (ix2 k j))
    (hB : ∀ j : Fin 16, B23 (ix2 (0 : Fin 1) (colLo j)) = x6 (ix1 j) ∧ B23 (ix2 (0 : Fin 1) (colHi j)) = x8 (ix1 j))
    (hO : ∀ (r : Fin 12288) (j : Fin 32), O (ix2 r j)
      = (∑ k : Fin 32, X (ix2 r k) * W23 (ix2 k j)) + B23 (ix2 (0 : Fin 1) j))
    (MU LV : S12288x16.Idx → EReal)
    (hMU : ∀ (r : Fin 12288) (j : Fin 16), MU (ix2 r j) = O (ix2 r (colLo j)))
    (hLV : ∀ (r : Fin 12288) (j : Fin 16), LV (ix2 r j) = O (ix2 r (colHi j)))
    (ADJ : S12288x12288.Idx → EReal)
    (hADJ : ∀ p q : Fin 12288, ADJ (ix2 p q) = ∑ k : Fin 16, MU (ix2 p k) * MU (ix2 q k)) :
    ADJ = val_main_v81 (F := Ideal) x0 x1 x2 x3 x4 x5 x6
      ∧ MU = val_main_v59 (F := Ideal) x0 x1 x2 x3 x4 x5 x6
      ∧ LV = val_main_v79 (F := Ideal) x0 x1 x2 x3 x4 x7 x8 := by
  have hH' : H = val_main_v39 (F := Ideal) x0 x1 x2 x3 x4 := by
    funext i
    obtain ⟨r, j, rfl⟩ : ∃ (r : Fin 12288) (j : Fin 32), i = ix2 r j := ⟨i 0, i 1, eq_ix2 i⟩
    rw [hH, agg32_def]
    exact join_h1 x0 x1 x2 x3 x4 hx0 hx3 P1 hP1 r j
  have hAGG : ∀ (r : Fin 12288) (k : Fin 32), X (ix2 r k) = val_main_v55 (F := Ideal) x0 x1 x2 x3 x4 (ix2 r k) := by
    intro r k
    rw [hX, agg32_def]
    exact join_agg2 x0 x1 x2 x3 x4 H hH' NSB NDB hNS hND r k
  have hml := join_mu_logvar x0 x1 x2 x3 x4 x5 x6 x7 x8 X W23 B23 O hAGG hW hB hO
  have hMU' : ∀ (r : Fin 12288) (j : Fin 16), MU (ix2 r j) = val_main_v59 (F := Ideal) x0 x1 x2 x3 x4 x5 x6 (ix2 r j) :=
    fun r j => (hMU r j).trans (hml r j).1
  refine ⟨join_adj x0 x1 x2 x3 x4 x5 x6 MU hMU' ADJ hADJ, ?_, ?_⟩
  · funext i
    obtain ⟨r, j, rfl⟩ : ∃ (r : Fin 12288) (j : Fin 16), i = ix2 r j := ⟨i 0, i 1, eq_ix2 i⟩
    exact hMU' r j
  · funext i
    obtain ⟨r, j, rfl⟩ : ∃ (r : Fin 12288) (j : Fin 16), i = ix2 r j := ⟨i 0, i 1, eq_ix2 i⟩
    exact (hLV r j).trans (hml r j).2

end Cert.Bridge

end
-- ==== Proof.KI.Closed0.lean ====
import proofs.«159144_j70712341561937_2_alg».proof.Proof.KI.Data
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Closed

open Cert.KernelIdeal Cert.KernelIdeal.Gen Cert.KernelIdeal.Fr
open Idealize.ShloMosaic Idealize.ShloMosaic.TcCoe Idealize.SL.Sem
open Idealize.ShloMosaic.ValueIdx
open Idealize.ShloMosaic.Pipeline (Dat)

/-! ## Region 0: one entry of the product of a scaled row block with the weight matrix -/

/-! The operand indices of the contraction, coordinate by coordinate: the left operand keeps the output's row and takes
    the contraction coordinate as its column; the right operand takes it as its row and keeps the output's column. -/

theorem lhs0_nc (i : S2048x32.Idx) (r : dot_S2048x512_S512x32_S2048x32_1_0_0_1_n_n.contr.Idx) :
    (dot_S2048x512_S512x32_S2048x32_1_0_0_1_n_n.lhsIdx i r 0).val = (i 0).val := by
  unfold DotDims.lhsIdx
  rw [dif_neg (show ¬(0 : Fin S2048x512.rank) ∈ dot_S2048x512_S512x32_S2048x32_1_0_0_1_n_n.lhsBatch by decide),
    dif_pos (show (0 : Fin S2048x512.rank) ∈ dot_S2048x512_S512x32_S2048x32_1_0_0_1_n_n.lhsNonContracting by decide)]
  rfl
theorem lhs0_c (i : S2048x32.Idx) (r : dot_S2048x512_S512x32_S2048x32_1_0_0_1_n_n.contr.Idx) :
    (dot_S2048x512_S512x32_S2048x32_1_0_0_1_n_n.lhsIdx i r 1).val = (r ⟨0, by decide⟩).val :=
  dot_S2048x512_S512x32_S2048x32_1_0_0_1_n_n.lhsIdx_val_of_single rfl i r
theorem rhs0_c (i : S2048x32.Idx) (r : dot_S2048x512_S512x32_S2048x32_1_0_0_1_n_n.contr.Idx) :
    (dot_S2048x512_S512x32_S2048x32_1_0_0_1_n_n.rhsIdx i r 0).val = (r ⟨0, by decide⟩).val :=
  dot_S2048x512_S512x32_S2048x32_1_0_0_1_n_n.rhsIdx_val_of_single rfl i r
theorem rhs0_nc (i : S2048x32.Idx) (r : dot_S2048x512_S512x32_S2048x32_1_0_0_1_n_n.contr.Idx) :
    (dot_S2048x512_S512x32_S2048x32_1_0_0_1_n_n.rhsIdx i r 1).val = (i 1).val := by
  unfold DotDims.rhsIdx
  rw [dif_neg (show ¬(1 : Fin S512x32.rank) ∈ dot_S2048x512_S512x32_S2048x32_1_0_0_1_n_n.rhsBatch by decide),
    dif_pos (show (1 : Fin S512x32.rank) ∈ dot_S2048x512_S512x32_S2048x32_1_0_0_1_n_n.rhsNonContracting by decide)]
  rfl

/-- The left operand's index at output entry (p, q) and contraction coordinate k is (p, k). -/
theorem lhs0 (p : Fin 2048) (q : Fin 32) (k : Fin 512) :
    dot_S2048x512_S512x32_S2048x32_1_0_0_1_n_n.lhsIdx (ix2 p q) ((contrEquiv1 dot_S2048x512_S512x32_S2048x32_1_0_0_1_n_n 512 rfl rfl).symm k) = ix2 p k := by
  have hk := contrEquiv1_symm_val dot_S2048x512_S512x32_S2048x32_1_0_0_1_n_n 512 rfl rfl k
  exact funext fun a => Fin.ext (by
    match a with
    | ⟨0, _⟩ => exact lhs0_nc _ _
    | ⟨1, _⟩ => exact (lhs0_c _ _).trans hk)

/-- The right operand's index there is (k, q). -/
theorem rhs0 (p : Fin 2048) (q : Fin 32) (k : Fin 512) :
    dot_S2048x512_S512x32_S2048x32_1_0_0_1_n_n.rhsIdx (ix2 p q) ((contrEquiv1 dot_S2048x512_S512x32_S2048x32_1_0_0_1_n_n 512 rfl rfl).symm k) = ix2 k q := by
  have hk := contrEquiv1_symm_val dot_S2048x512_S512x32_S2048x32_1_0_0_1_n_n 512 rfl rfl k
  exact funext fun a => Fin.ext (by
    match a with
    | ⟨0, _⟩ => exact (rhs0_c _ _).trans hk
    | ⟨1, _⟩ => exact rhs0_nc _ _)

/-- A column of row scales spread along the rows reads, at (p, k), the scale of row p. -/
theorem scaleCol_apply (x1 : Vec Ideal S2048x1 .f32) (p : Fin 2048) (k : Fin 512) :
    broadcastTo S2048x512 (shapeCast S2048x1 x1 shapeCasts_S2048x1_S2048x1) broadcasts_S2048x1_S2048x512 (ix2 p k)
      = x1 (ix2 p 0) := by
  rw [shapeCast_self]
  refine broadcastTo_apply x1 _ (ix2 p k) (ix2 p 0) fun a => ?_
  match a with
  | ⟨0, _⟩ => rfl
  | ⟨1, _⟩ => rfl

/-- Entry (p, q) of the body's one stored value: the row p of the block, scaled by the row's scale, against column q
    of the weights. -/
theorem pay0_apply (x0 : Vec Ideal S2048x512 .f32) (x1 : Vec Ideal S2048x1 .f32) (x6 : Vec Ideal S512x32 .f32)
    (p : Fin 2048) (q : Fin 32) :
    k0_pay1 x0 x1 x6 (ix2 p q) = ∑ k : Fin 512, (x0 (ix2 p k) * x1 (ix2 p 0)) * x6 (ix2 k q) := by
  unfold k0_pay1
  simp only [matmul]
  rw [Ideal.matmul_constant_zero_apply,
    ← Equiv.sum_comp (contrEquiv1 dot_S2048x512_S512x32_S2048x32_1_0_0_1_n_n 512 rfl rfl).symm]
  refine Finset.sum_congr rfl fun k _ => ?_
  rw [lhs0, rhs0, truncf_apply, truncf_apply, mulf_apply, scaleCol_apply]

/-- The same at any index of the block. -/
theorem pay0_at (x0 : Vec Ideal S2048x512 .f32) (x1 : Vec Ideal S2048x1 .f32) (x6 : Vec Ideal S512x32 .f32)
    (y : S2048x32.Idx) :
    k0_pay1 x0 x1 x6 y = ∑ k : Fin 512, (x0 (ix2 (y 0) k) * x1 (ix2 (y 0) 0)) * x6 (ix2 k (y 1)) := by
  obtain ⟨p, q, rfl⟩ : ∃ (p : Fin 2048) (q : Fin 32), y = ix2 p q := ⟨y 0, y 1, eq_ix2 y⟩
  exact pay0_apply x0 x1 x6 p q

/-! ## From the blocks to the array -/

/-- What region 0 leaves in its output array, as one function of the three arrays it read: entry (r, q) is the sum
    over the 512 feature columns k of feature (r, k) times the scale of row r times weight (k, q). -/
def G0 (a : S12288x512.Idx → EReal) (s : S12288x1.Idx → EReal) (w : S512x32.Idx → EReal) : S12288x32.Idx → EReal :=
  fun i => ∑ k : Fin 512, (a (ix2 (i 0) k) * s (ix2 (i 0) 0)) * w (ix2 k (i 1))

theorem G0_apply (a : S12288x512.Idx → EReal) (s : S12288x1.Idx → EReal) (w : S512x32.Idx → EReal)
    (r : Fin 12288) (q : Fin 32) :
    G0 a s w (ix2 r q) = ∑ k : Fin 512, (a (ix2 r k) * s (ix2 r 0)) * w (ix2 k q) := rfl

/-- The windows' index maps over the six grid points: at point t the feature, scale and output windows sit at row
    block t, column block 0; the weight window at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The feature window's block at point t is rows 2048·t … 2048·t + 2047 of the feature array. -/
theorem iblk0_0_apply (c : Dev nD) (t : Fin cfg0.N) (y : S2048x512.Idx) (i : S12288x512.Idx)
    (h0 : (i 0).val = t.val * 2048 + (y 0).val) (h1 : (i 1).val = (y 1).val) :
    (iblk0 V c 0 t : Vec Ideal S2048x512 .f32) y = (V c main_arg0 : S12288x512.Idx → EReal) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 2048 + 1 * (y 0).val = (i 0).val; rw [e0, h0]; omega
  | ⟨1, _⟩ => show win0_0.index t 1 * 512 + 1 * (y 1).val = (i 1).val; rw [e1, h1]; omega

/-- The scale window's block at point t is the same rows of the scale column. -/
theorem iblk0_1_apply (c : Dev nD) (t : Fin cfg0.N) (y : S2048x1.Idx) (i : S12288x1.Idx)
    (h0 : (i 0).val = t.val * 2048 + (y 0).val) (h1 : (i 1).val = (y 1).val) :
    (iblk0 V c 1 t : Vec Ideal S2048x1 .f32) y = (V c main_v19 : S12288x1.Idx → EReal) i := by
  obtain ⟨-, -, e0, e1, -⟩ := idx_facts0 t
  unfold iblk0
  rw [View.read_apply]
  show V c main_v19 _ = V c main_v19 _
  congr 1
  funext a
  apply Fin.ext
  match a with
  | ⟨0, _⟩ => show win0_1.index t 0 * 2048 + 1 * (y 0).val = (i 0).val; rw [e0, h0]; omega
  | ⟨1, _⟩ => show win0_1.index t 1 * 1 + 1 * (y 1).val = (i 1).val; rw [e1, h1]; omega

/-- The weight window's one block is the whole weight matrix, at every point. -/
theorem iblk0_2_apply (c : Dev nD) (t : Fin cfg0.N) (y : S512x32.Idx) :
    (iblk0 V c 2 t : Vec Ideal S512x32 .f32) y = (V c main_arg3 : S512x32.Idx → EReal) y := by
  obtain ⟨-, -, -, -, e0, e1, -⟩ := idx_facts0 t
  unfold iblk0
  rw [View.read_apply]
  show V c main_arg3 _ = V c main_arg3 _
  congr 1
  funext a
  apply Fin.ext
  match a with
  | ⟨0, _⟩ => show win0_2.index t 0 * 512 + 1 * (y 0).val = (y 0).val; rw [e0]; omega
  | ⟨1, _⟩ => show win0_2.index t 1 * 32 + 1 * (y 1).val = (y 1).val; rw [e1]; omega

/-- What grid point t writes back to the output array is block t of `G0` of the three arrays as the region finds them. -/
theorem flushed0_eq (c : Dev nD) (t : Fin cfg0.N) :
    (dat0 V c).flushed 3 t
      = ((cfg0.win 3).blk t).view.read (Elt Ideal) (G0 (V c main_arg0) (V c main_v19) (V c main_arg3)) := by
  show (cfg0.win 3).cut (grid0.coords t) ((dat0 V c).after 3 t) = _
  rw [after0_3]
  obtain ⟨-, -, -, -, -, -, e0, e1⟩ := idx_facts0 t
  funext j
  rw [View.read_apply]
  show k0_pay1 (iblk0 V c 0 t) (iblk0 V c 1 t) (iblk0 V c 2 t) ((cfg0.win 3).xinj (grid0.coords t) j)
    = G0 (V c main_arg0) (V c main_v19) (V c main_arg3) (((cfg0.win 3).blk t).view.emb j)
  refine (pay0_at _ _ _ _).trans ?_
  unfold G0
  have hr : ((((cfg0.win 3).blk t).view.emb j) 0).val = t.val * 2048 + (j 0).val := by
    show win0_3.index t 0 * 2048 + 1 * (j 0).val = _; rw [e0]; omega
  have hq : ((((cfg0.win 3).blk t).view.emb j) 1).val = (j 1).val := by
    show win0_3.index t 1 * 32 + 1 * (j 1).val = _; rw [e1]; omega
  refine Finset.sum_congr rfl fun k _ => ?_
  rw [iblk0_0_apply V c t _ (ix2 ((((cfg0.win 3).blk t).view.emb j) 0) k) hr rfl,
    iblk0_1_apply V c t _ (ix2 ((((cfg0.win 3).blk t).view.emb j) 0) 0) hr rfl,
    iblk0_2_apply V c t]
  congr 2
  exact congrArg (ix2 k) (Fin.ext hq.symm)

/-- An index of the output array is in point t's block iff each coordinate is in the block's range on its axis. -/
theorem mem_blk0 (t : Fin cfg0.N) (i : S12288x32.Idx) :
    i ∈ ((cfg0.win 3).blk t).view.set ↔ ∀ a : Fin 2, win0_3.index t a * S2048x32.size a ≤ (i a).val
      ∧ (i a).val < win0_3.index t a * S2048x32.size a + S2048x32.size a := by
  show i ∈ ((View.whole main_v21).slice (win0_3.rect t)).set ↔ _
  rw [View.set_slice_whole, Rect.mem_set_unit]
  exact Iff.rfl

/-- The six row blocks cover the output array: row r lies in the block of point r / 2048. -/
theorem cover0 (i : S12288x32.Idx) :
    ∃ t : Fin cfg0.N, (cfg0.win 3).flush t = true ∧ i ∈ ((cfg0.win 3).blk t).view.set := by
  have hN : cfg0.N = 6 := N_0
  have hi0 : (i 0).val < 12288 := (i 0).isLt
  have hi1 : (i 1).val < 32 := (i 1).isLt
  refine ⟨⟨(i 0).val / 2048, by rw [hN]; omega⟩, flush0_3 _, ?_⟩
  rw [mem_blk0]
  obtain ⟨-, -, -, -, -, -, e0, e1⟩ := idx_facts0 ⟨(i 0).val / 2048, by rw [hN]; omega⟩
  intro a
  match a with
  | ⟨0, _⟩ =>
    show win0_3.index _ (0 : Fin 2) * 2048 ≤ (i 0).val ∧ (i 0).val < win0_3.index _ (0 : Fin 2) * 2048 + 2048
    rw [e0]; show (i 0).val / 2048 * 2048 ≤ (i 0).val ∧ (i 0).val < (i 0).val / 2048 * 2048 + 2048; omega
  | ⟨1, _⟩ =>
    show win0_3.index _ (1 : Fin 2) * 32 ≤ (i 1).val ∧ (i 1).val < win0_3.index _ (1 : Fin 2) * 32 + 32
    rw [e1]; omega

/-- REGION 0's OUTPUT ARRAY after the region: entry (r, q) is the sum over the feature columns k of
    feature (r, k) · scale r · weight (k, q), of the arrays as the region found them. -/
theorem out0 (c : Dev nD) :
    (dat0 V c).arrAt 3 cfg0.N = G0 (V c main_arg0) (V c main_v19) (V c main_arg3) :=
  (dat0 V c).arrAt_eq_of_cover 3 (G0 (V c main_arg0) (V c main_v19) (V c main_arg3))
    (fun t _ => flushed0_eq V c t) cover0

end Cert.KernelIdeal.Closed

end
-- ==== Proof.KI.Closed1.lean ====
import proofs.«159144_j70712341561937_2_alg».proof.Proof.KI.Data
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Closed

open Cert.KernelIdeal Cert.KernelIdeal.Gen Cert.KernelIdeal.Fr
open Idealize.ShloMosaic Idealize.ShloMosaic.TcCoe Idealize.SL.Sem
open Idealize.ShloMosaic.ValueIdx
open Idealize.ShloMosaic.Pipeline (Dat)

/-! ## Region 1: one entry of a row block times the 32×32 matrix, plus the bias of its column -/

/-! The operand indices of the contraction, coordinate by coordinate: the left operand keeps the output's row and takes
    the contraction coordinate as its column; the right operand takes it as its row and keeps the output's column. -/

theorem lhs1_nc (i : S2048x32.Idx) (r : dot_S2048x32_S32x32_S2048x32_1_0_0_1_n_n.contr.Idx) :
    (dot_S2048x32_S32x32_S2048x32_1_0_0_1_n_n.lhsIdx i r 0).val = (i 0).val := by
  unfold DotDims.lhsIdx
  rw [dif_neg (show ¬(0 : Fin S2048x32.rank) ∈ dot_S2048x32_S32x32_S2048x32_1_0_0_1_n_n.lhsBatch by decide),
    dif_pos (show (0 : Fin S2048x32.rank) ∈ dot_S2048x32_S32x32_S2048x32_1_0_0_1_n_n.lhsNonContracting by decide)]
  rfl
theorem lhs1_c (i : S2048x32.Idx) (r : dot_S2048x32_S32x32_S2048x32_1_0_0_1_n_n.contr.Idx) :
    (dot_S2048x32_S32x32_S2048x32_1_0_0_1_n_n.lhsIdx i r 1).val = (r ⟨0, by decide⟩).val :=
  dot_S2048x32_S32x32_S2048x32_1_0_0_1_n_n.lhsIdx_val_of_single rfl i r
theorem rhs1_c (i : S2048x32.Idx) (r : dot_S2048x32_S32x32_S2048x32_1_0_0_1_n_n.contr.Idx) :
    (dot_S2048x32_S32x32_S2048x32_1_0_0_1_n_n.rhsIdx i r 0).val = (r ⟨0, by decide⟩).val :=
  dot_S2048x32_S32x32_S2048x32_1_0_0_1_n_n.rhsIdx_val_of_single rfl i r
theorem rhs1_nc (i : S2048x32.Idx) (r : dot_S2048x32_S32x32_S2048x32_1_0_0_1_n_n.contr.Idx) :
    (dot_S2048x32_S32x32_S2048x32_1_0_0_1_n_n.rhsIdx i r 1).val = (i 1).val := by
  unfold DotDims.rhsIdx
  rw [dif_neg (show ¬(1 : Fin S32x32.rank) ∈ dot_S2048x32_S32x32_S2048x32_1_0_0_1_n_n.rhsBatch by decide),
    dif_pos (show (1 : Fin S32x32.rank) ∈ dot_S2048x32_S32x32_S2048x32_1_0_0_1_n_n.rhsNonContracting by decide)]
  rfl

/-- The left operand's index at output entry (p, q) and contraction coordinate k is (p, k). -/
theorem lhs1 (p : Fin 2048) (q : Fin 32) (k : Fin 32) :
    dot_S2048x32_S32x32_S2048x32_1_0_0_1_n_n.lhsIdx (ix2 p q) ((contrEquiv1 dot_S2048x32_S32x32_S2048x32_1_0_0_1_n_n 32 rfl rfl).symm k) = ix2 p k := by
  have hk := contrEquiv1_symm_val dot_S2048x32_S32x32_S2048x32_1_0_0_1_n_n 32 rfl rfl k
  exact funext fun a => Fin.ext (by
    match a with
    | ⟨0, _⟩ => exact lhs1_nc _ _
    | ⟨1, _⟩ => exact (lhs1_c _ _).trans hk)

/-- The right operand's index there is (k, q). -/
theorem rhs1 (p : Fin 2048) (q : Fin 32) (k : Fin 32) :
    dot_S2048x32_S32x32_S2048x32_1_0_0_1_n_n.rhsIdx (ix2 p q) ((contrEquiv1 dot_S2048x32_S32x32_S2048x32_1_0_0_1_n_n 32 rfl rfl).symm k) = ix2 k q := by
  have hk := contrEquiv1_symm_val dot_S2048x32_S32x32_S2048x32_1_0_0_1_n_n 32 rfl rfl k
  exact funext fun a => Fin.ext (by
    match a with
    | ⟨0, _⟩ => exact (rhs1_c _ _).trans hk
    | ⟨1, _⟩ => exact rhs1_nc _ _)

/-- The bias row spread down the rows reads, at (p, q), the bias of column q. -/
theorem biasRow_apply (x7 : Vec Ideal S1x32 .f32) (p : Fin 2048) (q : Fin 32) :
    broadcastTo S2048x32 (shapeCast S1x32 x7 shapeCasts_S1x32_S1x32) broadcasts_S1x32_S2048x32 (ix2 p q)
      = x7 (ix2 0 q) := by
  rw [shapeCast_self]
  refine broadcastTo_apply x7 _ (ix2 p q) (ix2 0 q) fun a => ?_
  match a with
  | ⟨0, _⟩ => rfl
  | ⟨1, _⟩ => rfl

/-- Entry (p, q) of the body's one stored value: row p of the block against column q of the matrix, plus the bias of
    column q. -/
theorem pay1_apply (x0 : Vec Ideal S2048x32 .f32) (x3 : Vec Ideal S32x32 .f32) (x7 : Vec Ideal S1x32 .f32)
    (p : Fin 2048) (q : Fin 32) :
    k1_pay1 x0 x3 x7 (ix2 p q) = (∑ k : Fin 32, x0 (ix2 p k) * x3 (ix2 k q)) + x7 (ix2 0 q) := by
  unfold k1_pay1
  simp only [matmul]
  rw [addf_apply, Ideal.matmul_constant_zero_apply,
    ← Equiv.sum_comp (contrEquiv1 dot_S2048x32_S32x32_S2048x32_1_0_0_1_n_n 32 rfl rfl).symm, biasRow_apply]
  refine congrArg (· + x7 (ix2 0 q)) (Finset.sum_congr rfl fun k _ => ?_)
  rw [lhs1, rhs1, truncf_apply, truncf_apply, shapeCast_self, shapeCast_self]

/-- The same at any index of the block. -/
theorem pay1_at (x0 : Vec Ideal S2048x32 .f32) (x3 : Vec Ideal S32x32 .f32) (x7 : Vec Ideal S1x32 .f32)
    (y : S2048x32.Idx) :
    k1_pay1 x0 x3 x7 y = (∑ k : Fin 32, x0 (ix2 (y 0) k) * x3 (ix2 k (y 1))) + x7 (ix2 0 (y 1)) := by
  obtain ⟨p, q, rfl⟩ : ∃ (p : Fin 2048) (q : Fin 32), y = ix2 p q := ⟨y 0, y 1, eq_ix2 y⟩
  exact pay1_apply x0 x3 x7 p q

/-! ## From the blocks to the array -/

/-- What region 1 leaves in its output array, as one function of the three arrays it read: entry (r, q) is the sum
    over k of input (r, k) times matrix (k, q), plus bias q. -/
def G1 (a : S12288x32.Idx → EReal) (w : S32x32.Idx → EReal) (b : S1x32.Idx → EReal) : S12288x32.Idx → EReal :=
  fun i => (∑ k : Fin 32, a (ix2 (i 0) k) * w (ix2 k (i 1))) + b (ix2 0 (i 1))

theorem G1_apply (a : S12288x32.Idx → EReal) (w : S32x32.Idx → EReal) (b : S1x32.Idx → EReal)
    (r : Fin 12288) (q : Fin 32) :
    G1 a w b (ix2 r q) = (∑ k : Fin 32, a (ix2 r k) * w (ix2 k q)) + b (ix2 0 q) := rfl

/-- The windows' index maps over the six grid points: at point t the input and output windows sit at row block t,
    column block 0; the matrix and bias windows at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The input window's block at point t is rows 2048·t … 2048·t + 2047 of the input array. -/
theorem iblk1_0_apply (c : Dev nD) (t : Fin cfg1.N) (y : S2048x32.Idx) (i : S12288x32.Idx)
    (h0 : (i 0).val = t.val * 2048 + (y 0).val) (h1 : (i 1).val = (y 1).val) :
    (iblk1 V c 0 t : Vec Ideal S2048x32 .f32) y = (V c main_v53 : S12288x32.Idx → EReal) i := by
  obtain ⟨e0, e1, -⟩ := idx_facts1 t
  unfold iblk1
  rw [View.read_apply]
  show V c main_v53 _ = V c main_v53 _
  congr 1
  funext a
  apply Fin.ext
  match a with
  | ⟨0, _⟩ => show win1_0.index t 0 * 2048 + 1 * (y 0).val = (i 0).val; rw [e0, h0]; omega
  | ⟨1, _⟩ => show win1_0.index t 1 * 32 + 1 * (y 1).val = (i 1).val; rw [e1, h1]; omega

/-- The matrix window's one block is the whole matrix, at every point. -/
theorem iblk1_1_apply (c : Dev nD) (t : Fin cfg1.N) (y : S32x32.Idx) :
    (iblk1 V c 1 t : Vec Ideal S32x32 .f32) y = (V c main_v54 : S32x32.Idx → EReal) y := by
  obtain ⟨-, -, e0, e1, -⟩ := idx_facts1 t
  unfold iblk1
  rw [View.read_apply]
  show V c main_v54 _ = V c main_v54 _
  congr 1
  funext a
  apply Fin.ext
  match a with
  | ⟨0, _⟩ => show win1_1.index t 0 * 32 + 1 * (y 0).val = (y 0).val; rw [e0]; omega
  | ⟨1, _⟩ => show win1_1.index t 1 * 32 + 1 * (y 1).val = (y 1).val; rw [e1]; omega

/-- The bias window's one block is the whole bias row, at every point. -/
theorem iblk1_2_apply (c : Dev nD) (t : Fin cfg1.N) (y : S1x32.Idx) :
    (iblk1 V c 2 t : Vec Ideal S1x32 .f32) y = (V c main_v56 : S1x32.Idx → EReal) y := by
  obtain ⟨-, -, -, -, e0, e1, -⟩ := idx_facts1 t
  unfold iblk1
  rw [View.read_apply]
  show V c main_v56 _ = V c main_v56 _
  congr 1
  funext a
  apply Fin.ext
  match a with
  | ⟨0, _⟩ => show win1_2.index t 0 * 1 + 1 * (y 0).val = (y 0).val; rw [e0]; omega
  | ⟨1, _⟩ => show win1_2.index t 1 * 32 + 1 * (y 1).val = (y 1).val; rw [e1]; omega

/-- What grid point t writes back to the output array is block t of `G1` of the three arrays as the region finds them. -/
theorem flushed1_eq (c : Dev nD) (t : Fin cfg1.N) :
    (dat1 V c).flushed 3 t
      = ((cfg1.win 3).blk t).view.read (Elt Ideal) (G1 (V c main_v53) (V c main_v54) (V c main_v56)) := by
  show (cfg1.win 3).cut (grid1.coords t) ((dat1 V c).after 3 t) = _
  rw [after1_3]
  obtain ⟨-, -, -, -, -, -, e0, e1⟩ := idx_facts1 t
  funext j
  rw [View.read_apply]
  show k1_pay1 (iblk1 V c 0 t) (iblk1 V c 1 t) (iblk1 V c 2 t) ((cfg1.win 3).xinj (grid1.coords t) j)
    = G1 (V c main_v53) (V c main_v54) (V c main_v56) (((cfg1.win 3).blk t).view.emb j)
  refine (pay1_at _ _ _ _).trans ?_
  unfold G1
  have hr : ((((cfg1.win 3).blk t).view.emb j) 0).val = t.val * 2048 + (j 0).val := by
    show win1_3.index t 0 * 2048 + 1 * (j 0).val = _; rw [e0]; omega
  have hq : ((((cfg1.win 3).blk t).view.emb j) 1).val = (j 1).val := by
    show win1_3.index t 1 * 32 + 1 * (j 1).val = _; rw [e1]; omega
  have hcol : ((cfg1.win 3).xinj (grid1.coords t) j 1 : Fin 32) = (((cfg1.win 3).blk t).view.emb j) 1 :=
    Fin.ext hq.symm
  rw [iblk1_2_apply V c t, hcol]
  refine congrArg (· + _) (Finset.sum_congr rfl fun k _ => ?_)
  rw [iblk1_0_apply V c t (ix2 ((cfg1.win 3).xinj (grid1.coords t) j 0) k) (ix2 ((((cfg1.win 3).blk t).view.emb j) 0) k) hr rfl,
    iblk1_1_apply V c t]

/-- An index of the output array is in point t's block iff each coordinate is in the block's range on its axis. -/
theorem mem_blk1 (t : Fin cfg1.N) (i : S12288x32.Idx) :
    i ∈ ((cfg1.win 3).blk t).view.set ↔ ∀ a : Fin 2, win1_3.index t a * S2048x32.size a ≤ (i a).val
      ∧ (i a).val < win1_3.index t a * S2048x32.size a + S2048x32.size a := by
  show i ∈ ((View.whole main_v57).slice (win1_3.rect t)).set ↔ _
  rw [View.set_slice_whole, Rect.mem_set_unit]
  exact Iff.rfl

/-- The six row blocks cover the output array: row r lies in the block of point r / 2048. -/
theorem cover1 (i : S12288x32.Idx) :
    ∃ t : Fin cfg1.N, (cfg1.win 3).flush t = true ∧ i ∈ ((cfg1.win 3).blk t).view.set := by
  have hN : cfg1.N = 6 := N_1
  have hi0 : (i 0).val < 12288 := (i 0).isLt
  have hi1 : (i 1).val < 32 := (i 1).isLt
  refine ⟨⟨(i 0).val / 2048, by rw [hN]; omega⟩, flush1_3 _, ?_⟩
  rw [mem_blk1]
  obtain ⟨-, -, -, -, -, -, e0, e1⟩ := idx_facts1 ⟨(i 0).val / 2048, by rw [hN]; omega⟩
  intro a
  match a with
  | ⟨0, _⟩ =>
    show win1_3.index _ (0 : Fin 2) * 2048 ≤ (i 0).val ∧ (i 0).val < win1_3.index _ (0 : Fin 2) * 2048 + 2048
    rw [e0]; show (i 0).val / 2048 * 2048 ≤ (i 0).val ∧ (i 0).val < (i 0).val / 2048 * 2048 + 2048; omega
  | ⟨1, _⟩ =>
    show win1_3.index _ (1 : Fin 2) * 32 ≤ (i 1).val ∧ (i 1).val < win1_3.index _ (1 : Fin 2) * 32 + 32
    rw [e1]; omega

/-- REGION 1's OUTPUT ARRAY after the region: entry (r, q) is the sum over k of input (r, k) · matrix (k, q), plus
    bias q, of the arrays as the region found them. -/
theorem out1 (c : Dev nD) :
    (dat1 V c).arrAt 3 cfg1.N = G1 (V c main_v53) (V c main_v54) (V c main_v56) :=
  (dat1 V c).arrAt_eq_of_cover 3 (G1 (V c main_v53) (V c main_v54) (V c main_v56))
    (fun t _ => flushed1_eq V c t) cover1

end Cert.KernelIdeal.Closed

end
-- ==== Proof.KI.Closed2.lean ====
import proofs.«159144_j70712341561937_2_alg».proof.Proof.KI.Data
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Closed

open Cert.KernelIdeal Cert.KernelIdeal.Gen Cert.KernelIdeal.Fr
open Idealize.ShloMosaic Idealize.ShloMosaic.TcCoe Idealize.SL.Sem
open Idealize.ShloMosaic.ValueIdx
open Idealize.ShloMosaic.Pipeline (Dat)

/-! ## Region 2: one entry of the block of inner products of two row blocks -/

/-! The operand indices of the contraction, coordinate by coordinate: BOTH operands contract their column axis; the
    left operand's row is the output's row, the right operand's row is the output's column. -/

theorem lhs2_nc (i : S1536x1536.Idx) (r : dot_S1536x16_S1536x16_S1536x1536_1_1_0_0_n_n.contr.Idx) :
    (dot_S1536x16_S1536x16_S1536x1536_1_1_0_0_n_n.lhsIdx i r 0).val = (i 0).val := by
  unfold DotDims.lhsIdx
  rw [dif_neg (show ¬(0 : Fin S1536x16.rank) ∈ dot_S1536x16_S1536x16_S1536x1536_1_1_0_0_n_n.lhsBatch by decide),
    dif_pos (show (0 : Fin S1536x16.rank) ∈ dot_S1536x16_S1536x16_S1536x1536_1_1_0_0_n_n.lhsNonContracting by decide)]
  rfl
theorem lhs2_c (i : S1536x1536.Idx) (r : dot_S1536x16_S1536x16_S1536x1536_1_1_0_0_n_n.contr.Idx) :
    (dot_S1536x16_S1536x16_S1536x1536_1_1_0_0_n_n.lhsIdx i r 1).val = (r ⟨0, by decide⟩).val :=
  dot_S1536x16_S1536x16_S1536x1536_1_1_0_0_n_n.lhsIdx_val_of_single rfl i r
theorem rhs2_c (i : S1536x1536.Idx) (r : dot_S1536x16_S1536x16_S1536x1536_1_1_0_0_n_n.contr.Idx) :
    (dot_S1536x16_S1536x16_S1536x1536_1_1_0_0_n_n.rhsIdx i r 1).val = (r ⟨0, by decide⟩).val :=
  dot_S1536x16_S1536x16_S1536x1536_1_1_0_0_n_n.rhsIdx_val_of_single rfl i r
theorem rhs2_nc (i : S1536x1536.Idx) (r : dot_S1536x16_S1536x16_S1536x1536_1_1_0_0_n_n.contr.Idx) :
    (dot_S1536x16_S1536x16_S1536x1536_1_1_0_0_n_n.rhsIdx i r 0).val = (i 1).val := by
  unfold DotDims.rhsIdx
  rw [dif_neg (show ¬(0 : Fin S1536x16.rank) ∈ dot_S1536x16_S1536x16_S1536x1536_1_1_0_0_n_n.rhsBatch by decide),
    dif_pos (show (0 : Fin S1536x16.rank) ∈ dot_S1536x16_S1536x16_S1536x1536_1_1_0_0_n_n.rhsNonContracting by decide)]
  rfl

/-- The left operand's index at output entry (p, q) and contraction coordinate k is (p, k). -/
theorem lhs2 (p q : Fin 1536) (k : Fin 16) :
    dot_S1536x16_S1536x16_S1536x1536_1_1_0_0_n_n.lhsIdx (ix2 p q) ((contrEquiv1 dot_S1536x16_S1536x16_S1536x1536_1_1_0_0_n_n 16 rfl rfl).symm k) = ix2 p k := by
  have hk := contrEquiv1_symm_val dot_S1536x16_S1536x16_S1536x1536_1_1_0_0_n_n 16 rfl rfl k
  exact funext fun a => Fin.ext (by
    match a with
    | ⟨0, _⟩ => exact lhs2_nc _ _
    | ⟨1, _⟩ => exact (lhs2_c _ _).trans hk)

/-- The right operand's index there is (q, k): the output's column picks the right operand's row. -/
theorem rhs2 (p q : Fin 1536) (k : Fin 16) :
    dot_S1536x16_S1536x16_S1536x1536_1_1_0_0_n_n.rhsIdx (ix2 p q) ((contrEquiv1 dot_S1536x16_S1536x16_S1536x1536_1_1_0_0_n_n 16 rfl rfl).symm k) = ix2 q k := by
  have hk := contrEquiv1_symm_val dot_S1536x16_S1536x16_S1536x1536_1_1_0_0_n_n 16 rfl rfl k
  exact funext fun a => Fin.ext (by
    match a with
    | ⟨0, _⟩ => exact rhs2_nc _ _
    | ⟨1, _⟩ => exact (rhs2_c _ _).trans hk)

/-- Entry (p, q) of the body's one stored value: the inner product of row p of the first block with row q of the
    second. -/
theorem pay2_apply (x0 x3 : Vec Ideal S1536x16 .f32) (p q : Fin 1536) :
    k2_pay1 x0 x3 (ix2 p q) = ∑ k : Fin 16, x0 (ix2 p k) * x3 (ix2 q k) := by
  unfold k2_pay1
  simp only [matmul]
  rw [Ideal.matmul_constant_zero_apply,
    ← Equiv.sum_comp (contrEquiv1 dot_S1536x16_S1536x16_S1536x1536_1_1_0_0_n_n 16 rfl rfl).symm]
  refine Finset.sum_congr rfl fun k _ => ?_
  rw [lhs2, rhs2, truncf_apply, truncf_apply, shapeCast_self, shapeCast_self]

/-- The same at any index of the block. -/
theorem pay2_at (x0 x3 : Vec Ideal S1536x16 .f32) (y : S1536x1536.Idx) :
    k2_pay1 x0 x3 y = ∑ k : Fin 16, x0 (ix2 (y 0) k) * x3 (ix2 (y 1) k) := by
  obtain ⟨p, q, rfl⟩ : ∃ (p q : Fin 1536), y = ix2 p q := ⟨y 0, y 1, eq_ix2 y⟩
  exact pay2_apply x0 x3 p q

/-! ## From the blocks to the array -/

/-- What region 2 leaves in its output array, as one function of the one array it read: entry (r, s) is the inner
    product of rows r and s. -/
def G2 (z : S12288x16.Idx → EReal) : S12288x12288.Idx → EReal :=
  fun i => ∑ k : Fin 16, z (ix2 (i 0) k) * z (ix2 (i 1) k)

theorem G2_apply (z : S12288x16.Idx → EReal) (r s : Fin 12288) :
    G2 z (ix2 r s) = ∑ k : Fin 16, z (ix2 r k) * z (ix2 s k) := rfl

/-- The windows' index maps over the 64 grid points: point t has coordinates (t / 8, t % 8); the first input window
    sits at row block t / 8, the second at row block t % 8, the output window at block (t / 8, t % 8). -/
theorem idx_facts2 : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = t.val % 8 :=
  (by decide +kernel : ∀ t : Fin grid2.N, _)

variable (V : (c : Dev nD) → (b : Ref sig .tc) → Buf (Elt Ideal) ((c : Thread nD τ).loc b))

/-- The first input window's block at point t is rows 1536·(t / 8) … of the array. -/
theorem iblk2_0_apply (c : Dev nD) (t : Fin cfg2.N) (y : S1536x16.Idx) (i : S12288x16.Idx)
    (h0 : (i 0).val = t.val / 8 * 1536 + (y 0).val) (h1 : (i 1).val = (y 1).val) :
    (iblk2 V c 0 t : Vec Ideal S1536x16 .f32) y = (V c main_v58 : S12288x16.Idx → EReal) i := by
  obtain ⟨e0, e1, -⟩ := idx_facts2 t
  unfold iblk2
  rw [View.read_apply]
  show V c main_v58 _ = V c main_v58 _
  congr 1
  funext a
  apply Fin.ext
  match a with
  | ⟨0, _⟩ => show win2_0.index t 0 * 1536 + 1 * (y 0).val = (i 0).val; rw [e0, h0]; omega
  | ⟨1, _⟩ => show win2_0.index t 1 * 16 + 1 * (y 1).val = (i 1).val; rw [e1, h1]; omega

/-- The second input window's block at point t is rows 1536·(t % 8) … of the SAME array. -/
theorem iblk2_1_apply (c : Dev nD) (t : Fin cfg2.N) (y : S1536x16.Idx) (i : S12288x16.Idx)
    (h0 : (i 0).val = t.val % 8 * 1536 + (y 0).val) (h1 : (i 1).val = (y 1).val) :
    (iblk2 V c 1 t : Vec Ideal S1536x16 .f32) y = (V c main_v58 : S12288x16.Idx → EReal) i := by
  obtain ⟨-, -, e0, e1, -⟩ := idx_facts2 t
  unfold iblk2
  rw [View.read_apply]
  show V c main_v58 _ = V c main_v58 _
  congr 1
  funext a
  apply Fin.ext
  match a with
  | ⟨0, _⟩ => show win2_1.index t 0 * 1536 + 1 * (y 0).val = (i 0).val; rw [e0, h0]; omega
  | ⟨1, _⟩ => show win2_1.index t 1 * 16 + 1 * (y 1).val = (i 1).val; rw [e1, h1]; omega

/-- What grid point t writes back to the output array is block t of `G2` of the array as the region finds it. -/
theorem flushed2_eq (c : Dev nD) (t : Fin cfg2.N) :
    (dat2 V c).flushed 2 t = ((cfg2.win 2).blk t).view.read (Elt Ideal) (G2 (V c main_v58)) := by
  show (cfg2.win 2).cut (grid2.coords t) ((dat2 V c).after 2 t) = _
  rw [after2_2]
  obtain ⟨-, -, -, -, e0, e1⟩ := idx_facts2 t
  funext j
  rw [View.read_apply]
  show k2_pay1 (iblk2 V c 0 t) (iblk2 V c 1 t) ((cfg2.win 2).xinj (grid2.coords t) j)
    = G2 (V c main_v58) (((cfg2.win 2).blk t).view.emb j)
  refine (pay2_at _ _ _).trans ?_
  unfold G2
  have hr : ((((cfg2.win 2).blk t).view.emb j) 0).val = t.val / 8 * 1536 + (j 0).val := by
    show win2_2.index t 0 * 1536 + 1 * (j 0).val = _; rw [e0]; omega
  have hs : ((((cfg2.win 2).blk t).view.emb j) 1).val = t.val % 8 * 1536 + (j 1).val := by
    show win2_2.index t 1 * 1536 + 1 * (j 1).val = _; rw [e1]; omega
  refine Finset.sum_congr rfl fun k _ => ?_
  rw [iblk2_0_apply V c t (ix2 ((cfg2.win 2).xinj (grid2.coords t) j 0) k) (ix2 ((((cfg2.win 2).blk t).view.emb j) 0) k) hr rfl,
    iblk2_1_apply V c t (ix2 ((cfg2.win 2).xinj (grid2.coords t) j 1) k) (ix2 ((((cfg2.win 2).blk t).view.emb j) 1) k) hs rfl]

/-- An index of the output array is in point t's block iff each coordinate is in the block's range on its axis. -/
theorem mem_blk2 (t : Fin cfg2.N) (i : S12288x12288.Idx) :
    i ∈ ((cfg2.win 2).blk t).view.set ↔ ∀ a : Fin 2, win2_2.index t a * S1536x1536.size a ≤ (i a).val
      ∧ (i a).val < win2_2.index t a * S1536x1536.size a + S1536x1536.size a := by
  show i ∈ ((View.whole main_v60).slice (win2_2.rect t)).set ↔ _
  rw [View.set_slice_whole, Rect.mem_set_unit]
  exact Iff.rfl

/-- The 8 × 8 blocks cover the output array: entry (r, s) lies in the block of point 8·(r / 1536) + s / 1536. -/
theorem cover2 (i : S12288x12288.Idx) :
    ∃ t : Fin cfg2.N, (cfg2.win 2).flush t = true ∧ i ∈ ((cfg2.win 2).blk t).view.set := by
  have hN : cfg2.N = 64 := N_2
  have hi0 : (i 0).val < 12288 := (i 0).isLt
  have hi1 : (i 1).val < 12288 := (i 1).isLt
  refine ⟨⟨(i 0).val / 1536 * 8 + (i 1).val / 1536, by rw [hN]; omega⟩, flush2_2 _, ?_⟩
  rw [mem_blk2]
  obtain ⟨-, -, -, -, e0, e1⟩ := idx_facts2 ⟨(i 0).val / 1536 * 8 + (i 1).val / 1536, by rw [hN]; omega⟩
  intro a
  match a with
  | ⟨0, _⟩ =>
    show win2_2.index _ (0 : Fin 2) * 1536 ≤ (i 0).val ∧ (i 0).val < win2_2.index _ (0 : Fin 2) * 1536 + 1536
    rw [e0]
    show ((i 0).val / 1536 * 8 + (i 1).val / 1536) / 8 * 1536 ≤ (i 0).val
      ∧ (i 0).val < ((i 0).val / 1536 * 8 + (i 1).val / 1536) / 8 * 1536 + 1536
    omega
  | ⟨1, _⟩ =>
    show win2_2.index _ (1 : Fin 2) * 1536 ≤ (i 1).val ∧ (i 1).val < win2_2.index _ (1 : Fin 2) * 1536 + 1536
    rw [e1]
    show ((i 0).val / 1536 * 8 + (i 1).val / 1536) % 8 * 1536 ≤ (i 1).val
      ∧ (i 1).val < ((i 0).val / 1536 * 8 + (i 1).val / 1536) % 8 * 1536 + 1536
    omega

/-- REGION 2's OUTPUT ARRAY after the region: entry (r, s) is the inner product of rows r and s of the array as the
    region found it. -/
theorem out2 (c : Dev nD) : (dat2 V c).arrAt 2 cfg2.N = G2 (V c main_v58) :=
  (dat2 V c).arrAt_eq_of_cover 2 (G2 (V c main_v58)) (fun t _ => flushed2_eq V c t) cover2

end Cert.KernelIdeal.Closed

end
-- ==== Proof.LibFoldStretch.lean ====
/-
  Two general facts about a straight line of host operations read as a fold over buffer contents, for any program
  signature and any values.

  * The fold over a concatenation of two lines is the fold over the first, then over the second — so a long line can
    be read stretch by stretch, each stretch for ARBITRARY earlier contents (a variable keeps every term small).
  * A typed reference carries its buffer's contents to the value's type and back along one equation of types; the two
    transports undo each other. After the results of a stretch of operations over typed references are rewritten out,
    every intermediate buffer appears as "back ∘ forth" around the operation's value, and these pairs cancel
    syntactically; what is left sits on the stretch's input buffers only, where it is a cast of a variable.
  With both, a stretch of operations outlined from a called function (spelt over typed references) is read as one
  plain function of the few buffers it reads, by: rewrite the results, cancel the pairs, generalize the input
  buffers' contents, and compare.
-/
import Idealize.ShloMosaic.Lib.StableHlo.Run

noncomputable section

namespace Cert.LibFoldStretch

open Idealize.ShloMosaic Idealize.ShloMosaic.StableHlo

variable {τ : Topo} {sig : RefSig} {Val : EltTy → Type}

/-- Folding the operations' results over a concatenation is folding over the first list, then over the second. -/
theorem after_append (xs ys : List (HloOp τ sig Val)) (V : Valuation τ sig Val) :
    after (xs ++ ys) V = after ys (after xs V) := by
  induction xs generalizing V with
  | nil => rfl
  | cons op xs ih => rw [List.cons_append, after_cons, after_cons, ih]

/-- A typed reference's transport to its buffer's type and back is the identity. -/
theorem ofBuf_toBuf {T : BufTy} (x : TRef sig T) (v : T.Contents Val) : x.ofBuf (x.toBuf v) = v := by
  obtain ⟨r, h, h2, h3⟩ := x
  subst h
  rfl

/-- A typed reference's transport from its buffer's type and back is the identity. -/
theorem toBuf_ofBuf {T : BufTy} (x : TRef sig T) (v : x.ref.ty.Contents Val) : x.toBuf (x.ofBuf v) = v := by
  obtain ⟨r, h, h2, h3⟩ := x
  subst h
  rfl

end Cert.LibFoldStretch

end
-- ==== Proof.KI.HostA.lean ====
/-
  What the host operations before the first region leave in the buffers that region reads, at the ideal instance.

  The two per-node scales are ONE function of an edge-endpoint array: count, for every node, the edges whose endpoint it
  is (a scatter-add of ones into zeros), and take the inverse square root of that count (raised to at least one) where
  the count is positive, zero elsewhere. The source scale is that function of the source array, the destination scale of
  the destination array. Region 0 reads the source scale as a column; the feature matrix and the first weight matrix reach
  it as launched.
-/
import proofs.«159144_j70712341561937_2_alg».proof.Proof.Gen.KernelIdeal.Regions
import proofs.«159144_j70712341561937_2_alg».proof.Proof.LibFoldStretch
import Idealize.ShloMosaic.Lib.ValueIdx
import Idealize.ShloMosaic.Lib.Pipeline.Value
import Idealize.ShloMosaic.PureOps.Ideal.Laws

set_option maxRecDepth 16384

noncomputable section

namespace Cert.KernelIdeal.HostV

open Cert.KernelIdeal Cert.KernelIdeal.Gen
open Idealize.ShloMosaic Idealize.ShloMosaic.TcCoe Idealize.ShloMosaic.ValueIdx Idealize.ShloMosaic.StableHlo
open Idealize.SL.Sem
open Cert.LibFoldStretch (ofBuf_toBuf toBuf_ofBuf)

/-- The number of edges with a given endpoint, per node: ones scatter-added into zeros at the endpoint array. -/
def degOf (x : (⟨S405504, .i32⟩ : BufTy).Contents (Elt Ideal)) : (⟨S12288, .f32⟩ : BufTy).Contents (Elt Ideal) :=
  Host.scatterAdd (F := Ideal) scatter_S12288_S405504x1_S405504_n_0_0_1
    (broadcastInDim S12288 ![] bcast_S_S12288 (constant (F := Ideal) S_ .f32 0x00000000#32))
    (broadcastInDim S405504x1 ![0] bcast_S405504_S405504x1_0 x)
    (broadcastInDim S405504 ![] bcast_S_S405504 (constant (F := Ideal) S_ .f32 0x3F800000#32))

/-- Where a count is positive. -/
def posOf (d : (⟨S12288, .f32⟩ : BufTy).Contents (Elt Ideal)) : (⟨S12288, .i1⟩ : BufTy).Contents (Elt Ideal) :=
  cmpf (F := Ideal) (φ := .f32) .ogt d (broadcastInDim S12288 ![] bcast_S_S12288 (constant (F := Ideal) S_ .f32 0x00000000#32))

/-- The inverse square root of a count raised to at least one. -/
def rsqOf (d : (⟨S12288, .f32⟩ : BufTy).Contents (Elt Ideal)) : (⟨S12288, .f32⟩ : BufTy).Contents (Elt Ideal) :=
  Host.rsqrt (F := Ideal) (φ := .f32)
    (maximumf (F := Ideal) (φ := .f32) d (broadcastInDim S12288 ![] bcast_S_S12288 (constant (F := Ideal) S_ .f32 0x3F800000#32)))

/-- The per-node scale of an endpoint array: the inverse square root of the count raised to at least one, where the
    count is positive; zero elsewhere. -/
def scaleOf (x : (⟨S405504, .i32⟩ : BufTy).Contents (Elt Ideal)) : (⟨S12288, .f32⟩ : BufTy).Contents (Elt Ideal) :=
  select (posOf (degOf x)) (rsqOf (degOf x))
    (broadcastInDim S12288 ![] bcast_S_S12288 (id (constant (F := Ideal) S_ .f32 0x00000000#32)))

variable (m : (ℓ : Loc nD τ sig) → Buf (Elt Ideal) ℓ) (outs : Gen.Outs (F := Ideal))

/-- The source scale: the scale of the launched source array. -/
def NS (c : Dev nD) : S12288.Idx → EReal := scaleOf (m ((c : Thread nD τ).loc main_arg1))
/-- The destination scale: the scale of the launched destination array. -/
def ND (c : Dev nD) : S12288.Idx → EReal := scaleOf (m ((c : Thread nD τ).loc main_arg2))

/-! ## The arguments region 0 reads are as launched -/

theorem V5_main_arg0 (c : Dev nD) : Gen.V5 m c main_arg0 = m ((c : Thread nD τ).loc main_arg0) :=
  (Gen.V5_of m c main_arg0 (by decide)).trans <| (Gen.V4_of m c main_arg0 (by decide)).trans <|
    (Gen.V3_of m c main_arg0 (by decide)).trans <| (Gen.V2_of m c main_arg0 (by decide)).trans <|
    (Gen.V1_of m c main_arg0 (by decide))

theorem V5_main_arg3 (c : Dev nD) : Gen.V5 m c main_arg3 = m ((c : Thread nD τ).loc main_arg3) :=
  (Gen.V5_of m c main_arg3 (by decide)).trans <| (Gen.V4_of m c main_arg3 (by decide)).trans <|
    (Gen.V3_of m c main_arg3 (by decide)).trans <| (Gen.V2_of m c main_arg3 (by decide)).trans <|
    (Gen.V1_of m c main_arg3 (by decide))

/-! ## The first stretch: the two counts, and the source side's condition and inverse square root -/

theorem V1_main_v6 (c : Dev nD) :
    (Gen.V1 m c main_v6 : S12288.Idx → EReal) = degOf (m ((c : Thread nD τ).loc main_arg2)) := by
  show StableHlo.after Gen.hostOps0 _ (Proc.devRef .tc main_v6) = _
  after_results
  rfl

theorem V1_main_v8 (c : Dev nD) :
    (Gen.V1 m c main_v8 : S12288.Idx → BitVec 1) = posOf (degOf (m ((c : Thread nD τ).loc main_arg1))) := by
  show StableHlo.after Gen.hostOps0 _ (Proc.devRef .tc main_v8) = _
  after_results
  rfl

theorem V1_main_v11 (c : Dev nD) :
    (Gen.V1 m c main_v11 : S12288.Idx → EReal) = rsqOf (degOf (m ((c : Thread nD τ).loc main_arg1))) := by
  show StableHlo.after Gen.hostOps0 _ (Proc.devRef .tc main_v11) = _
  after_results
  rfl

theorem V1_main_cst_4 (c : Dev nD) :
    (Gen.V1 m c main_cst_4 : S_.Idx → EReal) = constant (F := Ideal) S_ .f32 0x00000000#32 := by
  show StableHlo.after Gen.hostOps0 _ (Proc.devRef .tc main_cst_4) = _
  after_results

/-! ## A selection outlined from a called function, over whatever the buffers it reads hold -/

theorem where0 (W : Valuation τ sig (Elt Ideal)) :
    (StableHlo.after Gen.hostOps0_1 W (Proc.devRef .tc main_v12) : S12288.Idx → EReal)
      = select (W (Proc.devRef .tc main_v8) : S12288.Idx → BitVec 1) (W (Proc.devRef .tc main_v11) : S12288.Idx → EReal)
          (broadcastInDim S12288 ![] bcast_S_S12288 (id (W (Proc.devRef .tc main_cst_4) : S_.Idx → EReal))) := by
  after_results
  simp only [ofBuf_toBuf, toBuf_ofBuf]
  rfl

theorem where1 (W : Valuation τ sig (Elt Ideal)) :
    (StableHlo.after Gen.hostOps0_3 W (Proc.devRef .tc main_v18) : S12288.Idx → EReal)
      = select (W (Proc.devRef .tc main_v14) : S12288.Idx → BitVec 1) (W (Proc.devRef .tc main_v17) : S12288.Idx → EReal)
          (broadcastInDim S12288 ![] bcast_S_S12288 (id (W (Proc.devRef .tc main_cst_7) : S_.Idx → EReal))) := by
  after_results
  simp only [ofBuf_toBuf, toBuf_ofBuf]
  rfl

/-- The destination side's condition, inverse square root and zero, over whatever count the third stretch finds. -/
theorem stretch2 (W : Valuation τ sig (Elt Ideal)) :
    (StableHlo.after Gen.hostOps0_2 W (Proc.devRef .tc main_v14) : S12288.Idx → BitVec 1)
        = posOf (W (Proc.devRef .tc main_v6) : S12288.Idx → EReal)
    ∧ (StableHlo.after Gen.hostOps0_2 W (Proc.devRef .tc main_v17) : S12288.Idx → EReal)
        = rsqOf (W (Proc.devRef .tc main_v6) : S12288.Idx → EReal)
    ∧ (StableHlo.after Gen.hostOps0_2 W (Proc.devRef .tc main_cst_7) : S_.Idx → EReal)
        = constant (F := Ideal) S_ .f32 0x00000000#32 := by
  refine ⟨?_, ?_, ?_⟩
  · after_results; rfl
  · after_results; rfl
  · after_results

/-! ## The two scales -/

/-- After the first selection the source-scale buffer holds the source scale. -/
theorem V2_main_v12 (c : Dev nD) : (Gen.V2 m c main_v12 : S12288.Idx → EReal) = NS m c := by
  refine (where0 (Gen.V1 m c)).trans ?_
  rw [V1_main_v8, V1_main_v11, V1_main_cst_4]
  rfl

/-- After the second selection the destination-scale buffer holds the destination scale. -/
theorem V4_main_v18 (c : Dev nD) : (Gen.V4 m c main_v18 : S12288.Idx → EReal) = ND m c := by
  refine (where1 (Gen.V3 m c)).trans ?_
  obtain ⟨h14, h17, h7⟩ := stretch2 (Gen.V2 m c)
  have h6 : (Gen.V2 m c main_v6 : S12288.Idx → EReal) = degOf (m ((c : Thread nD τ).loc main_arg2)) :=
    (Gen.V2_of m c main_v6 (by decide)).trans (V1_main_v6 m c)
  rw [h6] at h14 h17
  have g14 : (Gen.V3 m c main_v14 : S12288.Idx → BitVec 1) = posOf (degOf (m ((c : Thread nD τ).loc main_arg2))) := h14
  have g17 : (Gen.V3 m c main_v17 : S12288.Idx → EReal) = rsqOf (degOf (m ((c : Thread nD τ).loc main_arg2))) := h17
  have g7 : (Gen.V3 m c main_cst_7 : S_.Idx → EReal) = constant (F := Ideal) S_ .f32 0x00000000#32 := h7
  rw [g14, g17, g7]
  rfl

theorem V5_main_v12 (c : Dev nD) : (Gen.V5 m c main_v12 : S12288.Idx → EReal) = NS m c :=
  ((Gen.V5_of m c main_v12 (by decide)).trans <| (Gen.V4_of m c main_v12 (by decide)).trans <|
    (Gen.V3_of m c main_v12 (by decide))).trans (V2_main_v12 m c)

theorem V5_main_v18 (c : Dev nD) : (Gen.V5 m c main_v18 : S12288.Idx → EReal) = ND m c :=
  (Gen.V5_of m c main_v18 (by decide)).trans (V4_main_v18 m c)

/-- A vector recast as a one-column matrix reads, at row `r`, the vector at `r`. -/
theorem column_apply (x : S12288.Idx → EReal) (r : Fin 12288) (z : Fin 1) :
    shapeCast S12288x1 x shapeCasts_S12288_S12288x1 (ix2 r z) = x (ix1 r) :=
  shapeCast_apply x shapeCasts_S12288_S12288x1 _ _ (by
    have hz : z.val = 0 := by omega
    rw [Shape.rowMajor_val_two, Shape.rowMajor_val_one]
    show r.val = r.val * 1 + z.val
    omega)

/-- The two columns, over whatever the last stretch before region 0 finds in the two scale buffers. -/
theorem columns (W : Valuation τ sig (Elt Ideal)) :
    (StableHlo.after Gen.hostOps0_4 W (Proc.devRef .tc main_v19) : S12288x1.Idx → EReal)
        = shapeCast S12288x1 (W (Proc.devRef .tc main_v12) : S12288.Idx → EReal) shapeCasts_S12288_S12288x1
    ∧ (StableHlo.after Gen.hostOps0_4 W (Proc.devRef .tc main_v20) : S12288x1.Idx → EReal)
        = shapeCast S12288x1 (W (Proc.devRef .tc main_v18) : S12288.Idx → EReal) shapeCasts_S12288_S12288x1 := by
  refine ⟨?_, ?_⟩
  · after_results; rfl
  · after_results; rfl

/-- The source scale's column, whole. -/
theorem V5_main_v19_eq (c : Dev nD) :
    (Gen.V5 m c main_v19 : S12288x1.Idx → EReal) = shapeCast S12288x1 (NS m c) shapeCasts_S12288_S12288x1 := by
  have e := (columns (Gen.V4 m c)).1
  have h12 : (Gen.V4 m c main_v12 : S12288.Idx → EReal) = NS m c :=
    ((Gen.V4_of m c main_v12 (by decide)).trans (Gen.V3_of m c main_v12 (by decide))).trans (V2_main_v12 m c)
  rw [h12] at e
  exact e

/-- The destination scale's column, whole. -/
theorem V5_main_v20_eq (c : Dev nD) :
    (Gen.V5 m c main_v20 : S12288x1.Idx → EReal) = shapeCast S12288x1 (ND m c) shapeCasts_S12288_S12288x1 := by
  have e := (columns (Gen.V4 m c)).2
  rw [V4_main_v18] at e
  exact e

/-- The column region 0 reads holds the source scale. -/
theorem V5_main_v19 (c : Dev nD) (r : Fin 12288) (z : Fin 1) :
    (Gen.V5 m c main_v19 : S12288x1.Idx → EReal) (ix2 r z) = NS m c (ix1 r) :=
  (congrFun (V5_main_v19_eq m c) _).trans (column_apply _ r z)

/-- The destination scale's column. -/
theorem V5_main_v20 (c : Dev nD) (r : Fin 12288) (z : Fin 1) :
    (Gen.V5 m c main_v20 : S12288x1.Idx → EReal) (ix2 r z) = ND m c (ix1 r) :=
  (congrFun (V5_main_v20_eq m c) _).trans (column_apply _ r z)

end Cert.KernelIdeal.HostV

end
-- ==== Proof.KI.HostB.lean ====
/-
  What the host operations between the first and the second region leave in the buffers the second region reads, at the
  ideal instance, for ANY output of the first region.

  One aggregation serves both layers: gather, for every edge, the row of its source node (a negative source number raised
  by the number of nodes) and scatter-add the gathered rows at the destination nodes into zeros. The first layer's
  activation is the aggregate of region 0's output, scaled by the destination scale, plus the first bias, clamped below at
  zero. Region 1's row operand is the aggregate of that activation scaled by the source scale, scaled by the destination
  scale; its matrix operand is the second and third weight matrices side by side, its bias row the two biases end to end.
-/
import proofs.«159144_j70712341561937_2_alg».proof.Proof.KI.HostA
import Idealize.ShloMosaic.Lib.ValueLayout

set_option maxRecDepth 16384

noncomputable section

namespace Cert.KernelIdeal.HostV

open Cert.KernelIdeal Cert.KernelIdeal.Gen
open Idealize.ShloMosaic Idealize.ShloMosaic.TcCoe Idealize.ShloMosaic.ValueIdx Idealize.ShloMosaic.StableHlo
open Idealize.SL.Sem
open Cert.LibFoldStretch (ofBuf_toBuf toBuf_ofBuf)

/-- The gather's row numbers, as a column: the source array with every negative entry raised by the number of nodes. -/
def srcCol (x1 : (⟨S405504, .i32⟩ : BufTy).Contents (Elt Ideal)) : (⟨S405504x1, .i32⟩ : BufTy).Contents (Elt Ideal) :=
  broadcastInDim S405504x1 ![0] bcast_S405504_S405504x1_0
    (select (cmpi .slt x1 (broadcastInDim S405504 ![] bcast_S_S405504 (constantI S_ 32 0#32)))
      (addi x1 (broadcastInDim S405504 ![] bcast_S_S405504 (constantI S_ 32 12288#32))) x1)

/-- The aggregation of a 32-column matrix over the edges: each edge's source row, summed at the edge's destination. -/
def aggOf (x1 x2 : (⟨S405504, .i32⟩ : BufTy).Contents (Elt Ideal)) (Y : (⟨S12288x32, .f32⟩ : BufTy).Contents (Elt Ideal)) :
    (⟨S12288x32, .f32⟩ : BufTy).Contents (Elt Ideal) :=
  Host.scatterAdd (F := Ideal) scatter_S12288x32_S405504x1_S405504x32_1_0_0_1
    (broadcastInDim S12288x32 ![] bcast_S_S12288x32 (constant (F := Ideal) S_ .f32 0x00000000#32))
    (broadcastInDim S405504x1 ![0] bcast_S405504_S405504x1_0 x2)
    (Host.gather gather_S12288x32_S405504x1_S405504x32_1_0_n_n_0_1_132 Y (srcCol x1))

/-- A column spread over 32 columns. -/
def spread (v : (⟨S12288x1, .f32⟩ : BufTy).Contents (Elt Ideal)) : (⟨S12288x32, .f32⟩ : BufTy).Contents (Elt Ideal) :=
  broadcastInDim S12288x32 ![0, 1] bcast_S12288x1_S12288x32_0_1 v

/-- A per-node vector as a column spread over 32 columns. -/
def spreadVec (v : (⟨S12288, .f32⟩ : BufTy).Contents (Elt Ideal)) : (⟨S12288x32, .f32⟩ : BufTy).Contents (Elt Ideal) :=
  spread (broadcastInDim S12288x1 ![0] bcast_S12288_S12288x1_0 v)

/-- A 32-entry bias as a row repeated for every node. -/
def biasRows (b : (⟨S32, .f32⟩ : BufTy).Contents (Elt Ideal)) : (⟨S12288x32, .f32⟩ : BufTy).Contents (Elt Ideal) :=
  broadcastInDim S12288x32 ![0, 1] bcast_S1x32_S12288x32_0_1 (broadcastInDim S1x32 ![1] bcast_S32_S1x32_1 b)

/-- The first layer before its clamp: the aggregate of the projected rows, scaled by a column, plus the bias. -/
def preOf (x1 x2 : (⟨S405504, .i32⟩ : BufTy).Contents (Elt Ideal)) (P : (⟨S12288x32, .f32⟩ : BufTy).Contents (Elt Ideal))
    (col : (⟨S12288x1, .f32⟩ : BufTy).Contents (Elt Ideal)) (b : (⟨S32, .f32⟩ : BufTy).Contents (Elt Ideal)) :
    (⟨S12288x32, .f32⟩ : BufTy).Contents (Elt Ideal) :=
  addf (F := Ideal) (φ := .f32) (mulf (F := Ideal) (φ := .f32) (aggOf x1 x2 P) (spread col)) (biasRows b)

/-- The clamp below at zero. -/
def reluOf (Z : (⟨S12288x32, .f32⟩ : BufTy).Contents (Elt Ideal)) : (⟨S12288x32, .f32⟩ : BufTy).Contents (Elt Ideal) :=
  maximumf (F := Ideal) (φ := .f32) Z (broadcastInDim S12288x32 ![] bcast_S_S12288x32 (constant (F := Ideal) S_ .f32 0x00000000#32))

/-- The second layer's row operand from the first layer's activation and the two scales. -/
def rowsOf (x1 x2 : (⟨S405504, .i32⟩ : BufTy).Contents (Elt Ideal)) (H : (⟨S12288x32, .f32⟩ : BufTy).Contents (Elt Ideal))
    (ns nd : (⟨S12288, .f32⟩ : BufTy).Contents (Elt Ideal)) : (⟨S12288x32, .f32⟩ : BufTy).Contents (Elt Ideal) :=
  mulf (F := Ideal) (φ := .f32) (aggOf x1 x2 (mulf (F := Ideal) (φ := .f32) H (spreadVec ns))) (spreadVec nd)

/-! ## The three stretches, over whatever they find in the buffers they read -/

set_option maxHeartbeats 2000000 in
theorem stretch1 (W : Valuation τ sig (Elt Ideal)) :
    (StableHlo.after Gen.hostOps1 W (Proc.devRef .tc main_v36) : S12288x32.Idx → EReal)
      = preOf (W (Proc.devRef .tc main_arg1)) (W (Proc.devRef .tc main_arg2)) (W (Proc.devRef .tc main_v21))
          (W (Proc.devRef .tc main_v20)) (W (Proc.devRef .tc main_arg4)) := by
  after_results_simp
  rfl

theorem stretchRelu (W : Valuation τ sig (Elt Ideal)) :
    (StableHlo.after Gen.hostOps1_1 W (Proc.devRef .tc main_v37) : S12288x32.Idx → EReal)
      = reluOf (W (Proc.devRef .tc main_v36)) := by
  after_results
  simp only [ofBuf_toBuf, toBuf_ofBuf]
  rfl

set_option maxHeartbeats 2000000 in
theorem stretch2_rows (W : Valuation τ sig (Elt Ideal)) :
    (StableHlo.after Gen.hostOps1_2 W (Proc.devRef .tc main_v53) : S12288x32.Idx → EReal)
      = rowsOf (W (Proc.devRef .tc main_arg1)) (W (Proc.devRef .tc main_arg2)) (W (Proc.devRef .tc main_v37))
          (W (Proc.devRef .tc main_v12)) (W (Proc.devRef .tc main_v18)) := by
  after_results_simp
  rfl

theorem stretch2_mat (W : Valuation τ sig (Elt Ideal)) :
    (StableHlo.after Gen.hostOps1_2 W (Proc.devRef .tc main_v54) : S32x32.Idx → EReal)
      = concatenate S32x32 1 [⟨S32x16, (W (Proc.devRef .tc main_arg5) : S32x16.Idx → EReal)⟩,
          ⟨S32x16, (W (Proc.devRef .tc main_arg7) : S32x16.Idx → EReal)⟩] concatenates_S32x16_S32x16_S32x32_d1 := by
  after_results

set_option maxHeartbeats 2000000 in
theorem stretch2_bias (W : Valuation τ sig (Elt Ideal)) :
    (StableHlo.after Gen.hostOps1_2 W (Proc.devRef .tc main_v56) : S1x32.Idx → EReal)
      = shapeCast S1x32 (concatenate S32 0 [⟨S16, (W (Proc.devRef .tc main_arg6) : S16.Idx → EReal)⟩,
          ⟨S16, (W (Proc.devRef .tc main_arg8) : S16.Idx → EReal)⟩] concatenates_S16_S16_S32_d0) shapeCasts_S32_S1x32 := by
  after_results_simp
  rfl

/-! ## The buffers the three stretches read, as region 0 leaves them -/

variable (m : (ℓ : Loc nD τ sig) → Buf (Elt Ideal) ℓ) (outs : Gen.Outs (F := Ideal))

theorem V6_main_v21 (c : Dev nD) : Gen.V6 m outs c main_v21 = outs 6 main_v21 c := by
  show Function.update (Gen.V5 m c) (Proc.devRef .tc main_v21) (outs 6 main_v21 c) (Proc.devRef .tc main_v21) = _
  exact Function.update_self ..

theorem V6_main_arg1 (c : Dev nD) : Gen.V6 m outs c main_arg1 = m ((c : Thread nD τ).loc main_arg1) :=
  (Gen.V6_of m outs c main_arg1 (by decide)).trans <| (Gen.V5_of m c main_arg1 (by decide)).trans <|
    (Gen.V4_of m c main_arg1 (by decide)).trans <| (Gen.V3_of m c main_arg1 (by decide)).trans <|
    (Gen.V2_of m c main_arg1 (by decide)).trans <| (Gen.V1_of m c main_arg1 (by decide))

theorem V6_main_arg2 (c : Dev nD) : Gen.V6 m outs c main_arg2 = m ((c : Thread nD τ).loc main_arg2) :=
  (Gen.V6_of m outs c main_arg2 (by decide)).trans <| (Gen.V5_of m c main_arg2 (by decide)).trans <|
    (Gen.V4_of m c main_arg2 (by decide)).trans <| (Gen.V3_of m c main_arg2 (by decide)).trans <|
    (Gen.V2_of m c main_arg2 (by decide)).trans <| (Gen.V1_of m c main_arg2 (by decide))

theorem V6_main_arg4 (c : Dev nD) : Gen.V6 m outs c main_arg4 = m ((c : Thread nD τ).loc main_arg4) :=
  (Gen.V6_of m outs c main_arg4 (by decide)).trans <| (Gen.V5_of m c main_arg4 (by decide)).trans <|
    (Gen.V4_of m c main_arg4 (by decide)).trans <| (Gen.V3_of m c main_arg4 (by decide)).trans <|
    (Gen.V2_of m c main_arg4 (by decide)).trans <| (Gen.V1_of m c main_arg4 (by decide))

theorem V6_main_v20 (c : Dev nD) :
    (Gen.V6 m outs c main_v20 : S12288x1.Idx → EReal) = shapeCast S12288x1 (ND m c) shapeCasts_S12288_S12288x1 :=
  (Gen.V6_of m outs c main_v20 (by decide)).trans (V5_main_v20_eq m c)

theorem V8_main_arg1 (c : Dev nD) : Gen.V8 m outs c main_arg1 = m ((c : Thread nD τ).loc main_arg1) :=
  (Gen.V8_of m outs c main_arg1 (by decide)).trans <| (Gen.V7_of m outs c main_arg1 (by decide)).trans (V6_main_arg1 m outs c)

theorem V8_main_arg2 (c : Dev nD) : Gen.V8 m outs c main_arg2 = m ((c : Thread nD τ).loc main_arg2) :=
  (Gen.V8_of m outs c main_arg2 (by decide)).trans <| (Gen.V7_of m outs c main_arg2 (by decide)).trans (V6_main_arg2 m outs c)

theorem V8_main_v12 (c : Dev nD) : (Gen.V8 m outs c main_v12 : S12288.Idx → EReal) = NS m c :=
  ((Gen.V8_of m outs c main_v12 (by decide)).trans <| (Gen.V7_of m outs c main_v12 (by decide)).trans <|
    (Gen.V6_of m outs c main_v12 (by decide))).trans (V5_main_v12 m c)

theorem V8_main_v18 (c : Dev nD) : (Gen.V8 m outs c main_v18 : S12288.Idx → EReal) = ND m c :=
  ((Gen.V8_of m outs c main_v18 (by decide)).trans <| (Gen.V7_of m outs c main_v18 (by decide)).trans <|
    (Gen.V6_of m outs c main_v18 (by decide))).trans (V5_main_v18 m c)

/-- A weight or bias argument is, when the last stretch before region 1 reads it, as launched. -/
theorem V8_arg (c : Dev nD) (r : Ref sig .tc)
    (h8 : r ∉ Gen.hostOps1_1_W) (h7 : r ∉ Gen.hostOps1_W) (h6 : r ∉ ([main_v21] : List (Ref sig .tc)))
    (h5 : r ∉ Gen.hostOps0_4_W) (h4 : r ∉ Gen.hostOps0_3_W) (h3 : r ∉ Gen.hostOps0_2_W) (h2 : r ∉ Gen.hostOps0_1_W)
    (h1 : r ∉ Gen.hostOps0_W) : Gen.V8 m outs c r = m ((c : Thread nD τ).loc r) :=
  (Gen.V8_of m outs c r h8).trans <| (Gen.V7_of m outs c r h7).trans <| (Gen.V6_of m outs c r h6).trans <|
    (Gen.V5_of m c r h5).trans <| (Gen.V4_of m c r h4).trans <| (Gen.V3_of m c r h3).trans <|
    (Gen.V2_of m c r h2).trans <| (Gen.V1_of m c r h1)

/-! ## The first layer's activation and region 1's row operand -/

/-- The first layer's activation, for whatever region 0 left in its output buffer: the aggregate of that output,
    scaled by the destination scale, plus the first bias, clamped below at zero. -/
def H1 (c : Dev nD) : S12288x32.Idx → EReal :=
  reluOf (preOf (m ((c : Thread nD τ).loc main_arg1)) (m ((c : Thread nD τ).loc main_arg2)) (outs 6 main_v21 c)
    (shapeCast S12288x1 (ND m c) shapeCasts_S12288_S12288x1) (m ((c : Thread nD τ).loc main_arg4)))

/-- Region 1's row operand: the aggregate of the activation scaled by the source scale, scaled by the destination
    scale. -/
def X53 (c : Dev nD) : S12288x32.Idx → EReal :=
  rowsOf (m ((c : Thread nD τ).loc main_arg1)) (m ((c : Thread nD τ).loc main_arg2)) (H1 m outs c) (NS m c) (ND m c)

theorem V8_main_v37 (c : Dev nD) : (Gen.V8 m outs c main_v37 : S12288x32.Idx → EReal) = H1 m outs c := by
  refine (stretchRelu (Gen.V7 m outs c)).trans ?_
  have e : (Gen.V7 m outs c main_v36 : S12288x32.Idx → EReal)
      = preOf (m ((c : Thread nD τ).loc main_arg1)) (m ((c : Thread nD τ).loc main_arg2)) (outs 6 main_v21 c)
          (shapeCast S12288x1 (ND m c) shapeCasts_S12288_S12288x1) (m ((c : Thread nD τ).loc main_arg4)) := by
    refine (stretch1 (Gen.V6 m outs c)).trans ?_
    rw [V6_main_arg1, V6_main_arg2, V6_main_v21, V6_main_v20, V6_main_arg4]
  rw [e]
  rfl

/-- What region 1 finds in its row operand's buffer. -/
theorem V9_main_v53 (c : Dev nD) : (Gen.V9 m outs c main_v53 : S12288x32.Idx → EReal) = X53 m outs c := by
  refine (stretch2_rows (Gen.V8 m outs c)).trans ?_
  rw [V8_main_arg1, V8_main_arg2, V8_main_v37, V8_main_v12, V8_main_v18]
  rfl

/-! ## Region 1's matrix and bias operands: two weight matrices side by side, two biases end to end -/

theorem V9_main_v54_eq (c : Dev nD) :
    (Gen.V9 m outs c main_v54 : S32x32.Idx → EReal)
      = concatenate S32x32 1 [⟨S32x16, (m ((c : Thread nD τ).loc main_arg5) : S32x16.Idx → EReal)⟩,
          ⟨S32x16, (m ((c : Thread nD τ).loc main_arg7) : S32x16.Idx → EReal)⟩] concatenates_S32x16_S32x16_S32x32_d1 := by
  refine (stretch2_mat (Gen.V8 m outs c)).trans ?_
  rw [V8_arg m outs c main_arg5 (by decide) (by decide) (by decide) (by decide) (by decide) (by decide) (by decide) (by decide),
    V8_arg m outs c main_arg7 (by decide) (by decide) (by decide) (by decide) (by decide) (by decide) (by decide) (by decide)]

theorem V9_main_v56_eq (c : Dev nD) :
    (Gen.V9 m outs c main_v56 : S1x32.Idx → EReal)
      = shapeCast S1x32 (concatenate S32 0 [⟨S16, (m ((c : Thread nD τ).loc main_arg6) : S16.Idx → EReal)⟩,
          ⟨S16, (m ((c : Thread nD τ).loc main_arg8) : S16.Idx → EReal)⟩] concatenates_S16_S16_S32_d0) shapeCasts_S32_S1x32 := by
  refine (stretch2_bias (Gen.V8 m outs c)).trans ?_
  rw [V8_arg m outs c main_arg6 (by decide) (by decide) (by decide) (by decide) (by decide) (by decide) (by decide) (by decide),
    V8_arg m outs c main_arg8 (by decide) (by decide) (by decide) (by decide) (by decide) (by decide) (by decide) (by decide)]

/-- Columns 0 to 15 of the matrix operand are the second weight matrix. -/
theorem V9_main_v54_left (c : Dev nD) (k : Fin 32) (j : Fin 16) :
    (Gen.V9 m outs c main_v54 : S32x32.Idx → EReal) (ix2 k (⟨j.val, by omega⟩ : Fin 32))
      = (m ((c : Thread nD τ).loc main_arg5) : S32x16.Idx → EReal) (ix2 k j) := by
  rw [V9_main_v54_eq]
  exact concatenate_pair_apply_left (t := S32x32) (s₁ := S32x16) (s₂ := S32x16) (1 : Fin 2) _ _
    concatenates_S32x16_S32x16_S32x32_d1 (ix2 k (⟨j.val, by omega⟩ : Fin 32)) rfl (ix2 k j)
    (fun b => match b with | ⟨0, _⟩ => rfl | ⟨1, _⟩ => rfl)

/-- Columns 16 to 31 of the matrix operand are the third weight matrix. -/
theorem V9_main_v54_right (c : Dev nD) (k : Fin 32) (j : Fin 16) :
    (Gen.V9 m outs c main_v54 : S32x32.Idx → EReal) (ix2 k (⟨16 + j.val, by omega⟩ : Fin 32))
      = (m ((c : Thread nD τ).loc main_arg7) : S32x16.Idx → EReal) (ix2 k j) := by
  rw [V9_main_v54_eq]
  exact concatenate_pair_apply_right (t := S32x32) (s₁ := S32x16) (s₂ := S32x16) (1 : Fin 2) _ _
    concatenates_S32x16_S32x16_S32x32_d1 (ix2 k (⟨16 + j.val, by omega⟩ : Fin 32)) rfl rfl (ix2 k j)
    (fun b => match b with | ⟨0, _⟩ => fun _ => rfl | ⟨1, _⟩ => fun h => absurd rfl h)
    (by show j.val + 16 = 16 + j.val; omega)

/-- Entries 0 to 15 of the bias row are the second bias. -/
theorem V9_main_v56_left (c : Dev nD) (z : Fin 1) (j : Fin 16) :
    (Gen.V9 m outs c main_v56 : S1x32.Idx → EReal) (ix2 z (⟨j.val, by omega⟩ : Fin 32))
      = (m ((c : Thread nD τ).loc main_arg6) : S16.Idx → EReal) (ix1 j) := by
  rw [V9_main_v56_eq]
  refine (shapeCast_a_1a_apply _ shapeCasts_S32_S1x32 z _).trans ?_
  exact concatenate_pair_apply_left (t := S32) (s₁ := S16) (s₂ := S16) (0 : Fin 1) _ _
    concatenates_S16_S16_S32_d0 (ix1 (⟨j.val, by omega⟩ : Fin 32)) rfl (ix1 j)
    (fun b => match b with | ⟨0, _⟩ => rfl)

/-- Entries 16 to 31 of the bias row are the third bias. -/
theorem V9_main_v56_right (c : Dev nD) (z : Fin 1) (j : Fin 16) :
    (Gen.V9 m outs c main_v56 : S1x32.Idx → EReal) (ix2 z (⟨16 + j.val, by omega⟩ : Fin 32))
      = (m ((c : Thread nD τ).loc main_arg8) : S16.Idx → EReal) (ix1 j) := by
  rw [V9_main_v56_eq]
  refine (shapeCast_a_1a_apply _ shapeCasts_S32_S1x32 z _).trans ?_
  exact concatenate_pair_apply_right (t := S32) (s₁ := S16) (s₂ := S16) (0 : Fin 1) _ _
    concatenates_S16_S16_S32_d0 (ix1 (⟨16 + j.val, by omega⟩ : Fin 32)) rfl rfl (ix1 j)
    (fun b => match b with | ⟨0, _⟩ => fun h => absurd rfl h)
    (by show j.val + 16 = 16 + j.val; omega)

end Cert.KernelIdeal.HostV

end
-- ==== Proof.KI.HostC.lean ====
/-
  What the program returns, at the ideal instance, for ANY outputs of the three regions: the third region's output
  whole, and the left and the right sixteen columns of the second region's output.
-/
import proofs.«159144_j70712341561937_2_alg».proof.Proof.Gen.KernelIdeal.Regions
import Idealize.ShloMosaic.Lib.ValueIdx
import Idealize.ShloMosaic.Lib.ValueLayout
import Idealize.ShloMosaic.Lib.Pipeline.Value

set_option maxRecDepth 16384

noncomputable section

namespace Cert.KernelIdeal.HostV

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (outs : Gen.Outs (F := Ideal))

/-- The two column halves, over whatever the last stretch finds in the buffer it cuts. -/
theorem halves (W : Valuation τ sig (Elt Ideal)) :
    (StableHlo.after Gen.hostOps2 W (Proc.devRef .tc main_v58) : S12288x16.Idx → EReal)
        = extractStridedSlice S12288x16 ![0, 0] (W (Proc.devRef .tc main_v57) : S12288x32.Idx → EReal) slices_S12288x32_S12288x16_0_0
    ∧ (StableHlo.after Gen.hostOps2 W (Proc.devRef .tc main_v59) : S12288x16.Idx → EReal)
        = extractStridedSlice S12288x16 ![0, 16] (W (Proc.devRef .tc main_v57) : S12288x32.Idx → EReal) slices_S12288x32_S12288x16_0_16 := by
  refine ⟨?_, ?_⟩
  · after_results
  · after_results

/-- The buffer the last stretch cuts holds the second region's output. -/
theorem V10_main_v57 (c : Dev nD) : Gen.V10 m outs c main_v57 = outs 10 main_v57 c := by
  show Function.update (Gen.V9 m outs c) (Proc.devRef .tc main_v57) (outs 10 main_v57 c) (Proc.devRef .tc main_v57) = _
  exact Function.update_self ..

/-- The first result is the third region's output. -/
theorem V12_main_v60 (c : Dev nD) : Gen.V12 m outs c main_v60 = outs 12 main_v60 c := by
  show Function.update (Gen.V11 m outs c) (Proc.devRef .tc main_v60) (outs 12 main_v60 c) (Proc.devRef .tc main_v60) = _
  exact Function.update_self ..

/-- The left half, which the third region reads and the program returns second: columns 0 to 15 of the second
    region's output. -/
theorem V11_main_v58 (c : Dev nD) (r : Fin 12288) (j : Fin 16) :
    (Gen.V11 m outs c main_v58 : S12288x16.Idx → EReal) (ix2 r j)
      = (outs 10 main_v57 c : S12288x32.Idx → EReal) (ix2 r (⟨j.val, by omega⟩ : Fin 32)) := by
  have e := (halves (Gen.V10 m outs c)).1
  rw [V10_main_v57] at e
  refine (congrFun e _).trans ?_
  exact slice2_axis1_apply 0 _ slices_S12288x32_S12288x16_0_0 r j ⟨j.val, by omega⟩ (by simp)

/-- The right half, which the program returns third: columns 16 to 31 of the second region's output. -/
theorem V11_main_v59 (c : Dev nD) (r : Fin 12288) (j : Fin 16) :
    (Gen.V11 m outs c main_v59 : S12288x16.Idx → EReal) (ix2 r j)
      = (outs 10 main_v57 c : S12288x32.Idx → EReal) (ix2 r (⟨16 + j.val, by omega⟩ : Fin 32)) := by
  have e := (halves (Gen.V10 m outs c)).2
  rw [V10_main_v57] at e
  refine (congrFun e _).trans ?_
  exact slice2_axis1_apply 16 _ slices_S12288x32_S12288x16_0_16 r j ⟨16 + j.val, by omega⟩ rfl

theorem V12_main_v58 (c : Dev nD) (r : Fin 12288) (j : Fin 16) :
    (Gen.V12 m outs c main_v58 : S12288x16.Idx → EReal) (ix2 r j)
      = (outs 10 main_v57 c : S12288x32.Idx → EReal) (ix2 r (⟨j.val, by omega⟩ : Fin 32)) :=
  (congrFun (Gen.V12_of m outs c main_v58 (by decide)) _).trans (V11_main_v58 m outs c r j)

theorem V12_main_v59 (c : Dev nD) (r : Fin 12288) (j : Fin 16) :
    (Gen.V12 m outs c main_v59 : S12288x16.Idx → EReal) (ix2 r j)
      = (outs 10 main_v57 c : S12288x32.Idx → EReal) (ix2 r (⟨16 + j.val, by omega⟩ : Fin 32)) :=
  (congrFun (Gen.V12_of m outs c main_v59 (by decide)) _).trans (V11_main_v59 m outs c r j)

end Cert.KernelIdeal.HostV

end
-- ==== Proof.KI.HostD.lean ====
/-
  The host stages of the projected-first program, named in the reference program's own words, at the ideal instance.

  The two programs spell the same host operations over records of the same literals, so each stage of one IS the stage
  of the other once the argument arrays agree: the two degree scales, the gather's column of normalised source numbers,
  the scatter's column of destination numbers, and the aggregation. With them the first layer's activation and region
  1's row operand are read entry by entry in the shape in which the reference's stages are stated.
-/
import proofs.«159144_j70712341561937_2_alg».proof.Proof.KI.HostB
import proofs.«159144_j70712341561937_2_alg».proof.Proof.RefRead
import proofs.«159144_j70712341561937_2_alg».proof.Proof.LibSegment

set_option maxRecDepth 16384

noncomputable section

namespace Cert.KernelIdeal.HostV

open Cert.KernelIdeal Cert.KernelIdeal.Gen
open Idealize.ShloMosaic Idealize.ShloMosaic.TcCoe Idealize.ShloMosaic.ValueIdx
open Idealize.SL.Sem

/-! ## The stages are the reference's -/

/-- The scale of an endpoint array is the reference's source scale of that array. -/
theorem scaleOf_eq_ref_src (x1 : (⟨S405504, .i32⟩ : BufTy).Contents (Elt Ideal)) :
    scaleOf x1 = Cert.ReferenceIdeal.Read.val_main_v12 (F := Ideal) x1 := rfl

/-- The scale of an endpoint array is the reference's destination scale of that array. -/
theorem scaleOf_eq_ref_dst (x2 : (⟨S405504, .i32⟩ : BufTy).Contents (Elt Ideal)) :
    scaleOf x2 = Cert.ReferenceIdeal.Read.val_main_v18 (F := Ideal) x2 := rfl

/-- The gather's column of normalised source numbers is the reference's. -/
theorem srcCol_eq_ref (x1 : (⟨S405504, .i32⟩ : BufTy).Contents (Elt Ideal)) :
    srcCol x1 = Cert.ReferenceIdeal.Read.val_main_v27 (F := Ideal) x1 := rfl

/-- The scatter's column of destination numbers is the reference's. -/
theorem dstCol_eq_ref (x2 : (⟨S405504, .i32⟩ : BufTy).Contents (Elt Ideal)) :
    broadcastInDim S405504x1 ![0] bcast_S405504_S405504x1_0 x2 = Cert.ReferenceIdeal.Read.val_main_v30 (F := Ideal) x2 := rfl

/-- The aggregation, in the reference's words. -/
theorem aggOf_eq_ref (x1 x2 : (⟨S405504, .i32⟩ : BufTy).Contents (Elt Ideal)) (Y : S12288x32.Idx → EReal) :
    aggOf x1 x2 Y
      = Host.scatterAdd (F := Ideal) (φ := .f32) Cert.ReferenceIdeal.scatter_S12288x32_S405504x1_S405504x32_1_0_0_1
          (broadcastInDim Cert.ReferenceIdeal.S12288x32 ![] Cert.ReferenceIdeal.Facts₀.bcast_S_S12288x32
            (constant (F := Ideal) Cert.ReferenceIdeal.S_ .f32 0x00000000#32))
          (Cert.ReferenceIdeal.Read.val_main_v30 (F := Ideal) x2)
          (Host.gather Cert.ReferenceIdeal.gather_S12288x32_S405504x1_S405504x32_1_0_n_n_0_1_132 Y
            (Cert.ReferenceIdeal.Read.val_main_v27 (F := Ideal) x1)) := rfl

variable (m : (ℓ : Loc nD τ sig) → Buf (Elt Ideal) ℓ) (outs : Gen.Outs (F := Ideal))

/-- The source scale is the reference's, of the launched source array. -/
theorem NS_eq_ref (c : Dev nD) :
    NS m c = Cert.ReferenceIdeal.Read.val_main_v12 (F := Ideal) (m ((c : Thread nD τ).loc main_arg1)) := rfl

/-- The destination scale is the reference's, of the launched destination array. -/
theorem ND_eq_ref (c : Dev nD) :
    ND m c = Cert.ReferenceIdeal.Read.val_main_v18 (F := Ideal) (m ((c : Thread nD τ).loc main_arg2)) := rfl

/-! ## Entries -/

/-- A per-node vector spread over 32 columns reads, at `(r, k)`, the vector at `r`. -/
theorem spreadVec_apply (v : S12288.Idx → EReal) (r : Fin 12288) (k : Fin 32) : spreadVec v (ix2 r k) = v (ix1 r) :=
  Cert.LibSegment.vecBroadcast_apply bcast_S12288_S12288x1_0 bcast_S12288x1_S12288x32_0_1 v r k

/-- A column spread over 32 columns reads, at `(r, k)`, the column at `(r, 0)`. -/
theorem spread_apply (col : S12288x1.Idx → EReal) (r : Fin 12288) (k : Fin 32) : spread col (ix2 r k) = col (ix2 r 0) :=
  Cert.LibSegment.rowBroadcast_apply bcast_S12288x1_S12288x32_0_1 col r k

/-- A bias repeated for every node reads, at `(r, j)`, the bias at `j`. -/
theorem biasRows_apply (b : S32.Idx → EReal) (r : Fin 12288) (j : Fin 32) : biasRows b (ix2 r j) = b (ix1 j) := by
  unfold biasRows
  refine (broadcastInDim_apply _ bcast_S1x32_S12288x32_0_1 _ (ix2 r j) (ix2 (0 : Fin 1) j) ?_).trans ?_
  · intro a
    match a with
    | ⟨0, _⟩ => rfl
    | ⟨1, _⟩ => rfl
  · refine broadcastInDim_apply _ bcast_S32_S1x32_1 b (ix2 (0 : Fin 1) j) (ix1 j) ?_
    intro a
    match a with
    | ⟨0, _⟩ => rfl

/-- THE FIRST LAYER'S ACTIVATION AT AN ENTRY: the aggregate of region 0's output at `(r, j)`, times the destination
    scale at `r`, plus the first bias at `j`, or zero if that is larger. -/
theorem H1_apply (c : Dev nD) (r : Fin 12288) (j : Fin 32) :
    H1 m outs c (ix2 r j)
      = max ((Host.scatterAdd (F := Ideal) (φ := .f32) Cert.ReferenceIdeal.scatter_S12288x32_S405504x1_S405504x32_1_0_0_1
            (broadcastInDim Cert.ReferenceIdeal.S12288x32 ![] Cert.ReferenceIdeal.Facts₀.bcast_S_S12288x32
              (constant (F := Ideal) Cert.ReferenceIdeal.S_ .f32 0x00000000#32))
            (Cert.ReferenceIdeal.Read.val_main_v30 (F := Ideal) (m ((c : Thread nD τ).loc main_arg2)))
            (Host.gather Cert.ReferenceIdeal.gather_S12288x32_S405504x1_S405504x32_1_0_n_n_0_1_132 (outs 6 main_v21 c)
              (Cert.ReferenceIdeal.Read.val_main_v27 (F := Ideal) (m ((c : Thread nD τ).loc main_arg1))))
            (ix2 r j)
          * Cert.ReferenceIdeal.Read.val_main_v18 (F := Ideal) (m ((c : Thread nD τ).loc main_arg2)) (ix1 r))
        + (m ((c : Thread nD τ).loc main_arg4) : S32.Idx → EReal) (ix1 j)) 0 := by
  unfold H1 reluOf preOf
  rw [maximumf_apply, addf_apply, mulf_apply, spread_apply, column_apply, biasRows_apply, ND_eq_ref, aggOf_eq_ref]
  congr 1
  exact Ideal.ofBits_zero_f32

/-- REGION 1'S ROW OPERAND AT AN ENTRY: the aggregate of the activation scaled by the source scale, at `(r, k)`, times
    the destination scale spread over the columns at `(r, k)`. -/
theorem V9_main_v53_apply (c : Dev nD) (r : Fin 12288) (k : Fin 32) :
    (Gen.V9 m outs c main_v53 : S12288x32.Idx → EReal) (ix2 r k)
      = Host.scatterAdd (F := Ideal) (φ := .f32) Cert.ReferenceIdeal.scatter_S12288x32_S405504x1_S405504x32_1_0_0_1
          (broadcastInDim Cert.ReferenceIdeal.S12288x32 ![] Cert.ReferenceIdeal.Facts₀.bcast_S_S12288x32
            (constant (F := Ideal) Cert.ReferenceIdeal.S_ .f32 0x00000000#32))
          (Cert.ReferenceIdeal.Read.val_main_v30 (F := Ideal) (m ((c : Thread nD τ).loc main_arg2)))
          (Host.gather Cert.ReferenceIdeal.gather_S12288x32_S405504x1_S405504x32_1_0_n_n_0_1_132
            (mulf (F := Ideal) (φ := .f32) (H1 m outs c) (spreadVec (NS m c)))
            (Cert.ReferenceIdeal.Read.val_main_v27 (F := Ideal) (m ((c : Thread nD τ).loc main_arg1))))
          (ix2 r k)
        * spreadVec (ND m c) (ix2 r k) := by
  rw [V9_main_v53]
  unfold X53 rowsOf
  rw [mulf_apply, aggOf_eq_ref]

/-- The source scale spread over the columns reads the reference's source scale. -/
theorem NSB_apply (c : Dev nD) (r : Fin 12288) (k : Fin 32) :
    spreadVec (NS m c) (ix2 r k)
      = Cert.ReferenceIdeal.Read.val_main_v12 (F := Ideal) (m ((c : Thread nD τ).loc main_arg1)) (ix1 r) := by
  rw [spreadVec_apply, NS_eq_ref]

/-- The destination scale spread over the columns reads the reference's destination scale. -/
theorem NDB_apply (c : Dev nD) (r : Fin 12288) (k : Fin 32) :
    spreadVec (ND m c) (ix2 r k)
      = Cert.ReferenceIdeal.Read.val_main_v18 (F := Ideal) (m ((c : Thread nD τ).loc main_arg2)) (ix1 r) := by
  rw [spreadVec_apply, ND_eq_ref]

end Cert.KernelIdeal.HostV

end
-- ==== Proof.KI.Finite.lean ====
import proofs.«159144_j70712341561937_2_alg».proof.Defs
import proofs.«159144_j70712341561937_2_alg».proof.Proof.Gen.Pre_finite_inputs
import Idealize.ShloMosaic.Lib.ReduceAll
import Idealize.ShloMosaic.Lib.ValueIdx
import Idealize.ShloMosaic.PureOps.Ideal.Laws

set_option maxRecDepth 16384

noncomputable section

namespace Cert.KernelIdeal.HostV

open Idealize.ShloMosaic Idealize.ShloMosaic.TcCoe Idealize.SL.Sem
open Idealize.ShloMosaic.ValueIdx

/-! Every float argument of the program is finite: the precondition says that, for each of them, `|x| < +∞` holds at
    every entry (seven `all`s joined by `and`); on the extended reals that makes every entry a real number. -/

open Cert.Pre_finite_inputs (S_)

instance subsingleton_scalarIdx : Subsingleton S_.Idx := ⟨fun a b => funext fun d => d.elim0⟩

/-- The word 0x7F800000 read as an extended real is +∞. -/
theorem top_word : Ideal.ofBits .f32 0x7F800000#32 = (⊤ : EReal) := by simp [Ideal.ofBits, Ideal.ieee]

/-- An extended real whose absolute value is below +∞ is a real number. -/
theorem real_of_abs_lt_top (a : EReal)
    (h : Ideal.cmp .olt (max a (-a)) (Ideal.ofBits .f32 0x7F800000#32) = 1#1) : ∃ v : ℝ, a = (v : EReal) := by
  rw [top_word] at h
  have hlt : max a (-a) < ⊤ := by
    by_contra hn
    unfold Ideal.cmp at h
    dsimp only at h
    rw [decide_eq_false hn] at h
    exact absurd h (by decide)
  obtain ⟨h1, h2⟩ := max_lt_iff.1 hlt
  have ht : a ≠ ⊤ := ne_of_lt h1
  have hb : a ≠ ⊥ := by
    rintro rfl
    exact absurd h2 (by simp)
  exact ⟨a.toReal, (EReal.coe_toReal ht hb).symm⟩

/-- One `all(|x| < +∞)` that came out true: every entry of `x` is a real number. -/
theorem real_of_all_lt_top {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1)
    (i : s.Idx) : ∃ v : ℝ, x i = (v : EReal) :=
  real_of_abs_lt_top (x i) (Host.reduce_andi_all _ _ hr hu ix0 e i)

section
open Cert.KernelIdeal

variable (m : (ℓ : Loc nD τ sig) → Buf (Elt Ideal) ℓ)

/-- The precondition, conjunct by conjunct: each of the seven float arguments passed its `all(|x| < +∞)`, so each of
    their entries is a real number. -/
theorem pre_split (h : Cert.Pre_KernelIdeal m) (c : Dev nD) :
    ((∀ i, ∃ v : ℝ, (m ((c.tc : Thread nD τ).loc main_arg0) : S12288x512.Idx → EReal) i = (v : EReal))
      ∧ (∀ i, ∃ v : ℝ, (m ((c.tc : Thread nD τ).loc main_arg3) : S512x32.Idx → EReal) i = (v : EReal))
      ∧ (∀ i, ∃ v : ℝ, (m ((c.tc : Thread nD τ).loc main_arg4) : S32.Idx → EReal) i = (v : EReal))
      ∧ (∀ i, ∃ v : ℝ, (m ((c.tc : Thread nD τ).loc main_arg5) : S32x16.Idx → EReal) i = (v : EReal)))
    ∧ (∀ i, ∃ v : ℝ, (m ((c.tc : Thread nD τ).loc main_arg6) : S16.Idx → EReal) i = (v : EReal))
      ∧ (∀ i, ∃ v : ℝ, (m ((c.tc : Thread nD τ).loc main_arg7) : S32x16.Idx → EReal) i = (v : EReal))
      ∧ (∀ i, ∃ v : ℝ, (m ((c.tc : Thread nD τ).loc main_arg8) : S16.Idx → EReal) i = (v : EReal)) := by
  have h0 := congrFun (h c) ValueIdx.ix0
  dsimp only [Cert.Pre_finite_inputs.fn, Cert.Pre_finite_inputs.fn_part1] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨⟨real_of_all_lt_top _ _ _ _ e0, real_of_all_lt_top _ _ _ _ e3, real_of_all_lt_top _ _ _ _ e4,
    real_of_all_lt_top _ _ _ _ e5⟩, real_of_all_lt_top _ _ _ _ e6, real_of_all_lt_top _ _ _ _ e7,
    real_of_all_lt_top _ _ _ _ e8⟩

/-- Every feature is a real number. -/
theorem finite_arg0 (h : Cert.Pre_KernelIdeal m) (c : Dev nD) (i : S12288x512.Idx) :
    ∃ v : ℝ, (m ((c.tc : Thread nD τ).loc main_arg0) : S12288x512.Idx → EReal) i = (v : EReal) :=
  (pre_split m h c).1.1 i
/-- Every entry of the first layer's weight matrix is a real number. -/
theorem finite_arg3 (h : Cert.Pre_KernelIdeal m) (c : Dev nD) (i : S512x32.Idx) :
    ∃ v : ℝ, (m ((c.tc : Thread nD τ).loc main_arg3) : S512x32.Idx → EReal) i = (v : EReal) :=
  (pre_split m h c).1.2.1 i
/-- Every entry of the first layer's bias is a real number. -/
theorem finite_arg4 (h : Cert.Pre_KernelIdeal m) (c : Dev nD) (i : S32.Idx) :
    ∃ v : ℝ, (m ((c.tc : Thread nD τ).loc main_arg4) : S32.Idx → EReal) i = (v : EReal) :=
  (pre_split m h c).1.2.2.1 i
/-- And of the two second-layer weight matrices and their biases. -/
theorem finite_arg5 (h : Cert.Pre_KernelIdeal m) (c : Dev nD) (i : S32x16.Idx) :
    ∃ v : ℝ, (m ((c.tc : Thread nD τ).loc main_arg5) : S32x16.Idx → EReal) i = (v : EReal) :=
  (pre_split m h c).1.2.2.2 i
theorem finite_arg6 (h : Cert.Pre_KernelIdeal m) (c : Dev nD) (i : S16.Idx) :
    ∃ v : ℝ, (m ((c.tc : Thread nD τ).loc main_arg6) : S16.Idx → EReal) i = (v : EReal) :=
  (pre_split m h c).2.1 i
theorem finite_arg7 (h : Cert.Pre_KernelIdeal m) (c : Dev nD) (i : S32x16.Idx) :
    ∃ v : ℝ, (m ((c.tc : Thread nD τ).loc main_arg7) : S32x16.Idx → EReal) i = (v : EReal) :=
  (pre_split m h c).2.2.1 i
theorem finite_arg8 (h : Cert.Pre_KernelIdeal m) (c : Dev nD) (i : S16.Idx) :
    ∃ v : ℝ, (m ((c.tc : Thread nD τ).loc main_arg8) : S16.Idx → EReal) i = (v : EReal) :=
  (pre_split m h c).2.2.2 i

end

end Cert.KernelIdeal.HostV

end
-- ==== Proof.Values.lean ====
/-
  The kernel program's three results are the reference's, at the ideal instance (floats are extended reals, every
  operation exact), core by core.

  What each of the kernel program's three regions leaves in its output array is known as one function of the arrays
  it read; what the host operations between the regions compute is known as functions of the launch arguments and of
  the regions' outputs.  Chained, these say: region 0's output is the features scaled by the source norm times the
  first weight matrix; the first layer is the larger of zero and its aggregate scaled by the target norm plus the
  bias; region 1 reads the scaled aggregate of the scaled first layer, the second and third weight matrices side by
  side and the two biases end to end; the program returns the two halves of region 1's output and region 2's
  output, the product of the left half with its own transpose.  That is the chain of joins, whose conclusion is the
  reference's adjacency, mean and log-variance.
-/
import proofs.«159144_j70712341561937_2_alg».proof.Proof.Chain
import proofs.«159144_j70712341561937_2_alg».proof.Proof.KI.Closed0
import proofs.«159144_j70712341561937_2_alg».proof.Proof.KI.Closed1
import proofs.«159144_j70712341561937_2_alg».proof.Proof.KI.Closed2
import proofs.«159144_j70712341561937_2_alg».proof.Proof.KI.HostA
import proofs.«159144_j70712341561937_2_alg».proof.Proof.KI.HostB
import proofs.«159144_j70712341561937_2_alg».proof.Proof.KI.HostC
import proofs.«159144_j70712341561937_2_alg».proof.Proof.KI.HostD
import proofs.«159144_j70712341561937_2_alg».proof.Proof.KI.Finite
import proofs.«159144_j70712341561937_2_alg».proof.Proof.Gen.KernelIdeal.Regions

set_option maxRecDepth 16384

noncomputable section

open scoped BigOperators

namespace Cert.Bridge

open Cert.KernelIdeal Cert.KernelIdeal.Gen Cert.KernelIdeal.Fr Cert.KernelIdeal.Closed Cert.KernelIdeal.HostV
open Idealize.ShloMosaic Idealize.ShloMosaic.TcCoe Idealize.SL.Sem Idealize.ShloMosaic.ValueIdx
open Cert.ReferenceIdeal.Read (val_main_v12 val_main_v18 val_main_v59 val_main_v79 val_main_v81)

variable (m : (ℓ : Loc nD τ sig) → Buf (Elt Ideal) ℓ) (outs : Gen.Outs (F := Ideal))

/-- THE THREE RESULTS ON ONE CORE, in the reference's stages at the kernel program's own launch arguments.  The
    regions' outputs enter through their closed forms; the host operations through what they leave in the buffers
    the regions read; the rest is the chain of joins. -/
theorem values_at (c : Dev nD)
    (h6 : outs 6 main_v21 c = (dat0 (fun c b => Gen.V5 m c b) c).arrAt 3 cfg0.N)
    (h10 : outs 10 main_v57 c = (dat1 (fun c b => Gen.V9 m outs c b) c).arrAt 3 cfg1.N)
    (h12 : outs 12 main_v60 c = (dat2 (fun c b => Gen.V11 m outs c b) c).arrAt 2 cfg2.N)
    (hfin0 : ∀ i, ∃ v : ℝ, (m ((c : Thread nD τ).loc main_arg0) : S12288x512.Idx → EReal) i = (v : EReal))
    (hfin3 : ∀ i, ∃ v : ℝ, (m ((c : Thread nD τ).loc main_arg3) : S512x32.Idx → EReal) i = (v : EReal))
    (hNS : (NS m c : S12288.Idx → EReal) = val_main_v12 (F := Ideal) (m ((c : Thread nD τ).loc main_arg1)))
    (NSB NDB : S12288x32.Idx → EReal)
    (hNSB : ∀ (r : Fin 12288) (k : Fin 32),
      NSB (ix2 r k) = val_main_v12 (F := Ideal) (m ((c : Thread nD τ).loc main_arg1)) (ix1 r))
    (hNDB : ∀ (r : Fin 12288) (k : Fin 32),
      NDB (ix2 r k) = val_main_v18 (F := Ideal) (m ((c : Thread nD τ).loc main_arg2)) (ix1 r))
    (hH1 : ∀ (r : Fin 12288) (j : Fin 32), H1 m outs c (ix2 r j)
      = max ((agg32 (m ((c : Thread nD τ).loc main_arg1)) (m ((c : Thread nD τ).loc main_arg2)) (outs 6 main_v21 c) (ix2 r j)
          * val_main_v18 (F := Ideal) (m ((c : Thread nD τ).loc main_arg2)) (ix1 r))
        + (m ((c : Thread nD τ).loc main_arg4) : S32.Idx → EReal) (ix1 j)) 0)
    (hX53 : ∀ (r : Fin 12288) (k : Fin 32), X53 m outs c (ix2 r k)
      = agg32 (m ((c : Thread nD τ).loc main_arg1)) (m ((c : Thread nD τ).loc main_arg2))
          (mulf (F := Ideal) (φ := .f32) (H1 m outs c) NSB) (ix2 r k) * NDB (ix2 r k)) :
    (Gen.V12 m outs c main_v60 : S12288x12288.Idx → EReal)
        = val_main_v81 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6))
      ∧ (Gen.V12 m outs c main_v58 : S12288x16.Idx → EReal)
        = val_main_v59 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6))
      ∧ (Gen.V12 m outs c main_v59 : S12288x16.Idx → EReal)
        = val_main_v79 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg7)) (m ((c : Thread nD τ).loc main_arg8)) := by
  rw [V12_main_v60, Gen.V12_of m outs c main_v58 (by decide), Gen.V12_of m outs c main_v59 (by decide)]
  -- the three regions' outputs as functions of what the regions read
  have e0 := out0 (fun c b => Gen.V5 m c b) c
  have e1 := out1 (fun c b => Gen.V9 m outs c b) c
  have e2 := out2 (fun c b => Gen.V11 m outs c b) c
  refine chain _ _ _ _ _ _ _ _ _ hfin0 hfin3 (outs 6 main_v21 c) (H1 m outs c) (X53 m outs c) NSB NDB ?_
    hH1 hNSB hNDB hX53 (Gen.V9 m outs c main_v54) (Gen.V9 m outs c main_v56) (outs 10 main_v57 c)
    (fun k j => ⟨V9_main_v54_left m outs c k j, V9_main_v54_right m outs c k j⟩)
    (fun j => ⟨V9_main_v56_left m outs c 0 j, V9_main_v56_right m outs c 0 j⟩) ?_
    (Gen.V11 m outs c main_v58) (Gen.V11 m outs c main_v59) (V11_main_v58 m outs c) (V11_main_v59 m outs c)
    (outs 12 main_v60 c) ?_
  · -- region 0's output: the scaled features times the first weight matrix
    intro r j
    rw [h6, e0, G0_apply]
    refine Finset.sum_congr rfl fun k _ => ?_
    rw [V5_main_v19 m c r 0, hNS, V5_main_arg0, V5_main_arg3]
  · -- region 1's output: its row operand times the merged weights, plus the merged bias
    intro r j
    rw [h10, e1, G1_apply, V9_main_v53]
  · -- region 2's output: the left half times its own transpose
    intro p q
    rw [h12, e2, G2_apply]

/-- The same with the host stages between the regions read in the reference's words: what is left to know is only that
    the features and the first weights are real. -/
theorem values_closed (c : Dev nD)
    (h6 : outs 6 main_v21 c = (dat0 (fun c b => Gen.V5 m c b) c).arrAt 3 cfg0.N)
    (h10 : outs 10 main_v57 c = (dat1 (fun c b => Gen.V9 m outs c b) c).arrAt 3 cfg1.N)
    (h12 : outs 12 main_v60 c = (dat2 (fun c b => Gen.V11 m outs c b) c).arrAt 2 cfg2.N)
    (hfin0 : ∀ i, ∃ v : ℝ, (m ((c : Thread nD τ).loc main_arg0) : S12288x512.Idx → EReal) i = (v : EReal))
    (hfin3 : ∀ i, ∃ v : ℝ, (m ((c : Thread nD τ).loc main_arg3) : S512x32.Idx → EReal) i = (v : EReal)) :
    (Gen.V12 m outs c main_v60 : S12288x12288.Idx → EReal)
        = val_main_v81 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6))
      ∧ (Gen.V12 m outs c main_v58 : S12288x16.Idx → EReal)
        = val_main_v59 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6))
      ∧ (Gen.V12 m outs c main_v59 : S12288x16.Idx → EReal)
        = val_main_v79 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg7)) (m ((c : Thread nD τ).loc main_arg8)) :=
  values_at m outs c h6 h10 h12 hfin0 hfin3 (NS_eq_ref m c) (spreadVec (NS m c)) (spreadVec (ND m c))
    (NSB_apply m c) (NDB_apply m c) (H1_apply m outs c)
    (fun r k => (congrFun (V9_main_v53 m outs c).symm (ix2 r k)).trans (V9_main_v53_apply m outs c r k))

/-- THE VALUES.  From a launch memory that satisfies the precondition (every float input finite) and a reference
    memory that agrees with it on the nine arguments: whatever the three regions leave in their output arrays, as long
    as it is what their frames say (each output array is the array its grid points flush), the kernel program's three
    results are, on every core, the reference program's three results. -/
theorem values (m' : (ℓ : Loc Cert.ReferenceIdeal.nD Cert.ReferenceIdeal.τ Cert.ReferenceIdeal.sig) → Buf (Elt Ideal) ℓ)
    (hpre : Cert.Pre_KernelIdeal m)
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8))
    (h6 : ∀ c, outs 6 main_v21 c = (dat0 (fun c b => Gen.V5 m c b) c).arrAt 3 cfg0.N)
    (h10 : ∀ c, outs 10 main_v57 c = (dat1 (fun c b => Gen.V9 m outs c b) c).arrAt 3 cfg1.N)
    (h12 : ∀ c, outs 12 main_v60 c = (dat2 (fun c b => Gen.V11 m outs c b) c).arrAt 2 cfg2.N)
    (c : Dev nD) :
    Gen.V12 m outs c main_v60 = Cert.ReferenceIdeal.Value.res_out0 m' c
      ∧ Gen.V12 m outs c main_v58 = Cert.ReferenceIdeal.Value.res_out1 m' c
      ∧ Gen.V12 m outs c main_v59 = Cert.ReferenceIdeal.Value.res_out2 m' c := by
  obtain ⟨a0, a1, a2, a3, a4, a5, a6, a7, a8⟩ := hagree c
  have h := values_closed m outs c (h6 c) (h10 c) (h12 c) (finite_arg0 m hpre c) (finite_arg3 m hpre c)
  refine ⟨h.1.trans ?_, h.2.1.trans ?_, h.2.2.trans ?_⟩
  · rw [← a0, ← a1, ← a2, ← a3, ← a4, ← a5, ← a6]
    exact (Cert.ReferenceIdeal.Read.val_main_v81_eq m' c).symm
  · rw [← a0, ← a1, ← a2, ← a3, ← a4, ← a5, ← a6]
    exact (Cert.ReferenceIdeal.Read.val_main_v59_eq m' c).symm
  · rw [← a0, ← a1, ← a2, ← a3, ← a4, ← a7, ← a8]
    exact (Cert.ReferenceIdeal.Read.val_main_v79_eq m' c).symm

end Cert.Bridge

end
-- ==== Proof.lean ====
/-
  The claim: the word-level kernel program, its idealization and the reference each run to the end, fault nowhere and
  leave their nine argument arrays unchanged; the idealization rewrote no operation; and at the ideal instance (floats are
  extended reals, every operation exact, a change of float format the identity) the idealized kernel program and the
  reference, run from memories that agree on the arguments, end with equal adjacency logits, means and log-variances.

  The program is a three-layer graph auto-encoder over N = 12288 nodes and E = 405504 edges given by two integer arrays.
  With ns, nd the degree norms and agg the sum over incoming edges of the gathered source rows, the reference computes
  h1 = relu((agg(features ⊙ ns) ⊙ nd) · W1 + b1), then mu and logvar = (agg(h1 ⊙ ns) ⊙ nd) · W2 + b2, · W3 + b3, and the
  logits mu · muᵀ. The kernel program projects FIRST — p1 = (features ⊙ ns) · W1 in a blocked matrix product — and
  aggregates the 32 projected columns instead of the 512 feature columns; it forms mu and logvar in ONE product with the
  two weight matrices side by side, and the logits block by block. The two agree because projecting by W1 commutes with
  the sum over edges and with the row scaling: a rearrangement of finite sums of products of REAL numbers — the features
  and weights are finite by the precondition, and a degree norm is always a nonnegative real. Everything after the first
  layer is the same operations applied to the same values.

  Each kernel region's frame is the launch theorem for a list of segments over the three regions' records; the third
  region reads one array through two windows, which hold the two halves of that array's share.
-/
import proofs.«159144_j70712341561937_2_alg».proof.Defs
import proofs.«159144_j70712341561937_2_alg».proof.Proof.Gen.Kernel
import proofs.«159144_j70712341561937_2_alg».proof.Proof.Gen.KernelIdeal
import proofs.«159144_j70712341561937_2_alg».proof.Proof.Gen.ReferenceIdeal
import proofs.«159144_j70712341561937_2_alg».proof.Proof.Gen.Pre_finite_inputs
import proofs.«159144_j70712341561937_2_alg».proof.Proof.K.Run
import proofs.«159144_j70712341561937_2_alg».proof.Proof.KI.Run
import proofs.«159144_j70712341561937_2_alg».proof.Proof.RefRun
import proofs.«159144_j70712341561937_2_alg».proof.Proof.Values
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The word-level kernel program runs and leaves its arguments unchanged. -/
theorem frame_k : Cert.frame_Kernel := fun m ρ _ => Cert.Kernel.Fr.frame m ρ
/-- So does its idealization, read at the ideal instance. -/
theorem frame_ki : Cert.frame_KernelIdeal := fun m ρ _ => Cert.KernelIdeal.Fr.frame m ρ
/-- The reference is host operations only: its run names every result, and the frame is that run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)
/-- The ideal pass rewrote no operation. -/
theorem preserves : Cert.preserves_Kernel_KernelIdeal := trivial

section
open Cert.KernelIdeal

/-- Region 1's output array, with its entry contents written over the regions' outputs. -/
theorem outs10_at (m : (ℓ : Loc nD τ sig) → Buf (Elt Ideal) ℓ) (c : Dev nD) :
    Fr.outsOf m 10 main_v57 c = (Fr.dat1 (fun c b => Gen.V9 m (Fr.outsOf m) c b) c).arrAt 3 cfg1.N := by
  have e : (fun (c : Dev nD) (b : Ref sig .tc) => Gen.V9 m (Fr.outsOf m) c b) = Fr.U9 m :=
    funext fun c => funext fun b => congrFun (Fr.V9_eq m c) b
  rw [e]; exact Fr.outs10 m c

/-- Region 2's output array, likewise. -/
theorem outs12_at (m : (ℓ : Loc nD τ sig) → Buf (Elt Ideal) ℓ) (c : Dev nD) :
    Fr.outsOf m 12 main_v60 c = (Fr.dat2 (fun c b => Gen.V11 m (Fr.outsOf m) c b) c).arrAt 2 cfg2.N := by
  have e : (fun (c : Dev nD) (b : Ref sig .tc) => Gen.V11 m (Fr.outsOf m) c b) = Fr.U11 m :=
    funext fun c => funext fun b => congrFun (Fr.V11_eq m c) b
  rw [e]; exact Fr.outs12 m c

end

/-- At the ideal instance the kernel program's run ends with its three results at the last staged contents, and these are
    the reference's three results of the same arguments: the regions' outputs are the blocked products, the host
    operations between them are the reference's own, and the first layer's two orders agree on real entries. -/
theorem algebraic : Cert.algebraic_KernelIdeal_ReferenceIdeal := by
  intro m ρ m' ρ' hpre hagree
  refine ⟨fun c => Cert.KernelIdeal.Gen.V12 m (Cert.KernelIdeal.Fr.outsOf m) c Cert.KernelIdeal.main_v60,
    fun c => Cert.KernelIdeal.Gen.V12 m (Cert.KernelIdeal.Fr.outsOf m) c Cert.KernelIdeal.main_v58,
    fun c => Cert.KernelIdeal.Gen.V12 m (Cert.KernelIdeal.Fr.outsOf m) c Cert.KernelIdeal.main_v59,
    Cert.KernelIdeal.Fr.run_results m ρ, ?_⟩
  refine (θ_run Cert.ReferenceIdeal.defs _ _).mono (fun _ h c => ?_) (Cert.ReferenceIdeal.Value.run (F := Ideal) m' ρ')
  have hv := Cert.Bridge.values m (Cert.KernelIdeal.Fr.outsOf m) m' hpre hagree
    (fun c => Cert.KernelIdeal.Fr.outs6 m c) (fun c => outs10_at m c) (fun c => outs12_at m c) c
  exact ⟨(h c).1.trans hv.1.symm, (h c).2.1.trans hv.2.1.symm, (h c).2.2.1.trans hv.2.2.symm, (h c).2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
